-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_c_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_c_10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_c_18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x10000x32 : Shape := ⟨3, ![16, 10000, 32]⟩
abbrev S2x160000 : Shape := ⟨2, ![2, 160000]⟩
abbrev S160000 : Shape := ⟨1, ![160000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S16x10000x32 : S_.BroadcastsInDim S16x10000x32 (![] : Fin 0 → Fin S16x10000x32.rank)
  reducesTo_S16x10000x32_S_d0_1_2 : S16x10000x32.ReducesTo [0, 1, 2] S_
  h_S_ : 0 < S_.numel
  bcast_S_S160000 : S_.BroadcastsInDim S160000 (![] : Fin 0 → Fin S160000.rank)
  reducesTo_S160000_S_d0 : S160000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_v28 : IVec S_ 1) (main_v33 : IVec S2x160000 1) : IVec S_ 1 :=
  let main_c_12 : IVec S_ 1 := constantI S_ 1 1#1
  let main_v34 : IVec S_ 1 := (fun x v => Host.reduce IntOp.andi x v reducesTo_S2x160000_S_d0_1 h_S_) main_v33 main_c_12
  let main_v35 : IVec S_ 1 := andi main_v28 main_v34
  main_v35

def fn_part1 {F : FTy → Type} [FloatOps F] (main_arg1 : IVec S2x160000 32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_c_10 : IVec S_ 32 := constantI S_ 32 0#32
  let main_v29 : IVec S2x160000 32 := broadcastInDim S2x160000 ![] bcast_S_S2x160000 main_c_10
  let main_v30 : IVec S2x160000 1 := cmpi .sge main_arg1 main_v29
  let main_c_11 : IVec S_ 32 := constantI S_ 32 10000#32
  let main_v31 : IVec S2x160000 32 := broadcastInDim S2x160000 ![] bcast_S_S2x160000 main_c_11
  let main_v32 : IVec S2x160000 1 := cmpi .slt main_arg1 main_v31
  let main_v33 : IVec S2x160000 1 := andi main_v30 main_v32
  fn_part2 (F := F) main_v28 main_v33

def fn {F : FTy → Type} [FloatOps F] (main_arg0 : FVec F S16x10000x32 .f32) (main_arg1 : IVec S2x160000 32) (main_arg2 : FVec F S160000 .f32) (main_arg3 : IVec S16x10000x32 1) (main_arg4 : FVec F S32x64 .f32) (main_arg5 : FVec F S64 .f32) (main_arg6 : FVec F S64x32 .f32) (main_arg7 : FVec F S32 .f32) : IVec S_ 1 :=
  let main_v0 : FVec F S16x10000x32 .f32 := Host.absf main_arg0
  let main_cst : FVec F S_ .f32 := constant S_ .f32 0x7F800000#32
  let main_v1 : FVec F S16x10000x32 .f32 := broadcastInDim S16x10000x32 ![] bcast_S_S16x10000x32 main_cst
  let main_v2 : IVec S16x10000x32 1 := cmpf .olt main_v0 main_v1
  let main_c : IVec S_ 1 := constantI S_ 1 1#1
  let main_v3 : IVec S_ 1 := (fun x v => Host.reduce IntOp.andi x v reducesTo_S16x10000x32_S_d0_1_2 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg6 main_arg7 main_v13 main_v16
-- ==== Kernel.lean ====
abbrev S16x10000x32 : Shape := ⟨3, ![16, 10000, 32]⟩
abbrev S2x160000 : Shape := ⟨2, ![2, 160000]⟩
abbrev S160000 : Shape := ⟨1, ![160000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S10000 : Shape := ⟨1, ![10000]⟩
abbrev S1x160000 : Shape := ⟨2, ![1, 160000]⟩
abbrev S170000 : Shape := ⟨1, ![170000]⟩
abbrev S_ : Shape := ⟨0, ![]⟩
abbrev S170000x1 : Shape := ⟨2, ![170000, 1]⟩
abbrev S10000x1 : Shape := ⟨2, ![10000, 1]⟩
abbrev S10000x16x32 : Shape := ⟨3, ![10000, 16, 32]⟩
abbrev S10000x16x64 : Shape := ⟨3, ![10000, 16, 64]⟩
abbrev S400x16x32 : Shape := ⟨3, ![400, 16, 32]⟩
abbrev S400x1 : Shape := ⟨2, ![400, 1]⟩
abbrev S400x16x64 : Shape := ⟨3, ![400, 16, 64]⟩
abbrev S6400x32 : Shape := ⟨2, ![6400, 32]⟩
abbrev S6400x64 : Shape := ⟨2, ![6400, 64]⟩
abbrev S400x1x1 : Shape := ⟨3, ![400, 1, 1]⟩
abbrev S10000x1024 : Shape := ⟨2, ![10000, 1024]⟩
abbrev S170000x1024 : Shape := ⟨2, ![170000, 1024]⟩
abbrev S1x64 : Shape := ⟨2, ![1, 64]⟩
abbrev S1x1x64 : Shape := ⟨3, ![1, 1, 64]⟩
abbrev S10000x512 : Shape := ⟨2, ![10000, 512]⟩
abbrev S170000x512 : Shape := ⟨2, ![170000, 512]⟩
abbrev S1x32 : Shape := ⟨2, ![1, 32]⟩
abbrev S1x1x32 : Shape := ⟨3, ![1, 1, 32]⟩

abbrev nBuf : Space → Nat
  | .hbm => 82
  | .vmem => 22
  | .smem => 0
  | _ => 0

abbrev bufTy : (tb : Table) → Fin (tcTables nBuf tb) → BufTy
  | .hbm, ⟨0, _⟩ => ⟨S16x10000x32, .f32⟩
  | .hbm, ⟨1, _⟩ => ⟨S2x160000, .i32⟩
  | .hbm, ⟨2, _⟩ => ⟨S160000, .f32⟩
  | .hbm, ⟨3, _⟩ => ⟨S16x10000x32, .i1⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S10000, .f32⟩
  | .hbm, ⟨17, _⟩ => ⟨S170000, .f32⟩
  | .hbm, ⟨18, _⟩ => ⟨S_, .f32⟩
  | .hbm, ⟨19, _⟩ => ⟨S10000, .f32⟩
  | .hbm, ⟨20, _⟩ => ⟨S170000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000, .f32⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S10000x1, .f32⟩
  | .hbm, ⟨38, _⟩ => ⟨S10000x16x32, .f32⟩
  | .hbm, ⟨39, _⟩ => ⟨S10000x16x64, .f32⟩
  | .hbm, ⟨40, _⟩ => ⟨S10000x1024, .f32⟩
  | .hbm, ⟨41, _⟩ => ⟨S_, .i32⟩
  | .hbm, ⟨42, _⟩ => ⟨S170000, .i32⟩
  | .hbm, ⟨43, _⟩ => ⟨S170000, .i1⟩
  | .hbm, ⟨44, _⟩ => ⟨S_, .i32⟩
  | .hbm, ⟨45, _⟩ => ⟨S170000, .i32⟩
  | .hbm, ⟨46, _⟩ => ⟨S170000, .i32⟩
  | .hbm, ⟨47, _⟩ => ⟨S170000, .i32⟩
  | .hbm, ⟨48, _⟩ => ⟨S170000x1, .i32⟩
  | .hbm, ⟨49, _⟩ => ⟨S170000x1024, .f32⟩
  | .hbm, ⟨50, _⟩ => ⟨S170000x1, .f32⟩
  | .hbm, ⟨51, _⟩ => ⟨S170000x1024, .f32⟩
  | .hbm, ⟨52, _⟩ => ⟨S170000x1024, .f32⟩
  | .hbm, ⟨53, _⟩ => ⟨S_, .f32⟩
  | .hbm, ⟨54, _⟩ => ⟨S10000x1024, .f32⟩
  | .hbm, ⟨55, _⟩ => ⟨S170000x1, .i32⟩
  | .hbm, ⟨56, _⟩ => ⟨S10000x1024, .f32⟩
  | .hbm, ⟨57, _⟩ => ⟨S10000x16x64, .f32⟩
  | .hbm, ⟨58, _⟩ => ⟨S1x64, .f32⟩
  | .hbm, ⟨59, _⟩ => ⟨S10000x16x32, .f32⟩
  | .hbm, ⟨60, _⟩ => ⟨S10000x512, .f32⟩
  | .hbm, ⟨61, _⟩ => ⟨S_, .i32⟩
  | .hbm, ⟨62, _⟩ => ⟨S170000, .i32⟩
  | .hbm, ⟨63, _⟩ => ⟨S170000, .i1⟩
  | .hbm, ⟨64, _⟩ => ⟨S_, .i32⟩
  | .hbm, ⟨65, _⟩ => ⟨S170000, .i32⟩
  | .hbm, ⟨66, _⟩ => ⟨S170000, .i32⟩
  | .hbm, ⟨67, _⟩ => ⟨S170000, .i32⟩
  | .hbm, ⟨68, _⟩ => ⟨S170000x1, .i32⟩
  | .hbm, ⟨69, _⟩ => ⟨S170000x512, .f32⟩
  | .hbm, ⟨70, _⟩ => ⟨S170000x1, .f32⟩
  | .hbm, ⟨71, _⟩ => ⟨S170000x512, .f32⟩
  | .hbm, ⟨72, _⟩ => ⟨S170000x512, .f32⟩
  | .hbm, ⟨73, _⟩ => ⟨S_, .f32⟩
  | .hbm, ⟨74, _⟩ => ⟨S10000x512, .f32⟩
  | .hbm, ⟨75, _⟩ => ⟨S170000x1, .i32⟩
  | .hbm, ⟨76, _⟩ => ⟨S10000x512, .f32⟩
  | .hbm, ⟨77, _⟩ => ⟨S10000x16x32, .f32⟩
  | .hbm, ⟨78, _⟩ => ⟨S1x32, .f32⟩
  | .hbm, ⟨79, _⟩ => ⟨S10000x16x32, .f32⟩
  | .hbm, ⟨80, _⟩ => ⟨S16x10000x32, .f32⟩
  | .hbm, ⟨81, _⟩ => ⟨S_, .i32⟩
  | .local _ .vmem, ⟨0, _⟩ => ⟨S400x16x32, .f32⟩
  | .local _ .vmem, ⟨1, _⟩ => ⟨S400x16x32, .f32⟩
  | .local _ .vmem, ⟨2, _⟩ => ⟨S32x64, .f32⟩
  | .local _ .vmem, ⟨3, _⟩ => ⟨S400x1, .f32⟩
  | .local _ .vmem, ⟨4, _⟩ => ⟨S400x1, .f32⟩
  | .local _ .vmem, ⟨5, _⟩ => ⟨S400x16x64, .f32⟩
  | .local _ .vmem, ⟨6, _⟩ => ⟨S400x16x64, .f32⟩
  | .local _ .vmem, ⟨7, _⟩ => ⟨S400x16x64, .f32⟩
  | .local _ .vmem, ⟨8, _⟩ => ⟨S400x16x64, .f32⟩
  | .local _ .vmem, ⟨9, _⟩ => ⟨S400x1, .f32⟩
  | .local _ .vmem, ⟨10, _⟩ => ⟨S400x1, .f32⟩
  | .local _ .vmem, ⟨11, _⟩ => ⟨S1x64, .f32⟩
  | .local _ .vmem, ⟨12, _⟩ => ⟨S64x32, .f32⟩
  | .local _ .vmem, ⟨13, _⟩ => ⟨S400x16x32, .f32⟩
  | .local _ .vmem, ⟨14, _⟩ => ⟨S400x16x32, .f32⟩
  | .local _ .vmem, ⟨15, _⟩ => ⟨S400x16x32, .f32⟩
  | .local _ .vmem, ⟨16, _⟩ => ⟨S400x16x32, .f32⟩
  | .local _ .vmem, ⟨17, _⟩ => ⟨S400x1, .f32⟩
  | .local _ .vmem, ⟨18, _⟩ => ⟨S400x1, .f32⟩
  | .local _ .vmem, ⟨19, _⟩ => ⟨S1x32, .f32⟩
  | .local _ .vmem, ⟨20, _⟩ => ⟨S400x16x32, .f32⟩
  | .local _ .vmem, ⟨21, _⟩ => ⟨S400x16x32, .f32⟩
  | _, _ => ⟨S16x10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S400x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x16x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S400x16x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x16x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S170000_S170000x1_0 : S170000.BroadcastsInDim S170000x1 (![0] : Fin 1 → Fin S170000x1.rank)
  shapeCasts_S10000_S10000x1 : S10000.ShapeCasts S10000x1
  transposes_S16x10000x32_S10000x16x32_1_0_2 : S16x10000x32.Transposes [1, 0, 2] S10000x16x32
  inb_S400x16x32_S400x16x32_0_0_0 : ∀ a, (![0, 0, 0] : Fin 3 → Nat) a + S400x16x32.size a ≤ S400x16x32.size a
  h_S400x16x32 : 0 < S400x16x32.numel
  shapeCasts_S400x16x32_S400x16x32 : S400x16x32.ShapeCasts S400x16x32
  shapeCasts_S400x16x32_S6400x32 : S400x16x32.ShapeCasts S6400x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S6400x64_S400x16x64 : S6400x64.ShapeCasts S400x16x64
  inb_S400x1_S400x1_0_0 : ∀ a, (![0, 0] : Fin 2 → Nat) a + S400x1.size a ≤ S400x1.size a
  h_S400x1 : 0 < S400x1.numel
  shapeCasts_S400x1_S400x1 : S400x1.ShapeCasts S400x1
  shapeCasts_S400x1_S400x1x1 : S400x1.ShapeCasts S400x1x1
  broadcasts_S400x1x1_S400x16x64 : S400x1x1.Broadcasts S400x16x64
  inb_S400x16x64_S400x16x64_0_0_0 : ∀ a, (![0, 0, 0] : Fin 3 → Nat) a + S400x16x64.size a ≤ S400x16x64.size a
  h_S400x16x64 : 0 < S400x16x64.numel
  shapeCasts_S10000x16x64_S10000x1024 : S10000x16x64.ShapeCasts S10000x1024
  bcast_S_S170000 : S_.BroadcastsInDim S170000 (![] : Fin 0 → Fin S170000.rank)
  bcast_S170000x1_S170000x1024_0_1 : S170000x1.BroadcastsInDim S170000x1024 (![0, 1] : Fin 2 → Fin S170000x1024.rank)
  bcast_S_S10000x1024 : S_.BroadcastsInDim S10000x1024 (![] : Fin 0 → Fin S10000x1024.rank)
  shapeCasts_S10000x1024_S10000x16x64 : S10000x1024.ShapeCasts S10000x16x64
  shapeCasts_S64_S1x64 : S64.ShapeCasts S1x64
  shapeCasts_S400x16x64_S400x16x64 : S400x16x64.ShapeCasts S400x16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S400x16x64 : S1x1x64.Broadcasts S400x16x64
  shapeCasts_S400x16x64_S6400x64 : S400x16x64.ShapeCasts S6400x64
  inb_S64x32_S64x32_0_0 : ∀ a, (![0, 0] : Fin 2 → Nat) a + S64x32.size a ≤ S64x32.size a
  h_S64x32 : 0 < S64x32.numel
  shapeCasts_S6400x32_S400x16x32 : S6400x32.ShapeCasts S400x16x32
  broadcasts_S400x1x1_S400x16x32 : S400x1x1.Broadcasts S400x16x32
  shapeCasts_S10000x16x32_S10000x512 : S10000x16x32.ShapeCasts S10000x512
  bcast_S170000x1_S170000x512_0_1 : S170000x1.BroadcastsInDim S170000x512 (![0, 1] : Fin 2 → Fin S170000x512.rank)
  bcast_S_S10000x512 : S_.BroadcastsInDim S10000x512 (![] : Fin 0 → Fin S10000x512.rank)
  shapeCasts_S10000x512_S10000x16x32 : S10000x512.ShapeCasts S10000x16x32
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  shapeCasts_S1x32_S1x1x32 : S1x32.ShapeCasts S1x1x32
  broadcasts_S1x1x32_S400x16x32 : S1x1x32.Broadcasts S400x16x32
  transposes_S10000x16x32_S16x10000x32_1_0_2 : S10000x16x32.Transposes [1, 0, 2] S16x10000x32
  scatter_S10000_S170000x1_S170000_n_0_0_1_wf : ScatterDims.WF S10000 S170000x1 S170000 [] [0] [0] 1
  dot_S6400x32_S32x64_S6400x64_1_0_0_1_n_n_wf : DotDims.WF S6400x32 S32x64 S6400x64 [1] [0] [0] [1] [] []
  gather_S10000x1024_S170000x1_S170000x1024_1_0_n_n_0_1_11024_wf : GatherDims.WF S10000x1024 S170000x1 S170000x1024 [1] [0] [] [0] [] 1 ![1, 1024]
  scatter_S10000x1024_S170000x1_S170000x1024_1_0_0_1_wf : ScatterDims.WF S10000x1024 S170000x1 S170000x1024 [1] [0] [0] 1
  dot_S6400x64_S64x32_S6400x32_1_0_0_1_n_n_wf : DotDims.WF S6400x64 S64x32 S6400x32 [1] [0] [0] [1] [] []
  gather_S10000x512_S170000x1_S170000x512_1_0_n_n_0_1_1512_wf : GatherDims.WF S10000x512 S170000x1 S170000x512 [1] [0] [] [0] [] 1 ![1, 512]
  scatter_S10000x512_S170000x1_S170000x512_1_0_0_1_wf : ScatterDims.WF S10000x512 S170000x1 S170000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x16x32.size a ≤ S10000x16x32.size a
  hwx0_0 : ∀ i : grid0.Coords, EltTy.bits .f32 = 32 ∨ (Rect.block (s := S10000x16x32) S400x16x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S10000x1.size a
  hwx0_2 : ∀ i : grid0.Coords, EltTy.bits .f32 = 32 ∨ (Rect.block (s := S10000x1) S400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x16x64.size a ≤ S10000x16x64.size a
  hwx0_3 : ∀ i : grid0.Coords, EltTy.bits .f32 = 32 ∨ (Rect.block (s := S10000x16x64) S400x16x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x16x64.size a ≤ S10000x16x64.size a
  hwx1_0 : ∀ i : grid1.Coords, EltTy.bits .f32 = 32 ∨ (Rect.block (s := S10000x16x64) S400x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x1.size a ≤ S10000x1.size a
  hwx1_1 : ∀ i : grid1.Coords, EltTy.bits .f32 = 32 ∨ (Rect.block (s := S10000x1) S400x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16x32.size a ≤ S10000x16x32.size a
  hwx1_4 : ∀ i : grid1.Coords, EltTy.bits .f32 = 32 ∨ (Rect.block (s := S10000x16x32) S400x16x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x16x32.size a ≤ S10000x16x32.size a
  hwx2_0 : ∀ i : grid2.Coords, EltTy.bits .f32 = 32 ∨ (Rect.block (s := S10000x16x32) S400x16x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x1.size a ≤ S10000x1.size a
  hwx2_1 : ∀ i : grid2.Coords, EltTy.bits .f32 = 32 ∨ (Rect.block (s := S10000x1) S400x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16x32.size a ≤ S10000x16x32.size a
  hwx2_3 : ∀ i : grid2.Coords, EltTy.bits .f32 = 32 ∨ (Rect.block (s := S10000x16x32) S400x16x32.size (cc2_transform_3 i) (hinb2_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def dot_S6400x32_S32x64_S6400x64_1_0_0_1_n_n : DotDims S6400x32 S32x64 S6400x64 where
  lhsContracting := [1]
  rhsContracting := [0]
  lhsNonContracting := [0]
  rhsNonContracting := [1]
  lhsBatch := []
  rhsBatch := []
  wf := dot_S6400x32_S32x64_S6400x64_1_0_0_1_n_n_wf
def gather_S10000x1024_S170000x1_S170000x1024_1_0_n_n_0_1_11024 : GatherDims S10000x1024 S170000x1 S170000x1024 where
  offsetDims := [1]
  collapsedSliceDims := [0]
  operandBatchingDims := []
  startIndicesBatchingDims := []
  startIndexMap := [0]
  indexVectorDim := 1
  sliceSizes := ![1, 1024]
  wf := gather_S10000x1024_S170000x1_S170000x1024_1_0_n_n_0_1_11024_wf
def scatter_S10000x1024_S170000x1_S170000x1024_1_0_0_1 : ScatterDims S10000x1024 S170000x1 S170000x1024 where
  updateWindowDims := [1]
  insertedWindowDims := [0]
  scatterDimsToOperandDims := [0]
  indexVectorDim := 1
  wf := scatter_S10000x1024_S170000x1_S170000x1024_1_0_0_1_wf
def dot_S6400x64_S64x32_S6400x32_1_0_0_1_n_n : DotDims S6400x64 S64x32 S6400x32 where
  lhsContracting := [1]
  rhsContracting := [0]
  lhsNonContracting := [0]
  rhsNonContracting := [1]
  lhsBatch := []
  rhsBatch := []
  wf := dot_S6400x64_S64x32_S6400x32_1_0_0_1_n_n_wf
def gather_S10000x512_S170000x1_S170000x512_1_0_n_n_0_1_1512 : GatherDims S10000x512 S170000x1 S170000x512 where
  offsetDims := [1]
  collapsedSliceDims := [0]
  operandBatchingDims := []
  startIndicesBatchingDims := []
  startIndexMap := [0]
  indexVectorDim := 1
  sliceSizes := ![1, 512]
  wf := gather_S10000x512_S170000x1_S170000x512_1_0_n_n_0_1_1512_wf
def scatter_S10000x512_S170000x1_S170000x512_1_0_0_1 : ScatterDims S10000x512 S170000x1 S170000x512 where
  updateWindowDims := [1]
  insertedWindowDims := [0]
  scatterDimsToOperandDims := [0]
  indexVectorDim := 1
  wf := scatter_S10000x512_S170000x1_S170000x512_1_0_0_1_wf

abbrev win0_0 : Pipeline.Window sig grid0 :=
  Pipeline.Window.ofSpec (Memref.whole main_v20) S400x16x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S400x16x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S400x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S400x16x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S400x16x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S400x16x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x10000x32 : Shape := ⟨3, ![16, 10000, 32]⟩
abbrev S2x160000 : Shape := ⟨2, ![2, 160000]⟩
abbrev S160000 : Shape := ⟨1, ![160000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S10000 : Shape := ⟨1, ![10000]⟩
abbrev S1x160000 : Shape := ⟨2, ![1, 160000]⟩
abbrev S170000 : Shape := ⟨1, ![170000]⟩
abbrev S_ : Shape := ⟨0, ![]⟩
abbrev S170000x1 : Shape := ⟨2, ![170000, 1]⟩
abbrev S16x10000x64 : Shape := ⟨3, ![16, 10000, 64]⟩
abbrev S16x170000x64 : Shape := ⟨3, ![16, 170000, 64]⟩
abbrev S1x170000x1 : Shape := ⟨3, ![1, 170000, 1]⟩
abbrev S1x1x64 : Shape := ⟨3, ![1, 1, 64]⟩
abbrev S16x170000x32 : Shape := ⟨3, ![16, 170000, 32]⟩
abbrev S1x1x32 : Shape := ⟨3, ![1, 1, 32]⟩

abbrev nBuf : Space → Nat
  | .hbm => 115
  | .vmem => 0
  | .smem => 0
  | _ => 0

abbrev bufTy : (tb : Table) → Fin (tcTables nBuf tb) → BufTy
  | .hbm, ⟨0, _⟩ => ⟨S16x10000x32, .f32⟩
  | .hbm, ⟨1, _⟩ => ⟨S2x160000, .i32⟩
  | .hbm, ⟨2, _⟩ => ⟨S160000, .f32⟩
  | .hbm, ⟨3, _⟩ => ⟨S16x10000x32, .i1⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S10000, .i32⟩
  | .hbm, ⟨9, _⟩ => ⟨S1x160000, .i32⟩
  | .hbm, ⟨10, _⟩ => ⟨S160000, .i32⟩
  | .hbm, ⟨11, _⟩ => ⟨S170000, .i32⟩
  | .hbm, ⟨12, _⟩ => ⟨S1x160000, .i32⟩
  | .hbm, ⟨13, _⟩ => ⟨S160000, .i32⟩
  | .hbm, ⟨14, _⟩ => ⟨S170000, .i32⟩
  | .hbm, ⟨15, _⟩ => ⟨S_, .f32⟩
  | .hbm, ⟨16, _⟩ => ⟨S10000, .f32⟩
  | .hbm, ⟨17, _⟩ => ⟨S170000, .f32⟩
  | .hbm, ⟨18, _⟩ => ⟨S_, .f32⟩
  | .hbm, ⟨19, _⟩ => ⟨S10000, .f32⟩
  | .hbm, ⟨20, _⟩ => ⟨S170000x1, .i32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .i1⟩
  | .hbm, ⟨25, _⟩ => ⟨S_, .f32⟩
  | .hbm, ⟨26, _⟩ => ⟨S10000, .f32⟩
  | .hbm, ⟨27, _⟩ => ⟨S10000, .i1⟩
  | .hbm, ⟨28, _⟩ => ⟨S_, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000, .f32⟩
  | .hbm, ⟨33, _⟩ => ⟨S_, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .i32⟩
  | .hbm, ⟨38, _⟩ => ⟨S170000, .i32⟩
  | .hbm, ⟨39, _⟩ => ⟨S170000, .i1⟩
  | .hbm, ⟨40, _⟩ => ⟨S_, .i32⟩
  | .hbm, ⟨41, _⟩ => ⟨S170000, .i32⟩
  | .hbm, ⟨42, _⟩ => ⟨S170000, .i32⟩
  | .hbm, ⟨43, _⟩ => ⟨S170000, .i32⟩
  | .hbm, ⟨44, _⟩ => ⟨S170000x1, .i32⟩
  | .hbm, ⟨45, _⟩ => ⟨S170000, .f32⟩
  | .hbm, ⟨46, _⟩ => ⟨S170000, .f32⟩
  | .hbm, ⟨47, _⟩ => ⟨S_, .i32⟩
  | .hbm, ⟨48, _⟩ => ⟨S170000, .i32⟩
  | .hbm, ⟨49, _⟩ => ⟨S170000, .i1⟩
  | .hbm, ⟨50, _⟩ => ⟨S_, .i32⟩
  | .hbm, ⟨51, _⟩ => ⟨S170000, .i32⟩
  | .hbm, ⟨52, _⟩ => ⟨S170000, .i32⟩
  | .hbm, ⟨53, _⟩ => ⟨S170000, .i32⟩
  | .hbm, ⟨54, _⟩ => ⟨S170000x1, .i32⟩
  | .hbm, ⟨55, _⟩ => ⟨S170000, .f32⟩
  | .hbm, ⟨56, _⟩ => ⟨S170000, .f32⟩
  | .hbm, ⟨57, _⟩ => ⟨S16x10000x64, .f32⟩
  | .hbm, ⟨58, _⟩ => ⟨S_, .i32⟩
  | .hbm, ⟨59, _⟩ => ⟨S170000, .i32⟩
  | .hbm, ⟨60, _⟩ => ⟨S170000, .i1⟩
  | .hbm, ⟨61, _⟩ => ⟨S_, .i32⟩
  | .hbm, ⟨62, _⟩ => ⟨S170000, .i32⟩
  | .hbm, ⟨63, _⟩ => ⟨S170000, .i32⟩
  | .hbm, ⟨64, _⟩ => ⟨S170000, .i32⟩
  | .hbm, ⟨65, _⟩ => ⟨S170000x1, .i32⟩
  | .hbm, ⟨66, _⟩ => ⟨S16x170000x64, .f32⟩
  | .hbm, ⟨67, _⟩ => ⟨S1x170000x1, .f32⟩
  | .hbm, ⟨68, _⟩ => ⟨S16x170000x64, .f32⟩
  | .hbm, ⟨69, _⟩ => ⟨S16x170000x64, .f32⟩
  | .hbm, ⟨70, _⟩ => ⟨S_, .f32⟩
  | .hbm, ⟨71, _⟩ => ⟨S16x10000x64, .f32⟩
  | .hbm, ⟨72, _⟩ => ⟨S_, .i32⟩
  | .hbm, ⟨73, _⟩ => ⟨S170000, .i32⟩
  | .hbm, ⟨74, _⟩ => ⟨S170000, .i1⟩
  | .hbm, ⟨75, _⟩ => ⟨S_, .i32⟩
  | .hbm, ⟨76, _⟩ => ⟨S170000, .i32⟩
  | .hbm, ⟨77, _⟩ => ⟨S170000, .i32⟩
  | .hbm, ⟨78, _⟩ => ⟨S170000, .i32⟩
  | .hbm, ⟨79, _⟩ => ⟨S170000x1, .i32⟩
  | .hbm, ⟨80, _⟩ => ⟨S16x10000x64, .f32⟩
  | .hbm, ⟨81, _⟩ => ⟨S1x1x64, .f32⟩
  | .hbm, ⟨82, _⟩ => ⟨S16x10000x64, .f32⟩
  | .hbm, ⟨83, _⟩ => ⟨S16x10000x64, .f32⟩
  | .hbm, ⟨84, _⟩ => ⟨S_, .f32⟩
  | .hbm, ⟨85, _⟩ => ⟨S16x10000x64, .f32⟩
  | .hbm, ⟨86, _⟩ => ⟨S16x10000x64, .f32⟩
  | .hbm, ⟨87, _⟩ => ⟨S16x10000x32, .f32⟩
  | .hbm, ⟨88, _⟩ => ⟨S_, .i32⟩
  | .hbm, ⟨89, _⟩ => ⟨S170000, .i32⟩
  | .hbm, ⟨90, _⟩ => ⟨S170000, .i1⟩
  | .hbm, ⟨91, _⟩ => ⟨S_, .i32⟩
  | .hbm, ⟨92, _⟩ => ⟨S170000, .i32⟩
  | .hbm, ⟨93, _⟩ => ⟨S170000, .i32⟩
  | .hbm, ⟨94, _⟩ => ⟨S170000, .i32⟩
  | .hbm, ⟨95, _⟩ => ⟨S170000x1, .i32⟩
  | .hbm, ⟨96, _⟩ => ⟨S16x170000x32, .f32⟩
  | .hbm, ⟨97, _⟩ => ⟨S1x170000x1, .f32⟩
  | .hbm, ⟨98, _⟩ => ⟨S16x170000x32, .f32⟩
  | .hbm, ⟨99, _⟩ => ⟨S16x170000x32, .f32⟩
  | .hbm, ⟨100, _⟩ => ⟨S_, .f32⟩
  | .hbm, ⟨101, _⟩ => ⟨S16x10000x32, .f32⟩
  | .hbm, ⟨102, _⟩ => ⟨S_, .i32⟩
  | .hbm, ⟨103, _⟩ => ⟨S170000, .i32⟩
  | .hbm, ⟨104, _⟩ => ⟨S170000, .i1⟩
  | .hbm, ⟨105, _⟩ => ⟨S_, .i32⟩
  | .hbm, ⟨106, _⟩ => ⟨S170000, .i32⟩
  | .hbm, ⟨107, _⟩ => ⟨S170000, .i32⟩
  | .hbm, ⟨108, _⟩ => ⟨S170000, .i32⟩
  | .hbm, ⟨109, _⟩ => ⟨S170000x1, .i32⟩
  | .hbm, ⟨110, _⟩ => ⟨S16x10000x32, .f32⟩
  | .hbm, ⟨111, _⟩ => ⟨S1x1x32, .f32⟩
  | .hbm, ⟨112, _⟩ => ⟨S16x10000x32, .f32⟩
  | .hbm, ⟨113, _⟩ => ⟨S16x10000x32, .f32⟩
  | .hbm, ⟨114, _⟩ => ⟨S_, .i32⟩
  | _, _ => ⟨S16x10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_c_12 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call2_cst : Ref sig .tc := ⟨.hbm, 84, rfl⟩
abbrev main_call2_v0 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_c_16 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S10000_S170000_d0 : Shape.Concatenates [S160000, S10000] S170000 0
  slices_S2x160000_S1x160000_1_0 : S2x160000.Slices ![1, 0] S1x160000
  bcast_S_S10000 : S_.BroadcastsInDim S10000 (![] : Fin 0 → Fin S10000.rank)
  bcast_S170000_S170000x1_0 : S170000.BroadcastsInDim S170000x1 (![0] : Fin 1 → Fin S170000x1.rank)
  bcast_S_S170000 : S_.BroadcastsInDim S170000 (![] : Fin 0 → Fin S170000.rank)
  bcast_S170000_S1x170000x1_1 : S170000.BroadcastsInDim S1x170000x1 (![1] : Fin 1 → Fin S1x170000x1.rank)
  bcast_S1x170000x1_S16x170000x64_0_1_2 : S1x170000x1.BroadcastsInDim S16x170000x64 (![0, 1, 2] : Fin 3 → Fin S16x170000x64.rank)
  bcast_S_S16x10000x64 : S_.BroadcastsInDim S16x10000x64 (![] : Fin 0 → Fin S16x10000x64.rank)
  bcast_S64_S1x1x64_2 : S64.BroadcastsInDim S1x1x64 (![2] : Fin 1 → Fin S1x1x64.rank)
  bcast_S1x1x64_S16x10000x64_0_1_2 : S1x1x64.BroadcastsInDim S16x10000x64 (![0, 1, 2] : Fin 3 → Fin S16x10000x64.rank)
  bcast_S1x170000x1_S16x170000x32_0_1_2 : S1x170000x1.BroadcastsInDim S16x170000x32 (![0, 1, 2] : Fin 3 → Fin S16x170000x32.rank)
  bcast_S_S16x10000x32 : S_.BroadcastsInDim S16x10000x32 (![] : Fin 0 → Fin S16x10000x32.rank)
  bcast_S32_S1x1x32_2 : S32.BroadcastsInDim S1x1x32 (![2] : Fin 1 → Fin S1x1x32.rank)
  bcast_S1x1x32_S16x10000x32_0_1_2 : S1x1x32.BroadcastsInDim S16x10000x32 (![0, 1, 2] : Fin 3 → Fin S16x10000x32.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S16x10000x32_S32x64_S16x10000x64_2_0_01_1_n_n_wf : DotDims.WF S16x10000x32 S32x64 S16x10000x64 [2] [0] [0, 1] [1] [] []
  gather_S16x10000x64_S170000x1_S16x170000x64_02_1_n_n_1_1_16164_wf : GatherDims.WF S16x10000x64 S170000x1 S16x170000x64 [0, 2] [1] [] [1] [] 1 ![16, 1, 64]
  scatter_S16x10000x64_S170000x1_S16x170000x64_02_1_1_1_wf : ScatterDims.WF S16x10000x64 S170000x1 S16x170000x64 [0, 2] [1] [1] 1
  dot_S16x10000x64_S64x32_S16x10000x32_2_0_01_1_n_n_wf : DotDims.WF S16x10000x64 S64x32 S16x10000x32 [2] [0] [0, 1] [1] [] []
  gather_S16x10000x32_S170000x1_S16x170000x32_02_1_n_n_1_1_16132_wf : GatherDims.WF S16x10000x32 S170000x1 S16x170000x32 [0, 2] [1] [] [1] [] 1 ![16, 1, 32]
  scatter_S16x10000x32_S170000x1_S16x170000x32_02_1_1_1_wf : ScatterDims.WF S16x10000x32 S170000x1 S16x170000x32 [0, 2] [1] [1] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S16x10000x32_S32x64_S16x10000x64_2_0_01_1_n_n : DotDims S16x10000x32 S32x64 S16x10000x64 where
  lhsContracting := [2]
  rhsContracting := [0]
  lhsNonContracting := [0, 1]
  rhsNonContracting := [1]
  lhsBatch := []
  rhsBatch := []
  wf := dot_S16x10000x32_S32x64_S16x10000x64_2_0_01_1_n_n_wf
def gather_S16x10000x64_S170000x1_S16x170000x64_02_1_n_n_1_1_16164 : GatherDims S16x10000x64 S170000x1 S16x170000x64 where
  offsetDims := [0, 2]
  collapsedSliceDims := [1]
  operandBatchingDims := []
  startIndicesBatchingDims := []
  startIndexMap := [1]
  indexVectorDim := 1
  sliceSizes := ![16, 1, 64]
  wf := gather_S16x10000x64_S170000x1_S16x170000x64_02_1_n_n_1_1_16164_wf
def scatter_S16x10000x64_S170000x1_S16x170000x64_02_1_1_1 : ScatterDims S16x10000x64 S170000x1 S16x170000x64 where
  updateWindowDims := [0, 2]
  insertedWindowDims := [1]
  scatterDimsToOperandDims := [1]
  indexVectorDim := 1
  wf := scatter_S16x10000x64_S170000x1_S16x170000x64_02_1_1_1_wf
def dot_S16x10000x64_S64x32_S16x10000x32_2_0_01_1_n_n : DotDims S16x10000x64 S64x32 S16x10000x32 where
  lhsContracting := [2]
  rhsContracting := [0]
  lhsNonContracting := [0, 1]
  rhsNonContracting := [1]
  lhsBatch := []
  rhsBatch := []
  wf := dot_S16x10000x64_S64x32_S16x10000x32_2_0_01_1_n_n_wf
def gather_S16x10000x32_S170000x1_S16x170000x32_02_1_n_n_1_1_16132 : GatherDims S16x10000x32 S170000x1 S16x170000x32 where
  offsetDims := [0, 2]
  collapsedSliceDims := [1]
  operandBatchingDims := []
  startIndicesBatchingDims := []
  startIndexMap := [1]
  indexVectorDim := 1
  sliceSizes := ![16, 1, 32]
  wf := gather_S16x10000x32_S170000x1_S16x170000x32_02_1_n_n_1_1_16132_wf
def scatter_S16x10000x32_S170000x1_S16x170000x32_02_1_1_1 : ScatterDims S16x10000x32 S170000x1 S16x170000x32 where
  updateWindowDims := [0, 2]
  insertedWindowDims := [1]
  scatterDimsToOperandDims := [1]
  indexVectorDim := 1
  wf := scatter_S16x10000x32_S170000x1_S16x170000x32_02_1_1_1_wf

class Facts : Prop extends Facts₀ where

variable [Facts]
-- ==== Proof.KernelRun.lean ====
/-
  The node-major program's run with its results named: every weakly fair execution from any memory ends, nothing
  faulting, with the two result buffers at the contents the last host stretch leaves (the fold of the host stretches and
  of the three regions' write-backs over the launch memory) and the argument arrays as launched.
-/
import proofs.«171573_j88725434400964_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with each result buffer at the last boundary's contents and the arguments unchanged. -/
theorem run_values : θ_run defs (onTc (τ := τ) (main (F := F))) ⟨m, fun _ => 0, ρ⟩ (fun r => ∀ c : Dev nD,
      r.2.mem ((c.tc : Thread nD τ).loc main_v56) = W11 m ρ c (Proc.devRef .tc main_v56)
      ∧ r.2.mem ((c.tc : Thread nD τ).loc main_c_10) = W11 m ρ c (Proc.devRef .tc main_c_10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v56 (by decide)),
       h c _ (mem_uc main_c_10 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.RunValue

end
-- ==== Proof.KernelShared.lean ====
/-
  The node-major program's buffers between its regions, read back to the launch memory.

  The first host stretches compute, from the edge list and the edge weights alone, the extended source and destination
  lists (the given edges followed by one self-loop per node), the extended weights (self-loops weigh 1) and the node
  normaliser — by the very operations the time-major program starts with, so each is the same function of the arguments;
  they also lay the normaliser out as a column and the input node-major. No later stretch and no region writes any of
  these buffers, nor an argument, so each is found unchanged at every later boundary.
-/
import proofs.«171573_j88725434400964_2_alg».proof.Proof.Gen.KernelIdeal.Frame
import proofs.«171573_j88725434400964_2_alg».proof.Proof.Gen.ReferenceIdeal.Read
import Idealize.ShloMosaic.Lib.StableHlo.Run

set_option maxRecDepth 16384

noncomputable section

namespace Cert.KernelIdeal.Shared

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Buffers no host stretch writes -/

/-- No operation of a literal host stretch writes the buffer (the references' inequalities decided). -/
local macro "no_write " ops:ident : tactic => `(tactic|
  (refine List.forall_iff_forall_mem.mp ?_
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- A buffer that none of the five first host stretches writes is, at the first region's entry, as launched. -/
theorem W5_of_no_write (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes)
    (h3 : ∀ op ∈ (hostOps0_3 : List (HloOp τ sig (Elt Ideal))), Proc.devRef .tc b ∉ op.writes)
    (h4 : ∀ op ∈ (hostOps0_4 : List (HloOp τ sig (Elt Ideal))), Proc.devRef .tc b ∉ op.writes) :
    W5 m ρ c (Proc.devRef .tc b) = m ((c.tc : Thread nD τ).loc b) :=
  calc W5 m ρ c (Proc.devRef .tc b)
    _ = W4 m ρ c (Proc.devRef .tc b) := StableHlo.after_of_forall_not_mem _ _ h4
    _ = W3 m ρ c (Proc.devRef .tc b) := StableHlo.after_of_forall_not_mem _ _ h3
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c.tc : Thread nD τ).loc b) := rfl

/-- The first bias is, at the first region's entry, as launched. -/
theorem W5_main_arg5 : W5 m ρ c (Proc.devRef .tc main_arg5) = m ((c.tc : Thread nD τ).loc main_arg5) :=
  W5_of_no_write m ρ c main_arg5 (by no_write hostOps0) (by no_write hostOps0_1) (by no_write hostOps0_2)
    (by no_write hostOps0_3) (by no_write hostOps0_4)
/-- The second weight matrix is, at the first region's entry, as launched. -/
theorem W5_main_arg6 : W5 m ρ c (Proc.devRef .tc main_arg6) = m ((c.tc : Thread nD τ).loc main_arg6) :=
  W5_of_no_write m ρ c main_arg6 (by no_write hostOps0) (by no_write hostOps0_1) (by no_write hostOps0_2)
    (by no_write hostOps0_3) (by no_write hostOps0_4)
/-- The second bias is, at the first region's entry, as launched. -/
theorem W5_main_arg7 : W5 m ρ c (Proc.devRef .tc main_arg7) = m ((c.tc : Thread nD τ).loc main_arg7) :=
  W5_of_no_write m ρ c main_arg7 (by no_write hostOps0) (by no_write hostOps0_1) (by no_write hostOps0_2)
    (by no_write hostOps0_3) (by no_write hostOps0_4)

/-! ## At the first region's entry -/

/-- The extended source list is the time-major program's. -/
theorem src_entry : W5 m ρ c (Proc.devRef .tc main_v3)
    = Cert.ReferenceIdeal.Read.val_main_v3 (F := Ideal) (m ((c.tc : Thread nD τ).loc main_arg1)) := by
  have h : W1 m ρ c (Proc.devRef .tc main_v3)
      = Cert.ReferenceIdeal.Read.val_main_v3 (F := Ideal) (m ((c.tc : Thread nD τ).loc main_arg1)) := by
    show StableHlo.after hostOps0 (W0 m ρ c) (Proc.devRef .tc main_v3)
      = Cert.ReferenceIdeal.Read.val_main_v3 (F := Ideal) (W0 m ρ c (Proc.devRef .tc main_arg1))
    generalize W0 m ρ c = V
    after_results_simp <;> rfl
  exact calc W5 m ρ c (Proc.devRef .tc main_v3)
    _ = W4 m ρ c (Proc.devRef .tc main_v3) := StableHlo.after_of_forall_not_mem _ _ (by no_write hostOps0_4)
    _ = W3 m ρ c (Proc.devRef .tc main_v3) := StableHlo.after_of_forall_not_mem _ _ (by no_write hostOps0_3)
    _ = W2 m ρ c (Proc.devRef .tc main_v3) := StableHlo.after_of_forall_not_mem _ _ (by no_write hostOps0_2)
    _ = W1 m ρ c (Proc.devRef .tc main_v3) := StableHlo.after_of_forall_not_mem _ _ (by no_write hostOps0_1)
    _ = _ := h

/-- The extended destination list is the time-major program's. -/
theorem dst_entry : W5 m ρ c (Proc.devRef .tc main_v6)
    = Cert.ReferenceIdeal.Read.val_main_v6 (F := Ideal) (m ((c.tc : Thread nD τ).loc main_arg1)) := by
  have h : W1 m ρ c (Proc.devRef .tc main_v6)
      = Cert.ReferenceIdeal.Read.val_main_v6 (F := Ideal) (m ((c.tc : Thread nD τ).loc main_arg1)) := by
    show StableHlo.after hostOps0 (W0 m ρ c) (Proc.devRef .tc main_v6)
      = Cert.ReferenceIdeal.Read.val_main_v6 (F := Ideal) (W0 m ρ c (Proc.devRef .tc main_arg1))
    generalize W0 m ρ c = V
    after_results_simp <;> rfl
  exact calc W5 m ρ c (Proc.devRef .tc main_v6)
    _ = W4 m ρ c (Proc.devRef .tc main_v6) := StableHlo.after_of_forall_not_mem _ _ (by no_write hostOps0_4)
    _ = W3 m ρ c (Proc.devRef .tc main_v6) := StableHlo.after_of_forall_not_mem _ _ (by no_write hostOps0_3)
    _ = W2 m ρ c (Proc.devRef .tc main_v6) := StableHlo.after_of_forall_not_mem _ _ (by no_write hostOps0_2)
    _ = W1 m ρ c (Proc.devRef .tc main_v6) := StableHlo.after_of_forall_not_mem _ _ (by no_write hostOps0_1)
    _ = _ := h

/-- The extended weights are the time-major program's. -/
theorem weight_entry : W5 m ρ c (Proc.devRef .tc main_v8)
    = Cert.ReferenceIdeal.Read.val_main_v8 (F := Ideal) (m ((c.tc : Thread nD τ).loc main_arg2)) := by
  have h : W1 m ρ c (Proc.devRef .tc main_v8)
      = Cert.ReferenceIdeal.Read.val_main_v8 (F := Ideal) (m ((c.tc : Thread nD τ).loc main_arg2)) := by
    show StableHlo.after hostOps0 (W0 m ρ c) (Proc.devRef .tc main_v8)
      = Cert.ReferenceIdeal.Read.val_main_v8 (F := Ideal) (W0 m ρ c (Proc.devRef .tc main_arg2))
    generalize W0 m ρ c = V
    after_results_simp <;> rfl
  exact calc W5 m ρ c (Proc.devRef .tc main_v8)
    _ = W4 m ρ c (Proc.devRef .tc main_v8) := StableHlo.after_of_forall_not_mem _ _ (by no_write hostOps0_4)
    _ = W3 m ρ c (Proc.devRef .tc main_v8) := StableHlo.after_of_forall_not_mem _ _ (by no_write hostOps0_3)
    _ = W2 m ρ c (Proc.devRef .tc main_v8) := StableHlo.after_of_forall_not_mem _ _ (by no_write hostOps0_2)
    _ = W1 m ρ c (Proc.devRef .tc main_v8) := StableHlo.after_of_forall_not_mem _ _ (by no_write hostOps0_1)
    _ = _ := h

/-! ## The normaliser, one host stretch at a time

Each buffer on the way to the normaliser holds the time-major program's value of the same name: within a stretch by
running the stretch's operations over the contents it starts from, across stretches by the equations already shown. -/

/-- The weighted in-degree (self-loops included) after the first stretch. -/
theorem v11_W1 : W1 m ρ c (Proc.devRef .tc main_v11) = Cert.ReferenceIdeal.Read.val_main_v11 (F := Ideal) (m ((c.tc : Thread nD τ).loc main_arg1)) (m ((c.tc : Thread nD τ).loc main_arg2)) := by
  show StableHlo.after hostOps0 (W0 m ρ c) (Proc.devRef .tc main_v11)
    = Cert.ReferenceIdeal.Read.val_main_v11 (F := Ideal) (W0 m ρ c (Proc.devRef .tc main_arg1)) (W0 m ρ c (Proc.devRef .tc main_arg2))
  generalize W0 m ρ c = V
  after_results_simp <;> rfl

/-- "The degree is positive", the guard of the last select, after the first stretch. -/
theorem v13_W1 : W1 m ρ c (Proc.devRef .tc main_v13) = Cert.ReferenceIdeal.Read.val_main_v13 (F := Ideal) (m ((c.tc : Thread nD τ).loc main_arg1)) (m ((c.tc : Thread nD τ).loc main_arg2)) := by
  show StableHlo.after hostOps0 (W0 m ρ c) (Proc.devRef .tc main_v13)
    = Cert.ReferenceIdeal.Read.val_main_v13 (F := Ideal) (W0 m ρ c (Proc.devRef .tc main_arg1)) (W0 m ρ c (Proc.devRef .tc main_arg2))
  generalize W0 m ρ c = V
  after_results_simp <;> rfl

/-- "The degree is positive", the guard of the first select, after the first stretch. -/
theorem v15_W1 : W1 m ρ c (Proc.devRef .tc main_v15) = Cert.ReferenceIdeal.Read.val_main_v15 (F := Ideal) (m ((c.tc : Thread nD τ).loc main_arg1)) (m ((c.tc : Thread nD τ).loc main_arg2)) := by
  show StableHlo.after hostOps0 (W0 m ρ c) (Proc.devRef .tc main_v15)
    = Cert.ReferenceIdeal.Read.val_main_v15 (F := Ideal) (W0 m ρ c (Proc.devRef .tc main_arg1)) (W0 m ρ c (Proc.devRef .tc main_arg2))
  generalize W0 m ρ c = V
  after_results_simp <;> rfl

/-- The constant one after the first stretch. -/
theorem cst3_W1 : W1 m ρ c (Proc.devRef .tc main_cst_3) = Cert.ReferenceIdeal.Read.val_main_cst_3 (F := Ideal) := by
  show StableHlo.after hostOps0 (W0 m ρ c) (Proc.devRef .tc main_cst_3) = _
  generalize W0 m ρ c = V
  after_results_simp <;> rfl

/-- The degree, one where it is not positive, after the second stretch. -/
theorem v16_W2 : W2 m ρ c (Proc.devRef .tc main_v16) = Cert.ReferenceIdeal.Read.val_main_v16 (F := Ideal) (m ((c.tc : Thread nD τ).loc main_arg1)) (m ((c.tc : Thread nD τ).loc main_arg2)) := by
  show StableHlo.after hostOps0_1 (W1 m ρ c) (Proc.devRef .tc main_v16) = _
  unfold Cert.ReferenceIdeal.Read.val_main_v16 Cert.ReferenceIdeal.Read.val_main_call0_v1 Cert.ReferenceIdeal.Read.val_main_call0_v0
  rw [← v15_W1 m ρ c, ← v11_W1 m ρ c, ← cst3_W1 m ρ c]
  generalize W1 m ρ c = V
  after_results_simp <;> rfl

/-- The last select's guard is still there after the third stretch. -/
theorem v13_W3 : W3 m ρ c (Proc.devRef .tc main_v13) = Cert.ReferenceIdeal.Read.val_main_v13 (F := Ideal) (m ((c.tc : Thread nD τ).loc main_arg1)) (m ((c.tc : Thread nD τ).loc main_arg2)) :=
  calc W3 m ρ c (Proc.devRef .tc main_v13)
    _ = W2 m ρ c (Proc.devRef .tc main_v13) := StableHlo.after_of_forall_not_mem _ _ (by no_write hostOps0_2)
    _ = W1 m ρ c (Proc.devRef .tc main_v13) := StableHlo.after_of_forall_not_mem _ _ (by no_write hostOps0_1)
    _ = _ := v13_W1 m ρ c

/-- Its inverse square root after the third stretch. -/
theorem v17_W3 : W3 m ρ c (Proc.devRef .tc main_v17) = Cert.ReferenceIdeal.Read.val_main_v17 (F := Ideal) (m ((c.tc : Thread nD τ).loc main_arg1)) (m ((c.tc : Thread nD τ).loc main_arg2)) := by
  show StableHlo.after hostOps0_2 (W2 m ρ c) (Proc.devRef .tc main_v17) = _
  unfold Cert.ReferenceIdeal.Read.val_main_v17
  rw [← v16_W2 m ρ c]
  generalize W2 m ρ c = V
  after_results_simp <;> rfl

/-- The constant zero after the third stretch. -/
theorem cst4_W3 : W3 m ρ c (Proc.devRef .tc main_cst_4) = Cert.ReferenceIdeal.Read.val_main_cst_4 (F := Ideal) := by
  show StableHlo.after hostOps0_2 (W2 m ρ c) (Proc.devRef .tc main_cst_4) = _
  generalize W2 m ρ c = V
  after_results_simp <;> rfl

/-- The normaliser after the fourth stretch. -/
theorem v18_W4 : W4 m ρ c (Proc.devRef .tc main_v18) = Cert.ReferenceIdeal.Read.val_main_v18 (F := Ideal) (m ((c.tc : Thread nD τ).loc main_arg1)) (m ((c.tc : Thread nD τ).loc main_arg2)) := by
  show StableHlo.after hostOps0_3 (W3 m ρ c) (Proc.devRef .tc main_v18) = _
  unfold Cert.ReferenceIdeal.Read.val_main_v18 Cert.ReferenceIdeal.Read.val_main_call1_v1 Cert.ReferenceIdeal.Read.val_main_call1_v0
  rw [← v13_W3 m ρ c, ← v17_W3 m ρ c, ← cst4_W3 m ρ c]
  generalize W3 m ρ c = V
  after_results_simp <;> rfl

/-! ## At the first region's entry, continued -/

/-- The normaliser, as a column, is the time-major program's normaliser reshaped. -/
theorem column_entry : W5 m ρ c (Proc.devRef .tc main_v19)
    = shapeCast S10000x1 (Cert.ReferenceIdeal.Read.val_main_v18 (F := Ideal) (m ((c.tc : Thread nD τ).loc main_arg1))
        (m ((c.tc : Thread nD τ).loc main_arg2))) shapeCasts_S10000_S10000x1 := by
  show StableHlo.after hostOps0_4 (W4 m ρ c) (Proc.devRef .tc main_v19) = _
  rw [← v18_W4 m ρ c]
  generalize W4 m ρ c = V
  after_results_simp <;> rfl

/-- The input laid out node-major. -/
theorem nodeMajor_entry : W5 m ρ c (Proc.devRef .tc main_v20)
    = transpose S10000x16x32 [1, 0, 2] (m ((c.tc : Thread nD τ).loc main_arg0)) transposes_S16x10000x32_S10000x16x32_1_0_2 := by
  have h : W4 m ρ c (Proc.devRef .tc main_arg0) = m ((c.tc : Thread nD τ).loc main_arg0) :=
    calc W4 m ρ c (Proc.devRef .tc main_arg0)
      _ = W3 m ρ c (Proc.devRef .tc main_arg0) := StableHlo.after_of_forall_not_mem _ _ (by no_write hostOps0_3)
      _ = W2 m ρ c (Proc.devRef .tc main_arg0) := StableHlo.after_of_forall_not_mem _ _ (by no_write hostOps0_2)
      _ = W1 m ρ c (Proc.devRef .tc main_arg0) := StableHlo.after_of_forall_not_mem _ _ (by no_write hostOps0_1)
      _ = W0 m ρ c (Proc.devRef .tc main_arg0) := StableHlo.after_of_forall_not_mem _ _ (by no_write hostOps0)
      _ = m ((c.tc : Thread nD τ).loc main_arg0) := rfl
  show StableHlo.after hostOps0_4 (W4 m ρ c) (Proc.devRef .tc main_v20) = _
  rw [← h]
  generalize W4 m ρ c = V
  after_results_simp <;> rfl

/-- The first weight matrix is as launched. -/
theorem weight1_entry : W5 m ρ c (Proc.devRef .tc main_arg4) = m ((c.tc : Thread nD τ).loc main_arg4) := by
  exact W5_of_no_write m ρ c main_arg4 (by no_write hostOps0) (by no_write hostOps0_1) (by no_write hostOps0_2)
    (by no_write hostOps0_3) (by no_write hostOps0_4)

/-! ## Kept across the first region and the second host stretch -/

theorem src_kept6 : W6 m ρ c (Proc.devRef .tc main_v3) = W5 m ρ c (Proc.devRef .tc main_v3) := by
  exact W6_of_ne m ρ c main_v3 (by decide)
theorem dst_kept6 : W6 m ρ c (Proc.devRef .tc main_v6) = W5 m ρ c (Proc.devRef .tc main_v6) := by
  exact W6_of_ne m ρ c main_v6 (by decide)
theorem weight_kept6 : W6 m ρ c (Proc.devRef .tc main_v8) = W5 m ρ c (Proc.devRef .tc main_v8) := by
  exact W6_of_ne m ρ c main_v8 (by decide)
theorem column_kept7 : W7 m ρ c (Proc.devRef .tc main_v19) = W5 m ρ c (Proc.devRef .tc main_v19) := by
  exact calc W7 m ρ c (Proc.devRef .tc main_v19)
    _ = W6 m ρ c (Proc.devRef .tc main_v19) := StableHlo.after_of_forall_not_mem _ _ (by no_write hostOps1)
    _ = W5 m ρ c (Proc.devRef .tc main_v19) :=
      (W6_arr m ρ c 2).trans (((dat0 (V5 m ρ) c).arrAt_in 2 rfl _).trans (A_eq0 (V5 m ρ) c 2))
theorem weight2_kept7 : W7 m ρ c (Proc.devRef .tc main_arg6) = m ((c.tc : Thread nD τ).loc main_arg6) := by
  exact calc W7 m ρ c (Proc.devRef .tc main_arg6)
    _ = W6 m ρ c (Proc.devRef .tc main_arg6) := StableHlo.after_of_forall_not_mem _ _ (by no_write hostOps1)
    _ = W5 m ρ c (Proc.devRef .tc main_arg6) := W6_of_ne m ρ c main_arg6 (by decide)
    _ = m ((c.tc : Thread nD τ).loc main_arg6) := W5_main_arg6 m ρ c
/-- The first bias as a row. -/
theorem bias1_row7 : W7 m ρ c (Proc.devRef .tc main_v37)
    = shapeCast S1x64 (m ((c.tc : Thread nD τ).loc main_arg5)) shapeCasts_S64_S1x64 := by
  have h : W6 m ρ c (Proc.devRef .tc main_arg5) = m ((c.tc : Thread nD τ).loc main_arg5) :=
    (W6_of_ne m ρ c main_arg5 (by decide)).trans (W5_main_arg5 m ρ c)
  show StableHlo.after hostOps1 (W6 m ρ c) (Proc.devRef .tc main_v37) = _
  rw [← h]
  generalize W6 m ρ c = V
  after_results_simp
  rfl

/-! ## Kept across the second region and the third host stretch -/

theorem src_kept8 : W8 m ρ c (Proc.devRef .tc main_v3) = W5 m ρ c (Proc.devRef .tc main_v3) := by
  exact calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem _ _ (by no_write hostOps1)
    _ = W5 m ρ c (Proc.devRef .tc main_v3) := W6_of_ne m ρ c main_v3 (by decide)
theorem dst_kept8 : W8 m ρ c (Proc.devRef .tc main_v6) = W5 m ρ c (Proc.devRef .tc main_v6) := by
  exact calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem _ _ (by no_write hostOps1)
    _ = W5 m ρ c (Proc.devRef .tc main_v6) := W6_of_ne m ρ c main_v6 (by decide)
theorem weight_kept8 : W8 m ρ c (Proc.devRef .tc main_v8) = W5 m ρ c (Proc.devRef .tc main_v8) := by
  exact calc W8 m ρ c (Proc.devRef .tc main_v8)
    _ = W7 m ρ c (Proc.devRef .tc main_v8) := W8_of_ne m ρ c main_v8 (by decide)
    _ = W6 m ρ c (Proc.devRef .tc main_v8) := StableHlo.after_of_forall_not_mem _ _ (by no_write hostOps1)
    _ = W5 m ρ c (Proc.devRef .tc main_v8) := W6_of_ne m ρ c main_v8 (by decide)
theorem column_kept9 : W9 m ρ c (Proc.devRef .tc main_v19) = W5 m ρ c (Proc.devRef .tc main_v19) := by
  exact calc W9 m ρ c (Proc.devRef .tc main_v19)
    _ = W8 m ρ c (Proc.devRef .tc main_v19) := StableHlo.after_of_forall_not_mem _ _ (by no_write hostOps2)
    _ = W7 m ρ c (Proc.devRef .tc main_v19) :=
      (W8_arr m ρ c 1).trans (((dat1 (V7 m ρ) c).arrAt_in 1 rfl _).trans (A_eq1 (V7 m ρ) c 1))
    _ = W5 m ρ c (Proc.devRef .tc main_v19) := column_kept7 m ρ c
/-- The second bias as a row. -/
theorem bias2_row9 : W9 m ρ c (Proc.devRef .tc main_v54)
    = shapeCast S1x32 (m ((c.tc : Thread nD τ).loc main_arg7)) shapeCasts_S32_S1x32 := by
  have h : W8 m ρ c (Proc.devRef .tc main_arg7) = m ((c.tc : Thread nD τ).loc main_arg7) :=
    calc W8 m ρ c (Proc.devRef .tc main_arg7)
      _ = W7 m ρ c (Proc.devRef .tc main_arg7) := W8_of_ne m ρ c main_arg7 (by decide)
      _ = W6 m ρ c (Proc.devRef .tc main_arg7) := StableHlo.after_of_forall_not_mem _ _ (by no_write hostOps1)
      _ = W5 m ρ c (Proc.devRef .tc main_arg7) := W6_of_ne m ρ c main_arg7 (by decide)
      _ = m ((c.tc : Thread nD τ).loc main_arg7) := W5_main_arg7 m ρ c
  show StableHlo.after hostOps2 (W8 m ρ c) (Proc.devRef .tc main_v54) = _
  rw [← h]
  generalize W8 m ρ c = V
  after_results_simp
  rfl

end Cert.KernelIdeal.Shared

end
-- ==== Proof.LibGatherScatterRows.lean ====
/-
  Gathering rows of an array by a list of signed row numbers, and scatter-adding rows into an array at a list of signed
  row numbers, read at an index. The list has shape [E, 1]: one 32-bit word per entry.

  * clampRow N b      — the row a gather reads for the word b: b as a signed integer, clamped into [0, N - 1];
  * landRow N b       — the row a scatter update lands in: b as a signed integer when it lies in [0, N), nothing otherwise
                        (the update is dropped);
  * gatherRows1 / gatherRows2 / gatherRowsMid — a gather of entries of an [N] array, of rows of an [N, C] array along its
                        first axis, and of rows of a [T, N, C] array along its middle axis, at an index;
  * scatterAddRows2 / scatterAddRowsMid — the accumulating scatter into an [N, C] array along its first axis and into a
                        [T, N, C] array along its middle axis, at the ideal (extended real) values: the operand's entry
                        plus the sum, over the list entries e whose word lands in that row, of the update's entry.
-/
import Idealize.ShloMosaic.PureOps.Ideal.Laws
import Idealize.ShloMosaic.Lib.Pipeline.Value
import Idealize.ShloMosaic.Lib.ValueIdx

noncomputable section

open scoped BigOperators

namespace Cert.LibGatherScatterRows

open Idealize.ShloMosaic Idealize.ShloMosaic.ValueIdx

/-- The row a gather reads for the word `b`: `b` as a signed integer clamped into `[0, N - 1]`. -/
def clampRow (N : ℕ) [NeZero N] (b : BitVec 32) : Fin N :=
  ⟨min b.toInt.toNat (N - 1), by have := NeZero.pos N; omega⟩

/-- The row a scatter update lands in: `b` as a signed integer when it lies in `[0, N)`; otherwise the update is dropped. -/
def landRow (N : ℕ) (b : BitVec 32) : Option (Fin N) :=
  if h : 0 ≤ b.toInt ∧ b.toInt < N then some ⟨b.toInt.toNat, by omega⟩ else none

/-- A word lands in row `n` exactly when, as a signed integer, it is `n`. -/
theorem landRow_eq_some_iff {N : ℕ} {b : BitVec 32} {n : Fin N} : landRow N b = some n ↔ b.toInt = (n.val : Int) := by
  unfold landRow
  split
  · rename_i h
    rw [Option.some.injEq, Fin.ext_iff]
    simp only
    omega
  · rename_i h
    constructor
    · intro h'; cases h'
    · intro h'; exfalso; apply h; have := n.isLt; omega

/-- A word that lands in a row is read, clamped, as that same row. -/
theorem clampRow_of_landRow {N : ℕ} [NeZero N] {b : BitVec 32} {n : Fin N} (h : landRow N b = some n) : clampRow N b = n := by
  have hb : b.toInt = (n.val : Int) := landRow_eq_some_iff.mp h
  refine Fin.ext ?_
  show min b.toInt.toNat (N - 1) = n.val
  have := n.isLt
  omega

/-- A word inside `[0, N)` lands in the row it is clamped to. -/
theorem landRow_of_mem {N : ℕ} [NeZero N] {b : BitVec 32} (h0 : 0 ≤ b.toInt) (h1 : b.toInt < N) : landRow N b = some (clampRow N b) := by
  rw [landRow_eq_some_iff]
  show b.toInt = ((min b.toInt.toNat (N - 1) : ℕ) : Int)
  omega

/-- Entries of an `[N]` array gathered at `[E, 1]` row numbers: entry `e` is the array at the clamped row. -/
theorem gatherRows1 {α : Type} {N E : ℕ} [NeZero N] (D : GatherDims ⟨1, ![N]⟩ ⟨2, ![E, 1]⟩ ⟨1, ![E]⟩)
    (ho : D.offsetDims = []) (hc : D.collapsedSliceDims = [0]) (hob : D.operandBatchingDims = [])
    (hm : D.startIndexMap = [0]) (hv : D.indexVectorDim = 1)
    (x : (⟨1, ![N]⟩ : Shape).Idx → α) (idx : IVec ⟨2, ![E, 1]⟩ 32) (e : Fin E) :
    Host.gather D x idx (ix1 e) = x (ix1 (clampRow N (idx (ix2 e 0)))) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [] [0] [] sb [0] 1 ss wf : GatherDims ⟨1, ![N]⟩ ⟨2, ![E, 1]⟩ ⟨1, ![E]⟩).start (ix1 e) idx 0
      + (GatherDims.mk [] [0] [] sb [0] 1 ss wf : GatherDims ⟨1, ![N]⟩ ⟨2, ![E, 1]⟩ ⟨1, ![E]⟩).batchCoord (ix1 e) 0
      + (GatherDims.mk [] [0] [] sb [0] 1 ss wf : GatherDims ⟨1, ![N]⟩ ⟨2, ![E, 1]⟩ ⟨1, ![E]⟩).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    have hss : ss 0 = 1 := (GatherDims.mk [] [0] [] sb [0] 1 ss wf : GatherDims ⟨1, ![N]⟩ ⟨2, ![E, 1]⟩ ⟨1, ![E]⟩).slice_collapsed 0 (List.mem_singleton.mpr rfl)
    unfold GatherDims.start
    split
    · rename_i h
      have hsi : (GatherDims.mk [] [0] [] sb [0] 1 ss wf : GatherDims ⟨1, ![N]⟩ ⟨2, ![E, 1]⟩ ⟨1, ![E]⟩).siIdx (ix1 e)
          ⟨List.idxOf (0 : Fin 1) [(0 : Fin 1)], List.idxOf_lt_length_iff.2 h⟩ = ix2 e 0 := by
        funext b; refine Fin.ext ?_
        match b with
        | ⟨0, _⟩ => rfl
        | ⟨1, _⟩ => rfl
      show min (idx ((GatherDims.mk [] [0] [] sb [0] 1 ss wf : GatherDims ⟨1, ![N]⟩ ⟨2, ![E, 1]⟩ ⟨1, ![E]⟩).siIdx (ix1 e)
          ⟨List.idxOf (0 : Fin 1) [(0 : Fin 1)], List.idxOf_lt_length_iff.2 h⟩)).toInt.toNat (N - ss 0) + 0 + 0
        = min (idx (ix2 e 0)).toInt.toNat (N - 1)
      rw [hsi, hss, Nat.add_zero]
    · rename_i h; exact absurd (show (0 : Fin 1) ∈ [(0 : Fin 1)] from by decide) h

/-- Rows of an `[N, C]` array gathered along its first axis. -/
theorem gatherRows2 {α : Type} {N C E : ℕ} [NeZero N] (D : GatherDims ⟨2, ![N, C]⟩ ⟨2, ![E, 1]⟩ ⟨2, ![E, C]⟩)
    (ho : D.offsetDims = [1]) (hc : D.collapsedSliceDims = [0]) (hob : D.operandBatchingDims = [])
    (hm : D.startIndexMap = [0]) (hv : D.indexVectorDim = 1)
    (x : (⟨2, ![N, C]⟩ : Shape).Idx → α) (idx : IVec ⟨2, ![E, 1]⟩ 32) (e : Fin E) (c : Fin C) :
    Host.gather D x idx (ix2 e c) = x (ix2 (clampRow N (idx (ix2 e 0))) c) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [1] [0] [] sb [0] 1 ss wf : GatherDims ⟨2, ![N, C]⟩ ⟨2, ![E, 1]⟩ ⟨2, ![E, C]⟩).start (ix2 e c) idx 0
      + (GatherDims.mk [1] [0] [] sb [0] 1 ss wf : GatherDims ⟨2, ![N, C]⟩ ⟨2, ![E, 1]⟩ ⟨2, ![E, C]⟩).batchCoord (ix2 e c) 0
      + (GatherDims.mk [1] [0] [] sb [0] 1 ss wf : GatherDims ⟨2, ![N, C]⟩ ⟨2, ![E, 1]⟩ ⟨2, ![E, C]⟩).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    have hss : ss 0 = 1 :=
      (GatherDims.mk [1] [0] [] sb [0] 1 ss wf : GatherDims ⟨2, ![N, C]⟩ ⟨2, ![E, 1]⟩ ⟨2, ![E, C]⟩).slice_collapsed 0
        (List.mem_singleton.mpr rfl)
    unfold GatherDims.start
    split
    · rename_i h
      have hsi : (GatherDims.mk [1] [0] [] sb [0] 1 ss wf : GatherDims ⟨2, ![N, C]⟩ ⟨2, ![E, 1]⟩ ⟨2, ![E, C]⟩).siIdx (ix2 e c)
          ⟨List.idxOf (0 : Fin 2) [(0 : Fin 2)], List.idxOf_lt_length_iff.2 h⟩ = ix2 e 0 := by
        funext b; refine Fin.ext ?_
        match b with
        | ⟨0, _⟩ => rfl
        | ⟨1, _⟩ => rfl
      show min (idx ((GatherDims.mk [1] [0] [] sb [0] 1 ss wf : GatherDims ⟨2, ![N, C]⟩ ⟨2, ![E, 1]⟩ ⟨2, ![E, C]⟩).siIdx (ix2 e c)
          ⟨List.idxOf (0 : Fin 2) [(0 : Fin 2)], List.idxOf_lt_length_iff.2 h⟩)).toInt.toNat (N - ss 0) + 0 + 0
        = min (idx (ix2 e 0)).toInt.toNat (N - 1)
      rw [hsi, hss, Nat.add_zero]
    · rename_i h; exact absurd (show (0 : Fin 2) ∈ [(0 : Fin 2)] from by decide) h
  | ⟨1, _⟩ =>
    show (GatherDims.mk [1] [0] [] sb [0] 1 ss wf : GatherDims ⟨2, ![N, C]⟩ ⟨2, ![E, 1]⟩ ⟨2, ![E, C]⟩).start (ix2 e c) idx 1
      + (GatherDims.mk [1] [0] [] sb [0] 1 ss wf : GatherDims ⟨2, ![N, C]⟩ ⟨2, ![E, 1]⟩ ⟨2, ![E, C]⟩).batchCoord (ix2 e c) 1
      + (GatherDims.mk [1] [0] [] sb [0] 1 ss wf : GatherDims ⟨2, ![N, C]⟩ ⟨2, ![E, 1]⟩ ⟨2, ![E, C]⟩).offCoord (ix2 e c) 1 = c.val
    rw [GatherDims.batchCoord_eq_zero _ _ _ List.not_mem_nil]
    have h1 : (GatherDims.mk [1] [0] [] sb [0] 1 ss wf : GatherDims ⟨2, ![N, C]⟩ ⟨2, ![E, 1]⟩ ⟨2, ![E, C]⟩).start (ix2 e c) idx 1 = 0 := by
      unfold GatherDims.start
      split
      · rename_i h; exact absurd h (show (1 : Fin 2) ∉ [(0 : Fin 2)] from by decide)
      · rfl
    have h2 : (GatherDims.mk [1] [0] [] sb [0] 1 ss wf : GatherDims ⟨2, ![N, C]⟩ ⟨2, ![E, 1]⟩ ⟨2, ![E, C]⟩).offCoord (ix2 e c) 1 = c.val := by
      unfold GatherDims.offCoord
      split
      · rfl
      · rename_i h; exact absurd (show (1 : Fin 2) ∈ (List.finRange 2).filter (· ∉ [(0 : Fin 2)] ++ []) from by decide) h
    rw [h1, h2, Nat.zero_add]

/-- Rows of a `[T, N, C]` array gathered along its middle axis. -/
theorem gatherRowsMid {α : Type} {T N C E : ℕ} [NeZero N] (D : GatherDims ⟨3, ![T, N, C]⟩ ⟨2, ![E, 1]⟩ ⟨3, ![T, E, C]⟩)
    (ho : D.offsetDims = [0, 2]) (hc : D.collapsedSliceDims = [1]) (hob : D.operandBatchingDims = [])
    (hm : D.startIndexMap = [1]) (hv : D.indexVectorDim = 1)
    (x : (⟨3, ![T, N, C]⟩ : Shape).Idx → α) (idx : IVec ⟨2, ![E, 1]⟩ 32) (t : Fin T) (e : Fin E) (c : Fin C) :
    Host.gather D x idx (ix3 t e c) = x (ix3 t (clampRow N (idx (ix2 e 0))) c) := by
  obtain ⟨od, cd, ob, sb, sm, iv, ss, wf⟩ := D
  simp only at ho hc hob hm hv
  subst ho hc hob hm hv
  unfold Host.gather
  refine congrArg x ?_
  funext a
  refine Fin.ext ?_
  match a with
  | ⟨0, _⟩ =>
    show (GatherDims.mk [0, 2] [1] [] sb [1] 1 ss wf : GatherDims ⟨3, ![T, N, C]⟩ ⟨2, ![E, 1]⟩ ⟨3, ![T, E, C]⟩).start (ix3 t e c) idx 0
      + (GatherDims.mk [0, 2] [1] [] sb [1] 1 ss wf : GatherDims ⟨3, ![T, N, C]⟩ ⟨2, ![E, 1]⟩ ⟨3, ![T, E, C]⟩).batchCoord (ix3 t e c) 0
      + (GatherDims.mk [0, 2] [1] [] sb [1] 1 ss wf : GatherDims ⟨3, ![T, N, C]⟩ ⟨2, ![E, 1]⟩ ⟨3, ![T, E, C]⟩).offCoord (ix3 t e c) 0 = t.val
    rw [GatherDims.batchCoord_eq_zero _ _ _ List.not_mem_nil]
    have h1 : (GatherDims.mk [0, 2] [1] [] sb [1] 1 ss wf : GatherDims ⟨3, ![T, N, C]⟩ ⟨2, ![E, 1]⟩ ⟨3, ![T, E, C]⟩).start (ix3 t e c) idx 0 = 0 := by
      unfold GatherDims.start
      split
      · rename_i h; exact absurd h (show (0 : Fin 3) ∉ [(1 : Fin 3)] from by decide)
      · rfl
    have h2 : (GatherDims.mk [0, 2] [1] [] sb [1] 1 ss wf : GatherDims ⟨3, ![T, N, C]⟩ ⟨2, ![E, 1]⟩ ⟨3, ![T, E, C]⟩).offCoord (ix3 t e c) 0 = t.val := by
      unfold GatherDims.offCoord
      split
      · rfl
      · rename_i h; exact absurd (show (0 : Fin 3) ∈ (List.finRange 3).filter (· ∉ [(1 : Fin 3)] ++ []) from by decide) h
    rw [h1, h2, Nat.zero_add]
  | ⟨1, _⟩ =>
    show (GatherDims.mk [0, 2] [1] [] sb [1] 1 ss wf : GatherDims ⟨3, ![T, N, C]⟩ ⟨2, ![E, 1]⟩ ⟨3, ![T, E, C]⟩).start (ix3 t e c) idx 1
      + (GatherDims.mk [0, 2] [1] [] sb [1] 1 ss wf : GatherDims ⟨3, ![T, N, C]⟩ ⟨2, ![E, 1]⟩ ⟨3, ![T, E, C]⟩).batchCoord (ix3 t e c) 1
      + (GatherDims.mk [0, 2] [1] [] sb [1] 1 ss wf : GatherDims ⟨3, ![T, N, C]⟩ ⟨2, ![E, 1]⟩ ⟨3, ![T, E, C]⟩).offCoord (ix3 t e c) 1 = _
    rw [GatherDims.batchCoord_eq_zero _ _ _ List.not_mem_nil,
      GatherDims.offCoord_eq_zero _ _ _ (fun h => ((GatherDims.mem_sKept _ _).mp h).1 (List.mem_singleton.mpr rfl))]
    have hss : ss 1 = 1 := (GatherDims.mk [0, 2] [1] [] sb [1] 1 ss wf : GatherDims ⟨3, ![T, N, C]⟩ ⟨2, ![E, 1]⟩ ⟨3, ![T, E, C]⟩).slice_collapsed 1 (List.mem_singleton.mpr rfl)
    unfold GatherDims.start
    split
    · rename_i h
      have hsi : (GatherDims.mk [0, 2] [1] [] sb [1] 1 ss wf : GatherDims ⟨3, ![T, N, C]⟩ ⟨2, ![E, 1]⟩ ⟨3, ![T, E, C]⟩).siIdx (ix3 t e c)
          ⟨List.idxOf (1 : Fin 3) [(1 : Fin 3)], List.idxOf_lt_length_iff.2 h⟩ = ix2 e 0 := by
        funext b; refine Fin.ext ?_
        match b with
        | ⟨0, _⟩ => rfl
        | ⟨1, _⟩ => rfl
      show min (idx ((GatherDims.mk [0, 2] [1] [] sb [1] 1 ss wf : GatherDims ⟨3, ![T, N, C]⟩ ⟨2, ![E, 1]⟩ ⟨3, ![T, E, C]⟩).siIdx (ix3 t e c)
          ⟨List.idxOf (1 : Fin 3) [(1 : Fin 3)], List.idxOf_lt_length_iff.2 h⟩)).toInt.toNat (N - ss 1) + 0 + 0
        = min (idx (ix2 e 0)).toInt.toNat (N - 1)
      rw [hsi, hss, Nat.add_zero]
    · rename_i h; exact absurd (show (1 : Fin 3) ∈ [(1 : Fin 3)] from by decide) h
  | ⟨2, _⟩ =>
    show (GatherDims.mk [0, 2] [1] [] sb [1] 1 ss wf : GatherDims ⟨3, ![T, N, C]⟩ ⟨2, ![E, 1]⟩ ⟨3, ![T, E, C]⟩).start (ix3 t e c) idx 2
      + (GatherDims.mk [0, 2] [1] [] sb [1] 1 ss wf : GatherDims ⟨3, ![T, N, C]⟩ ⟨2, ![E, 1]⟩ ⟨3, ![T, E, C]⟩).batchCoord (ix3 t e c) 2
      + (GatherDims.mk [0, 2] [1] [] sb [1] 1 ss wf : GatherDims ⟨3, ![T, N, C]⟩ ⟨2, ![E, 1]⟩ ⟨3, ![T, E, C]⟩).offCoord (ix3 t e c) 2 = c.val
    rw [GatherDims.batchCoord_eq_zero _ _ _ List.not_mem_nil]
    have h1 : (GatherDims.mk [0, 2] [1] [] sb [1] 1 ss wf : GatherDims ⟨3, ![T, N, C]⟩ ⟨2, ![E, 1]⟩ ⟨3, ![T, E, C]⟩).start (ix3 t e c) idx 2 = 0 := by
      unfold GatherDims.start
      split
      · rename_i h; exact absurd h (show (2 : Fin 3) ∉ [(1 : Fin 3)] from by decide)
      · rfl
    have h2 : (GatherDims.mk [0, 2] [1] [] sb [1] 1 ss wf : GatherDims ⟨3, ![T, N, C]⟩ ⟨2, ![E, 1]⟩ ⟨3, ![T, E, C]⟩).offCoord (ix3 t e c) 2 = c.val := by
      unfold GatherDims.offCoord
      split
      · rfl
      · rename_i h; exact absurd (show (2 : Fin 3) ∈ (List.finRange 3).filter (· ∉ [(1 : Fin 3)] ++ []) from by decide) h
    rw [h1, h2, Nat.zero_add]

/-- An update index lands at the operand index `i` exactly when, on every axis, the start plus the window coordinate is
    `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      have := h a
      rw [← hf]
      simp only
      omega
    · intro hh
      funext a
      refine Fin.ext ?_
      have := h a
      have := hh a
      simp only
      omega
  · rename_i h
    constructor
    · intro h'; cases h'
    · intro hh; exfalso; apply h; intro a
      have := hh a
      have := (i a).isLt
      omega

/-- Scatter along the first axis of an `[N, C]` array: the update `(e, c')` lands at `(n, c)` exactly when entry `e`'s word
    lands in row `n` and `c' = c`. -/
theorem scatter2_lands {N C E : ℕ}
    (wf : ScatterDims.WF ⟨2, ![N, C]⟩ ⟨2, ![E, 1]⟩ ⟨2, ![E, C]⟩ [1] [0] [0] 1)
    (idx : IVec ⟨2, ![E, 1]⟩ 32) (j : (⟨2, ![E, C]⟩ : Shape).Idx) (n : Fin N) (c : Fin C) :
    (ScatterDims.mk [1] [0] [0] 1 wf : ScatterDims ⟨2, ![N, C]⟩ ⟨2, ![E, 1]⟩ ⟨2, ![E, C]⟩).resultIdx? j idx = some (ix2 n c)
      ↔ landRow N (idx (ix2 (j 0) 0)) = some n ∧ j 1 = c := by
  rw [resultIdx?_eq_some_iff, landRow_eq_some_iff, Fin.forall_fin_two]
  have hs0 : (ScatterDims.mk [1] [0] [0] 1 wf : ScatterDims ⟨2, ![N, C]⟩ ⟨2, ![E, 1]⟩ ⟨2, ![E, C]⟩).start j idx 0
      = (idx (ix2 (j 0) 0)).toInt := by
    unfold ScatterDims.start
    rw [dif_pos (show (0 : Fin 2) ∈ [(0 : Fin 2)] from List.mem_singleton.mpr rfl)]
    congr 2
    funext b; refine Fin.ext ?_
    match b with
    | ⟨0, _⟩ => rfl
    | ⟨1, _⟩ => rfl
  have hs1 : (ScatterDims.mk [1] [0] [0] 1 wf : ScatterDims ⟨2, ![N, C]⟩ ⟨2, ![E, 1]⟩ ⟨2, ![E, C]⟩).start j idx 1 = 0 := by
    unfold ScatterDims.start
    split
    · rename_i h; exact absurd h (show (1 : Fin 2) ∉ [(0 : Fin 2)] from by decide)
    · rfl
  have hw0 : (ScatterDims.mk [1] [0] [0] 1 wf : ScatterDims ⟨2, ![N, C]⟩ ⟨2, ![E, 1]⟩ ⟨2, ![E, C]⟩).window j 0 = 0 := by
    unfold ScatterDims.window
    split
    · rename_i h; exact absurd h (show (0 : Fin 2) ∉ (List.finRange 2).filter (· ∉ [(0 : Fin 2)]) from by decide)
    · rfl
  have hw1 : (ScatterDims.mk [1] [0] [0] 1 wf : ScatterDims ⟨2, ![N, C]⟩ ⟨2, ![E, 1]⟩ ⟨2, ![E, C]⟩).window j 1 = (j 1).val := by
    unfold ScatterDims.window
    split
    · rfl
    · rename_i h; exact absurd (show (1 : Fin 2) ∈ (List.finRange 2).filter (· ∉ [(0 : Fin 2)]) from by decide) h
  rw [hs0, hs1, hw0, hw1]
  show (idx (ix2 (j 0) 0)).toInt + ((0 : ℕ) : Int) = (n.val : Int) ∧ (0 : Int) + ((j 1).val : Int) = (c.val : Int) ↔ _
  constructor
  · rintro ⟨h0, h1⟩
    exact ⟨by omega, Fin.ext (by omega)⟩
  · rintro ⟨h0, h1⟩
    subst h1
    exact ⟨by omega, by omega⟩

/-- The accumulating scatter into an `[N, C]` array along its first axis, at the ideal values. -/
theorem scatterAddRows2 {N C E : ℕ} (D : ScatterDims ⟨2, ![N, C]⟩ ⟨2, ![E, 1]⟩ ⟨2, ![E, C]⟩)
    (hu : D.updateWindowDims = [1]) (hi : D.insertedWindowDims = [0]) (hs : D.scatterDimsToOperandDims = [0])
    (hv : D.indexVectorDim = 1)
    (x : FVec Ideal ⟨2, ![N, C]⟩ .f32) (idx : IVec ⟨2, ![E, 1]⟩ 32) (upd : FVec Ideal ⟨2, ![E, C]⟩ .f32) (n : Fin N) (c : Fin C) :
    Host.scatterAdd (F := Ideal) D x idx upd (ix2 n c)
      = x (ix2 n c) + ∑ e : Fin E, if landRow N (idx (ix2 e 0)) = some n then upd (ix2 e c) else 0 := by
  obtain ⟨uw, iw, sd, iv, wf⟩ := D
  simp only at hu hi hs hv
  subst hu hi hs hv
  show Ideal.hostScatterAdd _ x idx upd (ix2 n c) = _
  unfold Ideal.hostScatterAdd
  refine congrArg (x (ix2 n c) + ·) ?_
  rw [Finset.sum_filter, sum_idx2]
  refine Finset.sum_congr rfl fun e _ => ?_
  by_cases h : landRow N (idx (ix2 e 0)) = some n
  · rw [if_pos h, Finset.sum_eq_single c]
    · rw [if_pos ((scatter2_lands wf idx (ix2 e c) n c).mpr ⟨h, rfl⟩)]
    · intro b _ hb
      rw [if_neg fun h' => hb ((scatter2_lands wf idx (ix2 e b) n c).mp h').2]
    · intro h'; exact absurd (Finset.mem_univ c) h'
  · rw [if_neg h]
    refine Finset.sum_eq_zero fun b _ => ?_
    rw [if_neg fun h' => h ((scatter2_lands wf idx (ix2 e b) n c).mp h').1]

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-- Scatter along the middle axis of a `[T, N, C]` array: the update `(t', e, c')` lands at `(t, n, c)` exactly when entry
    `e`'s word lands in row `n`, `t' = t` and `c' = c`. -/
theorem scatterMid_lands {T N C E : ℕ}
    (wf : ScatterDims.WF ⟨3, ![T, N, C]⟩ ⟨2, ![E, 1]⟩ ⟨3, ![T, E, C]⟩ [0, 2] [1] [1] 1)
    (idx : IVec ⟨2, ![E, 1]⟩ 32) (j : (⟨3, ![T, E, C]⟩ : Shape).Idx) (t : Fin T) (n : Fin N) (c : Fin C) :
    (ScatterDims.mk [0, 2] [1] [1] 1 wf : ScatterDims ⟨3, ![T, N, C]⟩ ⟨2, ![E, 1]⟩ ⟨3, ![T, E, C]⟩).resultIdx? j idx = some (ix3 t n c)
      ↔ landRow N (idx (ix2 (j 1) 0)) = some n ∧ j 0 = t ∧ j 2 = c := by
  rw [resultIdx?_eq_some_iff, landRow_eq_some_iff]
  have hs1 : (ScatterDims.mk [0, 2] [1] [1] 1 wf : ScatterDims ⟨3, ![T, N, C]⟩ ⟨2, ![E, 1]⟩ ⟨3, ![T, E, C]⟩).start j idx 1
      = (idx (ix2 (j 1) 0)).toInt := by
    unfold ScatterDims.start
    split
    · congr 2
      funext b; refine Fin.ext ?_
      match b with
      | ⟨0, _⟩ => rfl
      | ⟨1, _⟩ => rfl
    · rename_i h; exact absurd (show (1 : Fin 3) ∈ [(1 : Fin 3)] from by decide) h
  have hs0 : (ScatterDims.mk [0, 2] [1] [1] 1 wf : ScatterDims ⟨3, ![T, N, C]⟩ ⟨2, ![E, 1]⟩ ⟨3, ![T, E, C]⟩).start j idx 0 = 0 := by
    unfold ScatterDims.start
    split
    · rename_i h; exact absurd h (show (0 : Fin 3) ∉ [(1 : Fin 3)] from by decide)
    · rfl
  have hs2 : (ScatterDims.mk [0, 2] [1] [1] 1 wf : ScatterDims ⟨3, ![T, N, C]⟩ ⟨2, ![E, 1]⟩ ⟨3, ![T, E, C]⟩).start j idx 2 = 0 := by
    unfold ScatterDims.start
    split
    · rename_i h; exact absurd h (show (2 : Fin 3) ∉ [(1 : Fin 3)] from by decide)
    · rfl
  have hw0 : (ScatterDims.mk [0, 2] [1] [1] 1 wf : ScatterDims ⟨3, ![T, N, C]⟩ ⟨2, ![E, 1]⟩ ⟨3, ![T, E, C]⟩).window j 0 = (j 0).val := by
    unfold ScatterDims.window
    split
    · rfl
    · rename_i h; exact absurd (show (0 : Fin 3) ∈ (List.finRange 3).filter (· ∉ [(1 : Fin 3)]) from by decide) h
  have hw1 : (ScatterDims.mk [0, 2] [1] [1] 1 wf : ScatterDims ⟨3, ![T, N, C]⟩ ⟨2, ![E, 1]⟩ ⟨3, ![T, E, C]⟩).window j 1 = 0 := by
    unfold ScatterDims.window
    split
    · rename_i h; exact absurd h (show (1 : Fin 3) ∉ (List.finRange 3).filter (· ∉ [(1 : Fin 3)]) from by decide)
    · rfl
  have hw2 : (ScatterDims.mk [0, 2] [1] [1] 1 wf : ScatterDims ⟨3, ![T, N, C]⟩ ⟨2, ![E, 1]⟩ ⟨3, ![T, E, C]⟩).window j 2 = (j 2).val := by
    unfold ScatterDims.window
    split
    · rfl
    · rename_i h; exact absurd (show (2 : Fin 3) ∈ (List.finRange 3).filter (· ∉ [(1 : Fin 3)]) from by decide) h
  constructor
  · intro h
    have h0 := h 0
    have h1 := h 1
    have h2 := h 2
    rw [hs0, hw0] at h0
    rw [hs1, hw1] at h1
    rw [hs2, hw2] at h2
    have h0' : (0 : Int) + ((j 0).val : Int) = (t.val : Int) := h0
    have h1' : (idx (ix2 (j 1) 0)).toInt + ((0 : ℕ) : Int) = (n.val : Int) := h1
    have h2' : (0 : Int) + ((j 2).val : Int) = (c.val : Int) := h2
    exact ⟨by omega, Fin.ext (by omega), Fin.ext (by omega)⟩
  · rintro ⟨h1, h0, h2⟩ a
    subst h0 h2
    match a with
    | ⟨0, _⟩ =>
      show _ + ((ScatterDims.mk [0, 2] [1] [1] 1 wf : ScatterDims ⟨3, ![T, N, C]⟩ ⟨2, ![E, 1]⟩ ⟨3, ![T, E, C]⟩).window j 0 : Int) = ((j 0).val : Int)
      rw [hw0]
      show (ScatterDims.mk [0, 2] [1] [1] 1 wf : ScatterDims ⟨3, ![T, N, C]⟩ ⟨2, ![E, 1]⟩ ⟨3, ![T, E, C]⟩).start j idx 0 + _ = _
      rw [hs0]; omega
    | ⟨1, _⟩ =>
      show _ + ((ScatterDims.mk [0, 2] [1] [1] 1 wf : ScatterDims ⟨3, ![T, N, C]⟩ ⟨2, ![E, 1]⟩ ⟨3, ![T, E, C]⟩).window j 1 : Int) = (n.val : Int)
      rw [hw1]
      show (ScatterDims.mk [0, 2] [1] [1] 1 wf : ScatterDims ⟨3, ![T, N, C]⟩ ⟨2, ![E, 1]⟩ ⟨3, ![T, E, C]⟩).start j idx 1 + _ = _
      rw [hs1]; omega
    | ⟨2, _⟩ =>
      show _ + ((ScatterDims.mk [0, 2] [1] [1] 1 wf : ScatterDims ⟨3, ![T, N, C]⟩ ⟨2, ![E, 1]⟩ ⟨3, ![T, E, C]⟩).window j 2 : Int) = ((j 2).val : Int)
      rw [hw2]
      show (ScatterDims.mk [0, 2] [1] [1] 1 wf : ScatterDims ⟨3, ![T, N, C]⟩ ⟨2, ![E, 1]⟩ ⟨3, ![T, E, C]⟩).start j idx 2 + _ = _
      rw [hs2]; omega

/-- The accumulating scatter into a `[T, N, C]` array along its middle axis, at the ideal values. -/
theorem scatterAddRowsMid {T N C E : ℕ} (D : ScatterDims ⟨3, ![T, N, C]⟩ ⟨2, ![E, 1]⟩ ⟨3, ![T, E, C]⟩)
    (hu : D.updateWindowDims = [0, 2]) (hi : D.insertedWindowDims = [1]) (hs : D.scatterDimsToOperandDims = [1])
    (hv : D.indexVectorDim = 1)
    (x : FVec Ideal ⟨3, ![T, N, C]⟩ .f32) (idx : IVec ⟨2, ![E, 1]⟩ 32) (upd : FVec Ideal ⟨3, ![T, E, C]⟩ .f32)
    (t : Fin T) (n : Fin N) (c : Fin C) :
    Host.scatterAdd (F := Ideal) D x idx upd (ix3 t n c)
      = x (ix3 t n c) + ∑ e : Fin E, if landRow N (idx (ix2 e 0)) = some n then upd (ix3 t e c) else 0 := by
  obtain ⟨uw, iw, sd, iv, wf⟩ := D
  simp only at hu hi hs hv
  subst hu hi hs hv
  show Ideal.hostScatterAdd _ x idx upd (ix3 t n c) = _
  unfold Ideal.hostScatterAdd
  refine congrArg (x (ix3 t n c) + ·) ?_
  rw [Finset.sum_filter, sum_idx3, Finset.sum_comm]
  refine Finset.sum_congr rfl fun e _ => ?_
  by_cases h : landRow N (idx (ix2 e 0)) = some n
  · rw [if_pos h, Finset.sum_eq_single t]
    · rw [Finset.sum_eq_single c]
      · rw [if_pos ((scatterMid_lands wf idx (ix3 t e c) t n c).mpr ⟨h, rfl, rfl⟩)]
      · intro b _ hb
        rw [if_neg fun h' => hb ((scatterMid_lands wf idx (ix3 t e b) t n c).mp h').2.2]
      · intro h'; exact absurd (Finset.mem_univ c) h'
    · intro a _ ha
      refine Finset.sum_eq_zero fun b _ => ?_
      rw [if_neg fun h' => ha ((scatterMid_lands wf idx (ix3 a e b) t n c).mp h').2.1]
    · intro h'; exact absurd (Finset.mem_univ t) h'
  · rw [if_neg h]
    refine Finset.sum_eq_zero fun a _ => Finset.sum_eq_zero fun b _ => ?_
    rw [if_neg fun h' => h ((scatterMid_lands wf idx (ix3 a e b) t n c).mp h').1]

end Cert.LibGatherScatterRows

end
-- ==== Proof.RegionSpec.lean ====
/-
  Three pointwise-in-the-node stages of a two-layer graph convolution, each as one function of whole arrays, index by
  index, at the ideal (extended real) values. Nodes are the leading axis (10000 of them), then 16 time steps, then features.

  * scaledProject  — the node's 32 input features against a 32 x 64 weight matrix, the product scaled by the node's
                     normaliser d(n):            (sum_f X(n,t,f) W(f,h)) * d(n);
  * hiddenProject  — the aggregated hidden features scaled by d(n), shifted by the bias b(h), clipped below at zero, then
                     against a 64 x 32 weight matrix, the product scaled by d(n) again:
                                                 (sum_h max(A(n,t,h) d(n) + b(h), 0) W(h,g)) * d(n);
  * scaleShift     — the aggregated output features scaled by d(n) and shifted by the bias:  A(n,t,g) d(n) + b(g).
-/
import Idealize.ShloMosaic.PureOps.Ideal
import Idealize.ShloMosaic.Lib.ValueIdx

noncomputable section

open scoped BigOperators

namespace Cert.GraphConv

open Idealize.ShloMosaic Idealize.ShloMosaic.ValueIdx

/-- (sum_f X(n,t,f) W(f,h)) * d(n), over R rows (R = 10000 for the whole array, 400 for one block of nodes). -/
def scaledProjectAt {R : ℕ} (X : FVec Ideal ⟨3, ![R, 16, 32]⟩ .f32) (W : FVec Ideal ⟨2, ![32, 64]⟩ .f32)
    (D : FVec Ideal ⟨2, ![R, 1]⟩ .f32) (n : Fin R) (t : Fin 16) (h : Fin 64) : EReal :=
  (∑ f : Fin 32, X (ix3 n t f) * W (ix2 f h)) * D (ix2 n 0)

/-- The first stage as a whole array. -/
def scaledProject {R : ℕ} (X : FVec Ideal ⟨3, ![R, 16, 32]⟩ .f32) (W : FVec Ideal ⟨2, ![32, 64]⟩ .f32)
    (D : FVec Ideal ⟨2, ![R, 1]⟩ .f32) : FVec Ideal ⟨3, ![R, 16, 64]⟩ .f32 :=
  fun j => scaledProjectAt X W D (j 0) (j 1) (j 2)

/-- (sum_h max(A(n,t,h) d(n) + b(h), 0) W(h,g)) * d(n). -/
def hiddenProjectAt {R : ℕ} (A : FVec Ideal ⟨3, ![R, 16, 64]⟩ .f32) (D : FVec Ideal ⟨2, ![R, 1]⟩ .f32)
    (B : FVec Ideal ⟨2, ![1, 64]⟩ .f32) (W : FVec Ideal ⟨2, ![64, 32]⟩ .f32) (n : Fin R) (t : Fin 16) (g : Fin 32) : EReal :=
  (∑ h : Fin 64, max (A (ix3 n t h) * D (ix2 n 0) + B (ix2 0 h)) 0 * W (ix2 h g)) * D (ix2 n 0)

/-- The second stage as a whole array. -/
def hiddenProject {R : ℕ} (A : FVec Ideal ⟨3, ![R, 16, 64]⟩ .f32) (D : FVec Ideal ⟨2, ![R, 1]⟩ .f32)
    (B : FVec Ideal ⟨2, ![1, 64]⟩ .f32) (W : FVec Ideal ⟨2, ![64, 32]⟩ .f32) : FVec Ideal ⟨3, ![R, 16, 32]⟩ .f32 :=
  fun j => hiddenProjectAt A D B W (j 0) (j 1) (j 2)

/-- A(n,t,g) d(n) + b(g). -/
def scaleShiftAt {R : ℕ} (A : FVec Ideal ⟨3, ![R, 16, 32]⟩ .f32) (D : FVec Ideal ⟨2, ![R, 1]⟩ .f32)
    (B : FVec Ideal ⟨2, ![1, 32]⟩ .f32) (n : Fin R) (t : Fin 16) (g : Fin 32) : EReal :=
  A (ix3 n t g) * D (ix2 n 0) + B (ix2 0 g)

/-- The third stage as a whole array. -/
def scaleShift {R : ℕ} (A : FVec Ideal ⟨3, ![R, 16, 32]⟩ .f32) (D : FVec Ideal ⟨2, ![R, 1]⟩ .f32)
    (B : FVec Ideal ⟨2, ![1, 32]⟩ .f32) : FVec Ideal ⟨3, ![R, 16, 32]⟩ .f32 :=
  fun j => scaleShiftAt A D B (j 0) (j 1) (j 2)

end Cert.GraphConv

end
-- ==== Proof.GraphSpec.lean ====
/-
  Two arrangements of a two-layer graph convolution with symmetric normalisation, and that they agree.

  A graph on 10000 nodes has 170000 edges e, each with a source word s(e), a destination word d(e) and a weight w(e);
  every node n has a normaliser delta(n). An edge's message is read at the source word clamped into the node range
  and is added into the destination word's node when that word lies in the node range (otherwise it is dropped).

  * normAgg  — every message carries the full edge norm:   sum_{e -> n} Y(t, src e, c) * (delta(src e) * w(e) * delta(dst e));
  * plainAgg — every message carries the edge weight only:  sum_{e -> n} Z(src e, t, c) * w(e).

  When Z(m,t,c) = Y(t,m,c) * delta(m), scaling plainAgg's row n by delta(n) gives normAgg: delta(n) is a
  nonnegative real, so it distributes over the sum, and for an edge that lands in n the clamped destination is n.
  Applied once per layer this identifies the node-major arrangement (project and scale, aggregate, scale and shift,
  clip, project and scale, aggregate, scale and shift) with the time-major one (project, aggregate with the full norm,
  shift, clip, project, aggregate with the full norm, shift).
-/
import proofs.«171573_j88725434400964_2_alg».proof.Proof.LibGatherScatterRows
import proofs.«171573_j88725434400964_2_alg».proof.Proof.RegionSpec

noncomputable section

open scoped BigOperators

namespace Cert.GraphConv

open Idealize.ShloMosaic Idealize.ShloMosaic.ValueIdx Cert.LibGatherScatterRows

/-- A nonnegative extended real other than plus infinity distributes over a finite sum from the right. -/
theorem sum_mul_of_nonneg {ι : Type} (S : Finset ι) (f : ι → EReal) {x : EReal} (h0 : 0 ≤ x) (ht : x ≠ ⊤) :
    (∑ e ∈ S, f e) * x = ∑ e ∈ S, f e * x := by
  classical
  induction S using Finset.induction_on with
  | empty => simp
  | insert a S ha ih =>
    rw [Finset.sum_insert ha, Finset.sum_insert ha, EReal.right_distrib_of_nonneg_of_ne_top h0 ht, ih]

section Graph

variable (s d : Fin 170000 → BitVec 32) (ω : Fin 170000 → EReal) (δ : Fin 10000 → EReal)

/-- Aggregation with the full edge norm on every message (time-major). -/
def normAgg {C : ℕ} (Y : Fin 16 → Fin 10000 → Fin C → EReal) (t : Fin 16) (n : Fin 10000) (c : Fin C) : EReal :=
  0 + ∑ e : Fin 170000, if landRow 10000 (d e) = some n
    then Y t (clampRow 10000 (s e)) c * (δ (clampRow 10000 (s e)) * ω e * δ (clampRow 10000 (d e))) else 0

/-- Aggregation with the edge weight only on every message (node-major). -/
def plainAgg {C : ℕ} (Z : Fin 10000 → Fin 16 → Fin C → EReal) (n : Fin 10000) (t : Fin 16) (c : Fin C) : EReal :=
  0 + ∑ e : Fin 170000, if landRow 10000 (d e) = some n then Z (clampRow 10000 (s e)) t c * ω e else 0

/-- Pre-scaling the messages by the source's normaliser and post-scaling row n by delta(n) is the full norm. -/
theorem plainAgg_scaled {C : ℕ} (Y : Fin 16 → Fin 10000 → Fin C → EReal) (hδ : ∀ n, 0 ≤ δ n ∧ δ n ≠ ⊤)
    (n : Fin 10000) (t : Fin 16) (c : Fin C) :
    plainAgg s d ω (fun m t c => Y t m c * δ m) n t c * δ n = normAgg s d ω δ Y t n c := by
  unfold plainAgg normAgg
  rw [zero_add, zero_add, sum_mul_of_nonneg _ _ (hδ n).1 (hδ n).2]
  refine Finset.sum_congr rfl fun e _ => ?_
  by_cases h : landRow 10000 (d e) = some n
  · rw [if_pos h, if_pos h, clampRow_of_landRow h]
    simp only [mul_assoc]
  · rw [if_neg h, if_neg h, zero_mul]

/-! ## The time-major arrangement -/

/-- First projection: sum_f X(t,n,f) W1(f,h). -/
def proj1 (X : FVec Ideal ⟨3, ![16, 10000, 32]⟩ .f32) (W1 : FVec Ideal ⟨2, ![32, 64]⟩ .f32)
    (t : Fin 16) (n : Fin 10000) (h : Fin 64) : EReal := ∑ f : Fin 32, X (ix3 t n f) * W1 (ix2 f h)

/-- Hidden features: the first layer's aggregate, shifted by the bias and clipped below at zero. -/
def hidden (X : FVec Ideal ⟨3, ![16, 10000, 32]⟩ .f32) (W1 : FVec Ideal ⟨2, ![32, 64]⟩ .f32) (b1 : FVec Ideal ⟨1, ![64]⟩ .f32)
    (t : Fin 16) (n : Fin 10000) (h : Fin 64) : EReal := max (normAgg s d ω δ (proj1 X W1) t n h + b1 (ix1 h)) 0

/-- Second projection: sum_h hidden(t,n,h) W2(h,g). -/
def proj2 (X : FVec Ideal ⟨3, ![16, 10000, 32]⟩ .f32) (W1 : FVec Ideal ⟨2, ![32, 64]⟩ .f32) (b1 : FVec Ideal ⟨1, ![64]⟩ .f32)
    (W2 : FVec Ideal ⟨2, ![64, 32]⟩ .f32) (t : Fin 16) (n : Fin 10000) (g : Fin 32) : EReal :=
  ∑ h : Fin 64, hidden s d ω δ X W1 b1 t n h * W2 (ix2 h g)

/-- The time-major result: the second layer's aggregate shifted by its bias. -/
def timeMajorOut (X : FVec Ideal ⟨3, ![16, 10000, 32]⟩ .f32) (W1 : FVec Ideal ⟨2, ![32, 64]⟩ .f32)
    (b1 : FVec Ideal ⟨1, ![64]⟩ .f32) (W2 : FVec Ideal ⟨2, ![64, 32]⟩ .f32) (b2 : FVec Ideal ⟨1, ![32]⟩ .f32)
    (t : Fin 16) (n : Fin 10000) (g : Fin 32) : EReal :=
  normAgg s d ω δ (proj2 s d ω δ X W1 b1 W2) t n g + b2 (ix1 g)

/-! ## The node-major arrangement -/

/-- The first layer's aggregate of the scaled projection. -/
def nodeAgg1 (Xn : FVec Ideal ⟨3, ![10000, 16, 32]⟩ .f32) (W1 : FVec Ideal ⟨2, ![32, 64]⟩ .f32)
    (D : FVec Ideal ⟨2, ![10000, 1]⟩ .f32) : FVec Ideal ⟨3, ![10000, 16, 64]⟩ .f32 :=
  fun j => plainAgg s d ω (fun m t h => scaledProject Xn W1 D (ix3 m t h)) (j 0) (j 1) (j 2)

/-- The second layer's aggregate of the scaled hidden projection. -/
def nodeAgg2 (Xn : FVec Ideal ⟨3, ![10000, 16, 32]⟩ .f32) (W1 : FVec Ideal ⟨2, ![32, 64]⟩ .f32)
    (D : FVec Ideal ⟨2, ![10000, 1]⟩ .f32) (B1 : FVec Ideal ⟨2, ![1, 64]⟩ .f32) (W2 : FVec Ideal ⟨2, ![64, 32]⟩ .f32) :
    FVec Ideal ⟨3, ![10000, 16, 32]⟩ .f32 :=
  fun j => plainAgg s d ω (fun m t g => hiddenProject (nodeAgg1 s d ω Xn W1 D) D B1 W2 (ix3 m t g)) (j 0) (j 1) (j 2)

/-- The node-major result. -/
def nodeMajorOut (Xn : FVec Ideal ⟨3, ![10000, 16, 32]⟩ .f32) (W1 : FVec Ideal ⟨2, ![32, 64]⟩ .f32)
    (D : FVec Ideal ⟨2, ![10000, 1]⟩ .f32) (B1 : FVec Ideal ⟨2, ![1, 64]⟩ .f32) (W2 : FVec Ideal ⟨2, ![64, 32]⟩ .f32)
    (B2 : FVec Ideal ⟨2, ![1, 32]⟩ .f32) : FVec Ideal ⟨3, ![10000, 16, 32]⟩ .f32 :=
  scaleShift (nodeAgg2 s d ω Xn W1 D B1 W2) D B2

/-- The two arrangements agree: entry (n, t, g) of the node-major result is entry (t, n, g) of the time-major one. -/
theorem nodeMajor_eq_timeMajor
    (X : FVec Ideal ⟨3, ![16, 10000, 32]⟩ .f32) (Xn : FVec Ideal ⟨3, ![10000, 16, 32]⟩ .f32)
    (W1 : FVec Ideal ⟨2, ![32, 64]⟩ .f32) (D : FVec Ideal ⟨2, ![10000, 1]⟩ .f32)
    (b1 : FVec Ideal ⟨1, ![64]⟩ .f32) (B1 : FVec Ideal ⟨2, ![1, 64]⟩ .f32) (W2 : FVec Ideal ⟨2, ![64, 32]⟩ .f32)
    (b2 : FVec Ideal ⟨1, ![32]⟩ .f32) (B2 : FVec Ideal ⟨2, ![1, 32]⟩ .f32)
    (hX : ∀ n t f, Xn (ix3 n t f) = X (ix3 t n f)) (hD : ∀ n, D (ix2 n 0) = δ n)
    (hB1 : ∀ h, B1 (ix2 0 h) = b1 (ix1 h)) (hB2 : ∀ g, B2 (ix2 0 g) = b2 (ix1 g))
    (hδ : ∀ n, 0 ≤ δ n ∧ δ n ≠ ⊤) (n : Fin 10000) (t : Fin 16) (g : Fin 32) :
    nodeMajorOut s d ω Xn W1 D B1 W2 B2 (ix3 n t g) = timeMajorOut s d ω δ X W1 b1 W2 b2 t n g := by
  have e1 : (fun (m : Fin 10000) (t : Fin 16) (h : Fin 64) => scaledProject Xn W1 D (ix3 m t h))
      = fun m t h => proj1 X W1 t m h * δ m := by
    funext m t h
    show scaledProjectAt Xn W1 D m t h = _
    unfold scaledProjectAt proj1
    rw [hD]
    simp only [hX]
  have a1 : ∀ (m : Fin 10000) (t : Fin 16) (h : Fin 64),
      nodeAgg1 s d ω Xn W1 D (ix3 m t h) * δ m = normAgg s d ω δ (proj1 X W1) t m h := by
    intro m t h
    show plainAgg s d ω (fun m t h => scaledProject Xn W1 D (ix3 m t h)) m t h * δ m = _
    rw [e1]
    exact plainAgg_scaled s d ω δ (proj1 X W1) hδ m t h
  have e2 : (fun (m : Fin 10000) (t : Fin 16) (g : Fin 32) => hiddenProject (nodeAgg1 s d ω Xn W1 D) D B1 W2 (ix3 m t g))
      = fun m t g => proj2 s d ω δ X W1 b1 W2 t m g * δ m := by
    funext m t g
    show hiddenProjectAt (nodeAgg1 s d ω Xn W1 D) D B1 W2 m t g = _
    unfold hiddenProjectAt proj2 hidden
    rw [hD]
    simp only [a1, hB1]
  show scaleShiftAt (nodeAgg2 s d ω Xn W1 D B1 W2) D B2 n t g = _
  unfold scaleShiftAt timeMajorOut
  rw [hD, hB2]
  refine congrArg (· + b2 (ix1 g)) ?_
  show plainAgg s d ω (fun m t g => hiddenProject (nodeAgg1 s d ω Xn W1 D) D B1 W2 (ix3 m t g)) n t g * δ n = _
  rw [e2]
  exact plainAgg_scaled s d ω δ (proj2 s d ω δ X W1 b1 W2) hδ n t g

end Graph

end Cert.GraphConv

end
-- ==== Proof.KernelHost.lean ====
/-
  The host operations of the kernel program between its three regions, as functions read at an index (at the ideal values).

  * aggregate1 / aggregate2 — one aggregation stage: an [10000, 16, C] array is flattened to [10000, 16 * C] (row-major: the column of
    (t, c) is t * C + c); for every edge the row of its source word (clamped into the node range) is gathered and multiplied by
    the edge's weight; the products are scatter-added, starting from zeros, into the row of the edge's destination word (dropped
    when the word is outside the node range); the result is unflattened. Read at (n, t, c) this is
        0 + sum over the edges e whose destination word lands in n of  X(clamp (src e), t, c) * w(e),
    the plain aggregation of the graph specification.
  * the layout operations around the regions — the two transposes that exchange the time and the node axis, the normaliser as a
    column, a bias as a row — read at an index.
-/
import proofs.«171573_j88725434400964_2_alg».proof.Proof.Gen.KernelIdeal
import proofs.«171573_j88725434400964_2_alg».proof.Proof.GraphSpec
import proofs.«171573_j88725434400964_2_alg».proof.Proof.LibGatherScatterRows

noncomputable section

open scoped BigOperators

namespace Cert.KernelIdeal.HostValue

open Idealize.ShloMosaic Idealize.ShloMosaic.ValueIdx Idealize.SL.Sem
open Cert.KernelIdeal Cert.KernelIdeal.Gen Cert.LibGatherScatterRows

/-! ## The aggregation stage on the flattened [N, K] array -/

/-- A list of E entries as an [E, 1] column: entry (e, 0) is entry e. -/
theorem column_bcast_apply {α : Type} {E : ℕ} (b1 : (⟨1, ![E]⟩ : Shape).BroadcastsInDim ⟨2, ![E, 1]⟩ ![0])
    (v : (⟨1, ![E]⟩ : Shape).Idx → α) (e : Fin E) :
    broadcastInDim ⟨2, ![E, 1]⟩ ![0] b1 v (ix2 e 0) = v (ix1 e) :=
  broadcastInDim_apply _ b1 v (ix2 e 0) (ix1 e) (fun a => match a with
    | ⟨0, _⟩ => by
      show e.val = if E = 1 then 0 else e.val
      have := e.isLt
      split <;> omega)

/-- An [E, 1] column repeated along K columns: entry (e, k) is entry (e, 0). -/
theorem row_bcast_apply {α : Type} {E K : ℕ} (b2 : (⟨2, ![E, 1]⟩ : Shape).BroadcastsInDim ⟨2, ![E, K]⟩ ![0, 1])
    (v : (⟨2, ![E, 1]⟩ : Shape).Idx → α) (e : Fin E) (k : Fin K) :
    broadcastInDim ⟨2, ![E, K]⟩ ![0, 1] b2 v (ix2 e k) = v (ix2 e 0) :=
  broadcastInDim_apply _ b2 v (ix2 e k) (ix2 e 0) (fun a => match a with
    | ⟨0, _⟩ => by
      show e.val = if E = 1 then 0 else e.val
      have := e.isLt
      split <;> omega
    | ⟨1, _⟩ => by
      show (0 : ℕ) = if (1 : ℕ) = 1 then 0 else k.val
      rw [if_pos rfl])

/-- Gather the source rows, weigh them, scatter-add them into the destination rows from zeros: entry (n, k) is the sum, over the
    entries e whose destination word lands in row n, of the source row's entry k times the weight. -/
theorem aggRows_apply {N K E : ℕ} [NeZero N]
    (G : GatherDims ⟨2, ![N, K]⟩ ⟨2, ![E, 1]⟩ ⟨2, ![E, K]⟩)
    (ho : G.offsetDims = [1]) (hc : G.collapsedSliceDims = [0]) (hob : G.operandBatchingDims = [])
    (hm : G.startIndexMap = [0]) (hv : G.indexVectorDim = 1)
    (D : ScatterDims ⟨2, ![N, K]⟩ ⟨2, ![E, 1]⟩ ⟨2, ![E, K]⟩)
    (hu : D.updateWindowDims = [1]) (hi : D.insertedWindowDims = [0]) (hs : D.scatterDimsToOperandDims = [0])
    (hw : D.indexVectorDim = 1)
    (b0 : (⟨0, ![]⟩ : Shape).BroadcastsInDim ⟨2, ![N, K]⟩ ![])
    (b1 : (⟨1, ![E]⟩ : Shape).BroadcastsInDim ⟨2, ![E, 1]⟩ ![0])
    (b2 : (⟨2, ![E, 1]⟩ : Shape).BroadcastsInDim ⟨2, ![E, K]⟩ ![0, 1])
    (x : FVec Ideal ⟨2, ![N, K]⟩ .f32) (srcW dstW : IVec ⟨1, ![E]⟩ 32) (w : FVec Ideal ⟨1, ![E]⟩ .f32)
    (n : Fin N) (k : Fin K) :
    Host.scatterAdd (F := Ideal) D
        (broadcastInDim ⟨2, ![N, K]⟩ ![] b0 (constant (F := Ideal) ⟨0, ![]⟩ .f32 0x00000000#32))
        (broadcastInDim ⟨2, ![E, 1]⟩ ![0] b1 dstW)
        (mulf (F := Ideal) (Host.gather G x (broadcastInDim ⟨2, ![E, 1]⟩ ![0] b1 srcW))
          (broadcastInDim ⟨2, ![E, K]⟩ ![0, 1] b2 (broadcastInDim ⟨2, ![E, 1]⟩ ![0] b1 w))) (ix2 n k)
      = 0 + ∑ e : Fin E, if landRow N (dstW (ix1 e)) = some n then x (ix2 (clampRow N (srcW (ix1 e))) k) * w (ix1 e) else 0 := by
  refine (scatterAddRows2 D hu hi hs hw _ _ _ n k).trans ?_
  have h0 : broadcastInDim ⟨2, ![N, K]⟩ ![] b0 (constant (F := Ideal) ⟨0, ![]⟩ .f32 0x00000000#32) (ix2 n k) = 0 :=
    (broadcastInDim_apply _ b0 _ (ix2 n k) ix0 (fun a => a.elim0)).trans Ideal.ofBits_zero_f32
  rw [h0]
  refine congrArg (0 + ·) (Finset.sum_congr rfl fun e _ => ?_)
  rw [column_bcast_apply b1 dstW e]
  refine if_congr Iff.rfl ?_ rfl
  show Host.gather G x (broadcastInDim ⟨2, ![E, 1]⟩ ![0] b1 srcW) (ix2 e k)
      * broadcastInDim ⟨2, ![E, K]⟩ ![0, 1] b2 (broadcastInDim ⟨2, ![E, 1]⟩ ![0] b1 w) (ix2 e k) = _
  rw [gatherRows2 G ho hc hob hm hv x _ e k, column_bcast_apply b1 srcW e, row_bcast_apply b2 _ e k,
    column_bcast_apply b1 w e]

/-! ## Flattening and unflattening the time and feature axes -/

/-- [10000, 16, 64] flattened to [10000, 1024]: column t * 64 + h of row m is entry (m, t, h). -/
theorem flatten64_apply {α : Type} (x : S10000x16x64.Idx → α) (m : Fin 10000) (t : Fin 16) (h : Fin 64) :
    shapeCast S10000x1024 x shapeCasts_S10000x16x64_S10000x1024 (ix2 m (⟨t.val * 64 + h.val, by omega⟩ : Fin 1024)) = x (ix3 m t h) :=
  shapeCast_apply x shapeCasts_S10000x16x64_S10000x1024 (ix2 m (⟨t.val * 64 + h.val, by omega⟩ : Fin 1024)) (ix3 m t h)
    (by
      rewrite [Shape.rowMajor_val_three, Shape.rowMajor_val_two]
      show (m.val * 16 + t.val) * 64 + h.val = m.val * 1024 + (t.val * 64 + h.val)
      omega)

/-- [10000, 1024] unflattened to [10000, 16, 64]: entry (n, t, h) is column t * 64 + h of row n. -/
theorem unflatten64_apply {α : Type} (y : S10000x1024.Idx → α) (n : Fin 10000) (t : Fin 16) (h : Fin 64) :
    shapeCast S10000x16x64 y shapeCasts_S10000x1024_S10000x16x64 (ix3 n t h) = y (ix2 n (⟨t.val * 64 + h.val, by omega⟩ : Fin 1024)) :=
  shapeCast_apply y shapeCasts_S10000x1024_S10000x16x64 (ix3 n t h) (ix2 n (⟨t.val * 64 + h.val, by omega⟩ : Fin 1024))
    (by
      rewrite [Shape.rowMajor_val_three, Shape.rowMajor_val_two]
      show n.val * 1024 + (t.val * 64 + h.val) = (n.val * 16 + t.val) * 64 + h.val
      omega)

/-- [10000, 16, 32] flattened to [10000, 512]: column t * 32 + g of row m is entry (m, t, g). -/
theorem flatten32_apply {α : Type} (x : S10000x16x32.Idx → α) (m : Fin 10000) (t : Fin 16) (g : Fin 32) :
    shapeCast S10000x512 x shapeCasts_S10000x16x32_S10000x512 (ix2 m (⟨t.val * 32 + g.val, by omega⟩ : Fin 512)) = x (ix3 m t g) :=
  shapeCast_apply x shapeCasts_S10000x16x32_S10000x512 (ix2 m (⟨t.val * 32 + g.val, by omega⟩ : Fin 512)) (ix3 m t g)
    (by
      rewrite [Shape.rowMajor_val_three, Shape.rowMajor_val_two]
      show (m.val * 16 + t.val) * 32 + g.val = m.val * 512 + (t.val * 32 + g.val)
      omega)

/-- [10000, 512] unflattened to [10000, 16, 32]: entry (n, t, g) is column t * 32 + g of row n. -/
theorem unflatten32_apply {α : Type} (y : S10000x512.Idx → α) (n : Fin 10000) (t : Fin 16) (g : Fin 32) :
    shapeCast S10000x16x32 y shapeCasts_S10000x512_S10000x16x32 (ix3 n t g) = y (ix2 n (⟨t.val * 32 + g.val, by omega⟩ : Fin 512)) :=
  shapeCast_apply y shapeCasts_S10000x512_S10000x16x32 (ix3 n t g) (ix2 n (⟨t.val * 32 + g.val, by omega⟩ : Fin 512))
    (by
      rewrite [Shape.rowMajor_val_three, Shape.rowMajor_val_two]
      show n.val * 512 + (t.val * 32 + g.val) = (n.val * 16 + t.val) * 32 + g.val
      omega)

/-! ## The two aggregation stages of the program -/

/-- The first aggregation stage (64 features): the host operations between the first and the second region. -/
def aggregate1 (xw : (⟨S10000x16x64, .f32⟩ : BufTy).Contents (Elt Ideal)) (srcW dstW : (⟨S170000, .i32⟩ : BufTy).Contents (Elt Ideal))
    (w : (⟨S170000, .f32⟩ : BufTy).Contents (Elt Ideal)) : (⟨S10000x16x64, .f32⟩ : BufTy).Contents (Elt Ideal) :=
  shapeCast S10000x16x64
    (Host.scatterAdd (F := Ideal) scatter_S10000x1024_S170000x1_S170000x1024_1_0_0_1
      (broadcastInDim S10000x1024 ![] bcast_S_S10000x1024 (constant (F := Ideal) S_ .f32 0x00000000#32))
      (broadcastInDim S170000x1 ![0] bcast_S170000_S170000x1_0 dstW)
      (mulf (F := Ideal)
        (Host.gather gather_S10000x1024_S170000x1_S170000x1024_1_0_n_n_0_1_11024
          (shapeCast S10000x1024 xw shapeCasts_S10000x16x64_S10000x1024)
          (broadcastInDim S170000x1 ![0] bcast_S170000_S170000x1_0 srcW))
        (broadcastInDim S170000x1024 ![0, 1] bcast_S170000x1_S170000x1024_0_1
          (broadcastInDim S170000x1 ![0] bcast_S170000_S170000x1_0 w))))
    shapeCasts_S10000x1024_S10000x16x64

/-- The second aggregation stage (32 features): the host operations between the second and the third region. -/
def aggregate2 (xw : (⟨S10000x16x32, .f32⟩ : BufTy).Contents (Elt Ideal)) (srcW dstW : (⟨S170000, .i32⟩ : BufTy).Contents (Elt Ideal))
    (w : (⟨S170000, .f32⟩ : BufTy).Contents (Elt Ideal)) : (⟨S10000x16x32, .f32⟩ : BufTy).Contents (Elt Ideal) :=
  shapeCast S10000x16x32
    (Host.scatterAdd (F := Ideal) scatter_S10000x512_S170000x1_S170000x512_1_0_0_1
      (broadcastInDim S10000x512 ![] bcast_S_S10000x512 (constant (F := Ideal) S_ .f32 0x00000000#32))
      (broadcastInDim S170000x1 ![0] bcast_S170000_S170000x1_0 dstW)
      (mulf (F := Ideal)
        (Host.gather gather_S10000x512_S170000x1_S170000x512_1_0_n_n_0_1_1512
          (shapeCast S10000x512 xw shapeCasts_S10000x16x32_S10000x512)
          (broadcastInDim S170000x1 ![0] bcast_S170000_S170000x1_0 srcW))
        (broadcastInDim S170000x512 ![0, 1] bcast_S170000x1_S170000x512_0_1
          (broadcastInDim S170000x1 ![0] bcast_S170000_S170000x1_0 w))))
    shapeCasts_S10000x512_S10000x16x32

/-- The first aggregation stage read at (n, t, h) is the plain aggregation of the graph specification. -/
theorem aggregate1_apply (xw : (⟨S10000x16x64, .f32⟩ : BufTy).Contents (Elt Ideal))
    (srcW dstW : (⟨S170000, .i32⟩ : BufTy).Contents (Elt Ideal)) (w : (⟨S170000, .f32⟩ : BufTy).Contents (Elt Ideal))
    (n : Fin 10000) (t : Fin 16) (h : Fin 64) :
    aggregate1 xw srcW dstW w (ix3 n t h)
      = Cert.GraphConv.plainAgg (fun e => srcW (ix1 e)) (fun e => dstW (ix1 e)) (fun e => w (ix1 e))
          (fun m t h => xw (ix3 m t h)) n t h := by
  unfold aggregate1
  refine (unflatten64_apply _ n t h).trans ?_
  refine (aggRows_apply (N := 10000) (K := 1024) (E := 170000)
    gather_S10000x1024_S170000x1_S170000x1024_1_0_n_n_0_1_11024 rfl rfl rfl rfl rfl
    scatter_S10000x1024_S170000x1_S170000x1024_1_0_0_1 rfl rfl rfl rfl
    bcast_S_S10000x1024 bcast_S170000_S170000x1_0 bcast_S170000x1_S170000x1024_0_1
    (shapeCast S10000x1024 xw shapeCasts_S10000x16x64_S10000x1024) srcW dstW w n
    (⟨t.val * 64 + h.val, by omega⟩ : Fin 1024)).trans ?_
  unfold Cert.GraphConv.plainAgg
  refine congrArg (0 + ·) (Finset.sum_congr rfl fun e _ => ?_)
  rw [flatten64_apply xw (clampRow 10000 (srcW (ix1 e))) t h]

/-- The second aggregation stage read at (n, t, g) is the plain aggregation of the graph specification. -/
theorem aggregate2_apply (xw : (⟨S10000x16x32, .f32⟩ : BufTy).Contents (Elt Ideal))
    (srcW dstW : (⟨S170000, .i32⟩ : BufTy).Contents (Elt Ideal)) (w : (⟨S170000, .f32⟩ : BufTy).Contents (Elt Ideal))
    (n : Fin 10000) (t : Fin 16) (g : Fin 32) :
    aggregate2 xw srcW dstW w (ix3 n t g)
      = Cert.GraphConv.plainAgg (fun e => srcW (ix1 e)) (fun e => dstW (ix1 e)) (fun e => w (ix1 e))
          (fun m t g => xw (ix3 m t g)) n t g := by
  unfold aggregate2
  refine (unflatten32_apply _ n t g).trans ?_
  refine (aggRows_apply (N := 10000) (K := 512) (E := 170000)
    gather_S10000x512_S170000x1_S170000x512_1_0_n_n_0_1_1512 rfl rfl rfl rfl rfl
    scatter_S10000x512_S170000x1_S170000x512_1_0_0_1 rfl rfl rfl rfl
    bcast_S_S10000x512 bcast_S170000_S170000x1_0 bcast_S170000x1_S170000x512_0_1
    (shapeCast S10000x512 xw shapeCasts_S10000x16x32_S10000x512) srcW dstW w n
    (⟨t.val * 32 + g.val, by omega⟩ : Fin 512)).trans ?_
  unfold Cert.GraphConv.plainAgg
  refine congrArg (0 + ·) (Finset.sum_congr rfl fun e _ => ?_)
  rw [flatten32_apply xw (clampRow 10000 (srcW (ix1 e))) t g]

/-! ## The layout operations around the regions -/

/-- The time-major input transposed to node-major: entry (n, t, f) is entry (t, n, f). -/
theorem nodeMajor_apply (x : (⟨S16x10000x32, .f32⟩ : BufTy).Contents (Elt Ideal)) (n : Fin 10000) (t : Fin 16) (f : Fin 32) :
    transpose S10000x16x32 [1, 0, 2] x transposes_S16x10000x32_S10000x16x32_1_0_2 (ix3 n t f) = x (ix3 t n f) :=
  transpose_apply [1, 0, 2] x transposes_S16x10000x32_S10000x16x32_1_0_2 (ix3 n t f) (ix3 t n f) (fun b => match b with
    | ⟨0, _⟩ => rfl
    | ⟨1, _⟩ => rfl
    | ⟨2, _⟩ => rfl)

/-- The node-major result transposed to time-major: entry (t, n, g) is entry (n, t, g). -/
theorem timeMajor_apply (y : (⟨S10000x16x32, .f32⟩ : BufTy).Contents (Elt Ideal)) (t : Fin 16) (n : Fin 10000) (g : Fin 32) :
    transpose S16x10000x32 [1, 0, 2] y transposes_S10000x16x32_S16x10000x32_1_0_2 (ix3 t n g) = y (ix3 n t g) :=
  transpose_apply [1, 0, 2] y transposes_S10000x16x32_S16x10000x32_1_0_2 (ix3 t n g) (ix3 n t g) (fun b => match b with
    | ⟨0, _⟩ => rfl
    | ⟨1, _⟩ => rfl
    | ⟨2, _⟩ => rfl)

/-- The normaliser as a [10000, 1] column: entry (n, 0) is entry n. -/
theorem column_apply (d : (⟨S10000, .f32⟩ : BufTy).Contents (Elt Ideal)) (n : Fin 10000) :
    shapeCast S10000x1 d shapeCasts_S10000_S10000x1 (ix2 n 0) = d (ix1 n) :=
  shapeCast_apply d shapeCasts_S10000_S10000x1 (ix2 n 0) (ix1 n)
    (by
      rewrite [Shape.rowMajor_val_one, Shape.rowMajor_val_two]
      show n.val = n.val * 1 + 0
      omega)

/-- The first bias as a [1, 64] row: entry (0, h) is entry h. -/
theorem row64_apply (b : (⟨S64, .f32⟩ : BufTy).Contents (Elt Ideal)) (h : Fin 64) :
    shapeCast S1x64 b shapeCasts_S64_S1x64 (ix2 0 h) = b (ix1 h) :=
  shapeCast_apply b shapeCasts_S64_S1x64 (ix2 0 h) (ix1 h)
    (by
      rewrite [Shape.rowMajor_val_one, Shape.rowMajor_val_two]
      show h.val = 0 * 64 + h.val
      omega)

/-- The second bias as a [1, 32] row: entry (0, g) is entry g. -/
theorem row32_apply (b : (⟨S32, .f32⟩ : BufTy).Contents (Elt Ideal)) (g : Fin 32) :
    shapeCast S1x32 b shapeCasts_S32_S1x32 (ix2 0 g) = b (ix1 g) :=
  shapeCast_apply b shapeCasts_S32_S1x32 (ix2 0 g) (ix1 g)
    (by
      rewrite [Shape.rowMajor_val_one, Shape.rowMajor_val_two]
      show g.val = 0 * 32 + g.val
      omega)

end Cert.KernelIdeal.HostValue

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«171573_j88725434400964_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.Region0Payload.lean ====
/-
  The arithmetic of the first stage of the graph convolution on one block of 400 nodes, read at an index.

  The stored value is: the block's [400, 16, 32] features with the node and time axes merged into 6400 rows, multiplied
  (as a [6400, 32] by [32, 64] matrix product into a zero accumulator) by the weights, the 6400 rows split back into
  [400, 16], and every entry scaled by its node's normaliser (a [400, 1] column stretched along time and features).
  At (p, t, g) that is (sum_f X(p,t,f) W(f,g)) * d(p): row p*16 + t of the merged array is entry (p, t) of the block,
  because both layouts are row-major.
-/
import proofs.«171573_j88725434400964_2_alg».proof.Proof.Gen.KernelIdeal.Skeleton
import proofs.«171573_j88725434400964_2_alg».proof.Proof.RegionSpec
import proofs.«171573_j88725434400964_2_alg».proof.Proof.LibRowReduceProducts
import Idealize.ShloMosaic.Lib.Pipeline.Value
import Idealize.ShloMosaic.Lib.ValueIdx

noncomputable section

open scoped BigOperators

namespace Cert.KernelIdeal.RegionValue.ScaledProject

open Cert.KernelIdeal Cert.KernelIdeal.Gen
open Idealize.ShloMosaic Idealize.ShloMosaic.ValueIdx

/-! ## Row-major layout changes read at an index -/

section Layout
variable {α : Type}

/-- An [a, b, c] array with its first two axes merged into m rows reads, at row p*b + t and column r, entry (p, t, r). -/
theorem mergeRows_apply {a b c m : ℕ} (x : (⟨3, ![a, b, c]⟩ : Shape).Idx → α)
    (h : (⟨3, ![a, b, c]⟩ : Shape).ShapeCasts ⟨2, ![m, c]⟩) (p : Fin a) (t : Fin b) (r : Fin c) (e : Fin m)
    (he : e.val = p.val * b + t.val) :
    shapeCast ⟨2, ![m, c]⟩ x h (ix2 e r) = x (ix3 p t r) :=
  shapeCast_apply x h _ _ (by
    rw [Shape.rowMajor_val_three, Shape.rowMajor_val_two]
    show (p.val * b + t.val) * c + r.val = e.val * c + r.val
    rw [he])

/-- An [m, c] array with its rows split into a groups of b reads, at (p, t, g), row p*b + t at column g. -/
theorem splitRows_apply {a b c m : ℕ} (x : (⟨2, ![m, c]⟩ : Shape).Idx → α)
    (h : (⟨2, ![m, c]⟩ : Shape).ShapeCasts ⟨3, ![a, b, c]⟩) (p : Fin a) (t : Fin b) (g : Fin c) (e : Fin m)
    (he : e.val = p.val * b + t.val) :
    shapeCast ⟨3, ![a, b, c]⟩ x h (ix3 p t g) = x (ix2 e g) :=
  shapeCast_apply x h _ _ (by
    rw [Shape.rowMajor_val_three, Shape.rowMajor_val_two]
    show e.val * c + g.val = (p.val * b + t.val) * c + g.val
    rw [he])

/-- An [a, 1] column given a second unit axis reads, at (p, 0, 0), the column's entry p. -/
theorem columnUnit_apply {a : ℕ} (x : (⟨2, ![a, 1]⟩ : Shape).Idx → α)
    (h : (⟨2, ![a, 1]⟩ : Shape).ShapeCasts ⟨3, ![a, 1, 1]⟩) (p : Fin a) (u v : Fin 1) :
    shapeCast ⟨3, ![a, 1, 1]⟩ x h (ix3 p u v) = x (ix2 p (0 : Fin 1)) :=
  shapeCast_apply x h _ _ (by
    have hu : u.val = 0 := by omega
    have hv : v.val = 0 := by omega
    rw [Shape.rowMajor_val_three, Shape.rowMajor_val_two]
    show p.val * 1 + 0 = (p.val * 1 + u.val) * 1 + v.val
    omega)

/-- An [a, 1, 1] column stretched to [a, b, c] reads, at (p, t, g), the column's entry p. -/
theorem columnStretch_apply {a b c : ℕ} (x : (⟨3, ![a, 1, 1]⟩ : Shape).Idx → α)
    (h : (⟨3, ![a, 1, 1]⟩ : Shape).Broadcasts ⟨3, ![a, b, c]⟩) (p : Fin a) (t : Fin b) (g : Fin c) :
    broadcastTo ⟨3, ![a, b, c]⟩ x h (ix3 p t g) = x (ix3 p (0 : Fin 1) (0 : Fin 1)) := by
  refine broadcastTo_apply x h (ix3 p t g) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Layout

/-! ## The stored value at an index -/

/-- Entry (p, t, g) of what the body stores is the block's features at (p, t) against column g of the weights, scaled by
    the normaliser of node p. -/
theorem stored_at (x0 : Vec Ideal S400x16x32 .f32) (x1 : Vec Ideal S32x64 .f32) (x2 : Vec Ideal S400x1 .f32)
    (p : Fin 400) (t : Fin 16) (g : Fin 64) :
    k0_pay1 (F := Ideal) x0 x1 x2 (ix3 p t g) = Cert.GraphConv.scaledProjectAt (R := 400) x0 x1 x2 p t g := by
  unfold k0_pay1 Cert.GraphConv.scaledProjectAt
  refine (mulf_apply _ _ _).trans ?_
  refine congrArg₂ (· * ·) ?_ ?_
  · -- the product's row p*16 + t, column g
    refine (splitRows_apply _ _ p t g ⟨p.val * 16 + t.val, by omega⟩ rfl).trans ?_
    refine (Cert.LibRowReduceProducts.matmulNN _ rfl rfl rfl rfl rfl rfl none _ _ _ _).trans ?_
    refine Finset.sum_congr rfl fun r _ => ?_
    refine congrArg₂ (· * ·) ?_ rfl
    refine (truncf_apply (φ := .f32) (ψ := .bf16) _ _ _).trans ?_
    refine (mergeRows_apply (a := 400) (b := 16) (c := 32) (m := 6400) _ _ p t r _ rfl).trans ?_
    exact congrFun (shapeCast_self x0 _) _
  · -- the normaliser of node p
    refine (columnStretch_apply _ _ p t g).trans ?_
    refine (columnUnit_apply _ _ p 0 0).trans ?_
    exact congrFun (shapeCast_self x2 _) _

end Cert.KernelIdeal.RegionValue.ScaledProject

end
-- ==== Proof.Region0Value.lean ====
/-
  The value of the first region: after it, the output window's whole [10000, 16, 64] array is the first stage of the graph
  convolution, (sum_f X(n,t,f) W(f,h)) * d(n), of the arrays its three input windows name (features X, weights W,
  normaliser d), index by index, whatever the buffers held when the region was entered.

  The grid has 25 points; point t handles nodes 400 t .. 400 t + 399. At point t the features block is rows
  400 t .. 400 t + 399 of X, the normaliser block the same rows of d, the weights block all of W; the body stores the
  first stage of those blocks over the whole output block, which is written back to rows 400 t .. 400 t + 399 of the
  output. The first stage at node n only reads row n of X and of d, so the block written back is block t of the first
  stage of the whole arrays; node n lies in the block of point n / 400, so the 25 blocks cover the array.
-/
import proofs.«171573_j88725434400964_2_alg».proof.Proof.Gen.KernelIdeal.Frame
import proofs.«171573_j88725434400964_2_alg».proof.Proof.RegionSpec
import proofs.«171573_j88725434400964_2_alg».proof.Proof.Region0Payload
import Idealize.ShloMosaic.Lib.Pipeline.Value
import Idealize.ShloMosaic.Lib.ValueIdx

noncomputable section

open scoped BigOperators

namespace Cert.KernelIdeal.RegionValue.ScaledProject

open Cert.KernelIdeal Cert.KernelIdeal.Gen
open Idealize.ShloMosaic Idealize.ShloMosaic.TcCoe Idealize.ShloMosaic.ValueIdx
open Idealize.ShloMosaic.Pipeline (Dat)

/-! ## What the body leaves in the output block is the stored value -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The body loads its three blocks whole and stores one value over the whole output block: the block is that value. -/
theorem outputBlock_eq_stored {F : FTy → Type} [FloatOps F] (x0 : Vec F S400x16x32 .f32) (x1 : Vec F S32x64 .f32) (x2 : Vec F S400x1 .f32) :
    out0_3 x0 x1 x2 = k0_pay1 x0 x1 x2 := by
  unfold out0_3
  rw [View.canon_unit_zero zeros3]
  simp only [View.ld_unit_zero (S := S400x16x32) zeros3, View.ld_unit_zero (S := S32x64) zeros2,
    View.ld_unit_zero (S := S400x1) zeros2]

/-! ## Where each block sits in its array -/

/-- The block indices at grid point t: the node-blocked windows (features, normaliser, output) are at block t of the
    node axis and block 0 of the others; the weights are one block. -/
theorem blockIndex : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

variable (V : (c : Dev nD) → (b : Ref sig .tc) → Buf (Elt Ideal) ((c : Thread nD τ).loc b))

/-- Entry (p, s, f) of the features block at point t is entry (400 t + p, s, f) of the features array. -/
theorem featuresBlock_apply (c : Dev nD) (t : Fin cfg0.N) (p : Fin 400) (s : Fin 16) (f : Fin 32) (n : Fin 10000)
    (hn : n.val = t.val * 400 + p.val) :
    (iblk0 V c 0 t : Vec Ideal S400x16x32 .f32) (ix3 p s f)
      = (V c (Pipeline.arrRef spec0 0) : FVec Ideal ⟨3, ![10000, 16, 32]⟩ .f32) (ix3 n s f) := by
  obtain ⟨e0, e1, e2, -⟩ := blockIndex t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 3) * 400 + 1 * p.val = n.val; omega
  | ⟨1, _⟩ => show win0_0.index t (1 : Fin 3) * 16 + 1 * s.val = s.val; omega
  | ⟨2, _⟩ => show win0_0.index t (2 : Fin 3) * 32 + 1 * f.val = f.val; omega

/-- The weights block at any point is the weights array. -/
theorem weightsBlock_apply (c : Dev nD) (t : Fin cfg0.N) (f : Fin 32) (g : Fin 64) :
    (iblk0 V c 1 t : Vec Ideal S32x64 .f32) (ix2 f g)
      = (V c (Pipeline.arrRef spec0 1) : FVec Ideal ⟨2, ![32, 64]⟩ .f32) (ix2 f g) := by
  obtain ⟨-, -, -, e0, e1, -⟩ := blockIndex t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 32 + 1 * f.val = f.val; omega
  | ⟨1, _⟩ => show win0_1.index t (1 : Fin 2) * 64 + 1 * g.val = g.val; omega

/-- Entry p of the normaliser block at point t is entry 400 t + p of the normaliser column. -/
theorem normaliserBlock_apply (c : Dev nD) (t : Fin cfg0.N) (p : Fin 400) (n : Fin 10000)
    (hn : n.val = t.val * 400 + p.val) :
    (iblk0 V c 2 t : Vec Ideal S400x1 .f32) (ix2 p (0 : Fin 1))
      = (V c (Pipeline.arrRef spec0 2) : FVec Ideal ⟨2, ![10000, 1]⟩ .f32) (ix2 n (0 : Fin 1)) := by
  obtain ⟨-, -, -, -, -, e0, e1, -⟩ := blockIndex t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 400 + 1 * p.val = n.val; omega
  | ⟨1, _⟩ => show win0_2.index t (1 : Fin 2) * 1 + 1 * 0 = 0; omega

/-! ## What a point writes back -/

/-- The first stage at an entry only reads the features of that node and time step, one column of the weights and that
    node's normaliser: two sets of arrays that agree there give the same entry. -/
theorem scaledProjectAt_congr {R R' : ℕ} (X : FVec Ideal ⟨3, ![R, 16, 32]⟩ .f32) (W : FVec Ideal ⟨2, ![32, 64]⟩ .f32)
    (D : FVec Ideal ⟨2, ![R, 1]⟩ .f32) (X' : FVec Ideal ⟨3, ![R', 16, 32]⟩ .f32) (W' : FVec Ideal ⟨2, ![32, 64]⟩ .f32)
    (D' : FVec Ideal ⟨2, ![R', 1]⟩ .f32) (n : Fin R) (n' : Fin R') (s : Fin 16) (g : Fin 64)
    (hX : ∀ f : Fin 32, X (ix3 n s f) = X' (ix3 n' s f)) (hW : ∀ f : Fin 32, W (ix2 f g) = W' (ix2 f g))
    (hD : D (ix2 n (0 : Fin 1)) = D' (ix2 n' (0 : Fin 1))) :
    Cert.GraphConv.scaledProjectAt X W D n s g = Cert.GraphConv.scaledProjectAt X' W' D' n' s g := by
  unfold Cert.GraphConv.scaledProjectAt
  rw [hD]
  refine congrArg (· * _) (Finset.sum_congr rfl fun f _ => ?_)
  rw [hX f, hW f]

/-- The first stage of the whole arrays the input windows name. -/
abbrev stage0 (c : Dev nD) : FVec Ideal ⟨3, ![10000, 16, 64]⟩ .f32 :=
  Cert.GraphConv.scaledProject (R := 10000) (V c (Pipeline.arrRef spec0 0)) (V c (Pipeline.arrRef spec0 1))
    (V c (Pipeline.arrRef spec0 2))

/-- The stored value of the blocks at point t, at (p, s, g), is the first stage of the whole arrays at node 400 t + p. -/
theorem stored_apply (c : Dev nD) (t : Fin cfg0.N) (p : Fin 400) (s : Fin 16) (g : Fin 64) (n : Fin 10000)
    (hn : n.val = t.val * 400 + p.val) :
    k0_pay1 (F := Ideal) (iblk0 V c 0 t) (iblk0 V c 1 t) (iblk0 V c 2 t) (ix3 p s g) = stage0 V c (ix3 n s g) :=
  (stored_at (iblk0 V c 0 t) (iblk0 V c 1 t) (iblk0 V c 2 t) p s g).trans
    (scaledProjectAt_congr (iblk0 V c 0 t) (iblk0 V c 1 t) (iblk0 V c 2 t)
      (V c (Pipeline.arrRef spec0 0)) (V c (Pipeline.arrRef spec0 1)) (V c (Pipeline.arrRef spec0 2)) p n s g
      (fun f => featuresBlock_apply V c t p s f n hn) (fun f => weightsBlock_apply V c t f g)
      (normaliserBlock_apply V c t p n hn))

/-- What point t writes back is block t of the first stage of the whole arrays: the output block sits at nodes
    400 t .. 400 t + 399, where the features and normaliser blocks were read. -/
theorem writtenBack_eq (c : Dev nD) (t : Fin cfg0.N) :
    (dat0 V c).flushed 3 t = ((cfg0.win 3).blk t).view.read (Elt Ideal) (stage0 V c) := by
  show (cfg0.win 3).cut (grid0.coords t) ((dat0 V c).after 3 t) = _
  rw [after0_3, outputBlock_eq_stored]
  obtain ⟨-, -, -, -, -, -, -, e0, e1, e2⟩ := blockIndex t
  have hN : cfg0.N = 25 := N_0
  have ht : t.val < cfg0.N := t.isLt
  refine funext fun (j : S400x16x64.Idx) => ?_
  obtain ⟨p, s, g, rfl⟩ : ∃ (p : Fin 400) (s : Fin 16) (g : Fin 64), j = ix3 p s g := ⟨j 0, j 1, j 2, eq_ix3 j⟩
  refine (stored_apply V c t p s g ⟨t.val * 400 + p.val, by omega⟩ rfl).trans ?_
  rw [View.read_apply]
  show stage0 V c _ = stage0 V c _
  refine congrArg _ (funext fun a => Fin.ext ?_)
  match a with
  | ⟨0, _⟩ => show t.val * 400 + p.val = win0_3.index t (0 : Fin 3) * 400 + 1 * p.val; omega
  | ⟨1, _⟩ => show s.val = win0_3.index t (1 : Fin 3) * 16 + 1 * s.val; omega
  | ⟨2, _⟩ => show g.val = win0_3.index t (2 : Fin 3) * 64 + 1 * g.val; omega

/-! ## The blocks cover the array -/

/-- An index of the output array is in point t's block iff each coordinate is in the block's range on its axis. -/
theorem mem_outputBlock (t : Fin cfg0.N) (i : S10000x16x64.Idx) :
    i ∈ ((cfg0.win 3).blk t).view.set ↔ ∀ a : Fin 3, win0_3.index t a * S400x16x64.size a ≤ (i a).val
      ∧ (i a).val < win0_3.index t a * S400x16x64.size a + S400x16x64.size a := by
  show i ∈ ((View.whole main_v21).slice (win0_3.rect t)).set ↔ _
  rw [View.set_slice_whole, Rect.mem_set_unit]
  exact Iff.rfl

/-- Node n lies in the block of point n / 400, and every point writes its block back. -/
theorem outputBlocks_cover (i : S10000x16x64.Idx) :
    ∃ t : Fin cfg0.N, (cfg0.win 3).flush t = true ∧ i ∈ ((cfg0.win 3).blk t).view.set := by
  have hN : cfg0.N = 25 := N_0
  have h0 : (i 0).val < 10000 := (i 0).isLt
  have h1 : (i 1).val < 16 := (i 1).isLt
  have h2 : (i 2).val < 64 := (i 2).isLt
  obtain ⟨t, ht⟩ : ∃ t : Fin cfg0.N, t.val = (i 0).val / 400 := ⟨⟨(i 0).val / 400, by omega⟩, rfl⟩
  obtain ⟨-, -, -, -, -, -, -, e0, e1, e2⟩ := blockIndex t
  refine ⟨t, flush0_3 t, ?_⟩
  rw [mem_outputBlock]
  intro a
  match a with
  | ⟨0, _⟩ =>
    show win0_3.index t (0 : Fin 3) * 400 ≤ (i 0).val ∧ (i 0).val < win0_3.index t (0 : Fin 3) * 400 + 400
    omega
  | ⟨1, _⟩ =>
    show win0_3.index t (1 : Fin 3) * 16 ≤ (i 1).val ∧ (i 1).val < win0_3.index t (1 : Fin 3) * 16 + 16
    omega
  | ⟨2, _⟩ =>
    show win0_3.index t (2 : Fin 3) * 64 ≤ (i 2).val ∧ (i 2).val < win0_3.index t (2 : Fin 3) * 64 + 64
    omega

end Cert.KernelIdeal.RegionValue.ScaledProject

namespace Cert.KernelIdeal.RegionValue

open Cert.KernelIdeal Cert.KernelIdeal.Gen
open Idealize.ShloMosaic Idealize.ShloMosaic.TcCoe Idealize.ShloMosaic.ValueIdx
open Idealize.ShloMosaic.Pipeline (Dat)

/-! ## The output array after the region -/

/-- After the region the output window's whole array is the first stage of the arrays the input windows name, index by
    index, whatever the buffers held when the region was entered. -/
theorem arr0 (V : (c : Dev nD) → (b : Ref sig .tc) → Buf (Elt Ideal) ((c : Thread nD τ).loc b)) (c : Dev nD) :
    (Cert.KernelIdeal.Gen.dat0 (F := Ideal) V c).arrAt 3 cfg0.N
      = Cert.GraphConv.scaledProject (R := 10000) (V c (Pipeline.arrRef spec0 0)) (V c (Pipeline.arrRef spec0 1))
          (V c (Pipeline.arrRef spec0 2)) :=
  (dat0 V c).arrAt_eq_of_cover 3 (ScaledProject.stage0 V c) (fun t _ => ScaledProject.writtenBack_eq V c t)
    ScaledProject.outputBlocks_cover

end Cert.KernelIdeal.RegionValue

end
-- ==== Proof.Region1Payload.lean ====
/-
  The second stage of the graph convolution on one block of 400 nodes, read entry by entry.

  The block program scales the aggregated hidden features A(p,t,h) by the node's normaliser d(p), adds the bias b(h),
  clips below at zero, lays the 400 x 16 (node, time) pairs out as 6400 rows (pair (p,t) is row 16 p + t), multiplies
  those rows against the 64 x 32 weight matrix, folds the rows back into (node, time) pairs and scales by d(p) again.
  Entry (p,t,g) of what it stores is therefore (sum_h max(A(p,t,h) d(p) + b(h), 0) W(h,g)) * d(p).

  The layout steps used on the way, each read at an index:
  * rows (p,t) of an [a, b, c] array merged into one axis of a b rows, and back: row-major, row p b + t;
  * a column [a, 1] viewed as [a, 1, 1] and spread over [a, b, c]: entry (p,t,k) is the column's entry p;
  * a row [1, c] viewed as [1, 1, c] and spread over [a, b, c]: entry (p,t,k) is the row's entry k.
-/
import proofs.«171573_j88725434400964_2_alg».proof.Proof.Gen.KernelIdeal.Skeleton
import proofs.«171573_j88725434400964_2_alg».proof.Proof.RegionSpec
import proofs.«171573_j88725434400964_2_alg».proof.Proof.LibRowReduceProducts
import Idealize.ShloMosaic.Lib.ValueLayout

noncomputable section

open scoped BigOperators

namespace Cert.KernelIdeal.RegionValue.HiddenProject

open Cert.KernelIdeal Cert.KernelIdeal.Gen Idealize.ShloMosaic Idealize.ShloMosaic.ValueIdx

/-! ## Layout steps at an index -/

section Layout
variable {α : Type}

/-- The (p,t) pairs of an [a, b, c] array merged into m = a b rows: row e = p b + t, column k, is entry (p,t,k). -/
theorem mergedRows_apply {a b c m : ℕ} (x : (⟨3, ![a, b, c]⟩ : Shape).Idx → α)
    (h : (⟨3, ![a, b, c]⟩ : Shape).ShapeCasts ⟨2, ![m, c]⟩) (e : Fin m) (k : Fin c) (p : Fin a) (t : Fin b)
    (he : e.val = p.val * b + t.val) :
    shapeCast ⟨2, ![m, c]⟩ x h (ix2 e k) = x (ix3 p t k) :=
  shapeCast_apply x h _ _ (by
    rw [Shape.rowMajor_val_three, Shape.rowMajor_val_two]
    show (p.val * b + t.val) * c + k.val = e.val * c + k.val
    rw [he])

/-- The m = a b rows of a matrix split back into (p,t) pairs: entry (p,t,k) is row e = p b + t, column k. -/
theorem splitRows_apply {a b c m : ℕ} (x : (⟨2, ![m, c]⟩ : Shape).Idx → α)
    (h : (⟨2, ![m, c]⟩ : Shape).ShapeCasts ⟨3, ![a, b, c]⟩) (p : Fin a) (t : Fin b) (k : Fin c) (e : Fin m)
    (he : e.val = p.val * b + t.val) :
    shapeCast ⟨3, ![a, b, c]⟩ x h (ix3 p t k) = x (ix2 e k) :=
  shapeCast_apply x h _ _ (by
    rw [Shape.rowMajor_val_three, Shape.rowMajor_val_two]
    show e.val * c + k.val = (p.val * b + t.val) * c + k.val
    rw [he])

/-- A column [a, 1] viewed as [a, 1, 1]: entry (p, u, w) is the column's entry p. -/
theorem columnAsCube_apply {a : ℕ} (x : (⟨2, ![a, 1]⟩ : Shape).Idx → α)
    (h : (⟨2, ![a, 1]⟩ : Shape).ShapeCasts ⟨3, ![a, 1, 1]⟩) (p : Fin a) (u w : Fin 1) :
    shapeCast ⟨3, ![a, 1, 1]⟩ x h (ix3 p u w) = x (ix2 p (0 : Fin 1)) :=
  shapeCast_apply x h _ _ (by
    have hu : u.val = 0 := by omega
    have hw : w.val = 0 := by omega
    rw [Shape.rowMajor_val_three, Shape.rowMajor_val_two]
    show p.val * 1 + 0 = (p.val * 1 + u.val) * 1 + w.val
    omega)

/-- A row [1, c] viewed as [1, 1, c]: entry (u, w, k) is the row's entry k. -/
theorem rowAsCube_apply {c : ℕ} (x : (⟨2, ![1, c]⟩ : Shape).Idx → α)
    (h : (⟨2, ![1, c]⟩ : Shape).ShapeCasts ⟨3, ![1, 1, c]⟩) (u w : Fin 1) (k : Fin c) :
    shapeCast ⟨3, ![1, 1, c]⟩ x h (ix3 u w k) = x (ix2 (0 : Fin 1) k) :=
  shapeCast_apply x h _ _ (by
    have hu : u.val = 0 := by omega
    have hw : w.val = 0 := by omega
    rw [Shape.rowMajor_val_three, Shape.rowMajor_val_two]
    show 0 * c + k.val = (u.val * 1 + w.val) * c + k.val
    rw [hu, hw])

/-- An [a, 1, 1] array spread over [a, b, c]: entry (p,t,k) is its entry (p,0,0). -/
theorem spreadColumn_apply {a b c : ℕ} (v : (⟨3, ![a, 1, 1]⟩ : Shape).Idx → α)
    (h : (⟨3, ![a, 1, 1]⟩ : Shape).Broadcasts ⟨3, ![a, b, c]⟩) (p : Fin a) (t : Fin b) (k : Fin c) :
    broadcastTo ⟨3, ![a, b, c]⟩ v h (ix3 p t k) = v (ix3 p (0 : Fin 1) (0 : Fin 1)) := by
  refine broadcastTo_apply v h (ix3 p t k) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] array spread over [a, b, c]: entry (p,t,k) is its entry (0,0,k). -/
theorem spreadRow_apply {a b c : ℕ} (v : (⟨3, ![1, 1, c]⟩ : Shape).Idx → α)
    (h : (⟨3, ![1, 1, c]⟩ : Shape).Broadcasts ⟨3, ![a, b, c]⟩) (p : Fin a) (t : Fin b) (k : Fin c) :
    broadcastTo ⟨3, ![a, b, c]⟩ v h (ix3 p t k) = v (ix3 (0 : Fin 1) (0 : Fin 1) k) := by
  refine broadcastTo_apply v h (ix3 p t k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## The stored block at an entry -/

/-- Pair (p,t) of a 400 x 16 block is row 16 p + t of its 6400 rows. -/
def pairRow (p : Fin 400) (t : Fin 16) : Fin 6400 := ⟨p.val * 16 + t.val, by omega⟩

/-- Entry (p,t,g) of what the block program stores:
    (sum_h max(A(p,t,h) d(p) + b(h), 0) W(h,g)) * d(p). -/
theorem stored_apply (x0 : Vec Ideal S400x16x64 .f32) (x1 : Vec Ideal S400x1 .f32) (x2 : Vec Ideal S1x64 .f32)
    (x3 : Vec Ideal S64x32 .f32) (p : Fin 400) (t : Fin 16) (g : Fin 32) :
    k1_pay1 x0 x1 x2 x3 (ix3 p t g) = Cert.GraphConv.hiddenProjectAt (R := 400) x0 x1 x2 x3 p t g := by
  unfold k1_pay1 Cert.GraphConv.hiddenProjectAt
  -- the node's normaliser, spread over the block
  have hd : ∀ (c : ℕ) (hb : S400x1x1.Broadcasts ⟨3, ![400, 16, c]⟩) (k : Fin c),
      broadcastTo ⟨3, ![400, 16, c]⟩
        (shapeCast S400x1x1 (shapeCast S400x1 x1 shapeCasts_S400x1_S400x1) shapeCasts_S400x1_S400x1x1) hb (ix3 p t k)
        = x1 (ix2 p (0 : Fin 1)) := fun c hb k =>
    (spreadColumn_apply _ hb p t k).trans ((columnAsCube_apply _ _ p 0 0).trans (by rw [shapeCast_self]))
  refine congrArg₂ (· * ·) ?_ (hd 32 _ g)
  refine (splitRows_apply _ _ p t g (pairRow p t) rfl).trans ?_
  refine (Cert.LibRowReduceProducts.matmulNN dot_S6400x64_S64x32_S6400x32_1_0_0_1_n_n rfl rfl rfl rfl rfl rfl none _ _
    (pairRow p t) g).trans ?_
  refine Finset.sum_congr rfl fun r _ => ?_
  refine congrArg₂ (· * ·) ?_ rfl
  refine (truncf_apply (φ := .f32) (ψ := .bf16) _ bitsLt_bf16_f32 (ix2 (pairRow p t) r)).trans ?_
  refine (mergedRows_apply _ _ (pairRow p t) r p t rfl).trans ?_
  refine congrArg₂ max ?_ Ideal.ofBits_zero_f32
  refine congrArg₂ (· + ·) (congrArg₂ (· * ·) (by rw [shapeCast_self]) (hd 64 _ r)) ?_
  exact (spreadRow_apply _ _ p t r).trans ((rowAsCube_apply _ _ 0 0 r).trans (by rw [shapeCast_self]))

end Cert.KernelIdeal.RegionValue.HiddenProject

end
-- ==== Proof.Region1Value.lean ====
/-
  The second stage of the graph convolution over all 10000 nodes.

  The region runs over 25 points; point t works on the block of nodes 400 t .. 400 t + 399. At that point the block of
  aggregated hidden features is rows 400 t + p of A, the block of normalisers is rows 400 t + p of d, and the bias row
  b and the 64 x 32 weight matrix W are whole at every point. What the point writes back is, entry (p,s,g), the
  second stage's value at node 400 t + p, time s, feature g: the block of ONE function of the whole arrays. Node n is
  covered by point n / 400, so after the last point the output array is that function everywhere.
-/
import proofs.«171573_j88725434400964_2_alg».proof.Proof.Gen.KernelIdeal.Frame
import proofs.«171573_j88725434400964_2_alg».proof.Proof.RegionSpec
import proofs.«171573_j88725434400964_2_alg».proof.Proof.Region1Payload
import Idealize.ShloMosaic.Lib.Pipeline.Value

noncomputable section

open scoped BigOperators

namespace Cert.KernelIdeal.RegionValue.HiddenProject

open Cert.KernelIdeal Cert.KernelIdeal.Gen Idealize.ShloMosaic Idealize.ShloMosaic.TcCoe Idealize.SL.Sem
open Idealize.ShloMosaic.ValueIdx
open Idealize.ShloMosaic.Pipeline (Dat)

theorem zeros3 : (![0, 0, 0] : Fin 3 → Nat) = fun _ => 0 := funext fun a => by fin_cases a <;> rfl
theorem zeros2 : (![0, 0] : Fin 2 → Nat) = fun _ => 0 := funext fun a => by fin_cases a <;> rfl

/-- What the block program leaves in the output block, entry (p,s,g): the second stage on the four input blocks. -/
theorem left_apply (x0 : Vec Ideal S400x16x64 .f32) (x1 : Vec Ideal S400x1 .f32) (x2 : Vec Ideal S1x64 .f32)
    (x3 : Vec Ideal S64x32 .f32) (p : Fin 400) (s : Fin 16) (g : Fin 32) :
    out1_4 x0 x1 x2 x3 (ix3 p s g) = Cert.GraphConv.hiddenProjectAt (R := 400) x0 x1 x2 x3 p s g := by
  unfold out1_4
  rw [View.canon_unit_zero zeros3]
  simp only [View.ld_unit_zero (S := S400x16x64) zeros3, View.ld_unit_zero (S := S400x1) zeros2,
    View.ld_unit_zero (S := S1x64) zeros2, View.ld_unit_zero (S := S64x32) zeros2]
  exact stored_apply x0 x1 x2 x3 p s g

variable (V : (c : Dev nD) → (b : Ref sig .tc) → Buf (Elt Ideal) ((c : Thread nD τ).loc b))

/-- The printed index maps over the 25 points: the node-blocked windows (hidden features, normalisers, output) sit at
    block t of the node axis and block 0 of the others; the bias and weight windows at block 0 of both axes. -/
theorem idx_facts : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The hidden-feature block at point t: entry (p,s,h) is A at node 400 t + p. -/
theorem hiddenBlock_apply (c : Dev nD) (t : Fin cfg1.N) (p : Fin 400) (s : Fin 16) (h : Fin 64) (n : Fin 10000)
    (hn : n.val = t.val * 400 + p.val) :
    (iblk1 V c 0 t : Vec Ideal S400x16x64 .f32) (ix3 p s h)
      = (V c (Pipeline.arrRef spec1 0) : FVec Ideal S10000x16x64 .f32) (ix3 n s h) := by
  obtain ⟨e0, e1, e2, -⟩ := idx_facts t
  unfold iblk1
  rw [View.read_apply]
  show (V c (Pipeline.arrRef spec1 0) : FVec Ideal S10000x16x64 .f32) (((cfg1.win 0).blk t).view.emb (ix3 p s h)) = _
  refine congrArg (V c (Pipeline.arrRef spec1 0) : FVec Ideal S10000x16x64 .f32) (funext fun a => Fin.ext ?_)
  match a with
  | ⟨0, _⟩ => show win1_0.index t (0 : Fin 3) * 400 + 1 * p.val = n.val; omega
  | ⟨1, _⟩ => show win1_0.index t (1 : Fin 3) * 16 + 1 * s.val = s.val; omega
  | ⟨2, _⟩ => show win1_0.index t (2 : Fin 3) * 64 + 1 * h.val = h.val; omega

/-- The normaliser block at point t: entry (p,0) is d at node 400 t + p. -/
theorem normBlock_apply (c : Dev nD) (t : Fin cfg1.N) (p : Fin 400) (u : Fin 1) (n : Fin 10000)
    (hn : n.val = t.val * 400 + p.val) :
    (iblk1 V c 1 t : Vec Ideal S400x1 .f32) (ix2 p u)
      = (V c (Pipeline.arrRef spec1 1) : FVec Ideal S10000x1 .f32) (ix2 n u) := by
  obtain ⟨-, -, -, e0, e1, -⟩ := idx_facts t
  unfold iblk1
  rw [View.read_apply]
  show (V c (Pipeline.arrRef spec1 1) : FVec Ideal S10000x1 .f32) (((cfg1.win 1).blk t).view.emb (ix2 p u)) = _
  refine congrArg (V c (Pipeline.arrRef spec1 1) : FVec Ideal S10000x1 .f32) (funext fun a => Fin.ext ?_)
  match a with
  | ⟨0, _⟩ => show win1_1.index t (0 : Fin 2) * 400 + 1 * p.val = n.val; omega
  | ⟨1, _⟩ => show win1_1.index t (1 : Fin 2) * 1 + 1 * u.val = u.val; omega

/-- The bias block at every point is the whole bias row. -/
theorem biasBlock_apply (c : Dev nD) (t : Fin cfg1.N) (u : Fin 1) (h : Fin 64) :
    (iblk1 V c 2 t : Vec Ideal S1x64 .f32) (ix2 u h)
      = (V c (Pipeline.arrRef spec1 2) : FVec Ideal S1x64 .f32) (ix2 u h) := by
  obtain ⟨-, -, -, -, -, e0, e1, -⟩ := idx_facts t
  unfold iblk1
  rw [View.read_apply]
  show (V c (Pipeline.arrRef spec1 2) : FVec Ideal S1x64 .f32) (((cfg1.win 2).blk t).view.emb (ix2 u h)) = _
  refine congrArg (V c (Pipeline.arrRef spec1 2) : FVec Ideal S1x64 .f32) (funext fun a => Fin.ext ?_)
  match a with
  | ⟨0, _⟩ => show win1_2.index t (0 : Fin 2) * 1 + 1 * u.val = u.val; omega
  | ⟨1, _⟩ => show win1_2.index t (1 : Fin 2) * 64 + 1 * h.val = h.val; omega

/-- The weight block at every point is the whole 64 x 32 matrix. -/
theorem weightBlock_apply (c : Dev nD) (t : Fin cfg1.N) (h : Fin 64) (g : Fin 32) :
    (iblk1 V c 3 t : Vec Ideal S64x32 .f32) (ix2 h g)
      = (V c (Pipeline.arrRef spec1 3) : FVec Ideal S64x32 .f32) (ix2 h g) := by
  obtain ⟨-, -, -, -, -, -, -, e0, e1, -⟩ := idx_facts t
  unfold iblk1
  rw [View.read_apply]
  show (V c (Pipeline.arrRef spec1 3) : FVec Ideal S64x32 .f32) (((cfg1.win 3).blk t).view.emb (ix2 h g)) = _
  refine congrArg (V c (Pipeline.arrRef spec1 3) : FVec Ideal S64x32 .f32) (funext fun a => Fin.ext ?_)
  match a with
  | ⟨0, _⟩ => show win1_3.index t (0 : Fin 2) * 64 + 1 * h.val = h.val; omega
  | ⟨1, _⟩ => show win1_3.index t (1 : Fin 2) * 32 + 1 * g.val = g.val; omega

/-- The second stage on a block of 400 nodes is the second stage on the whole arrays at the block's nodes: if row p of
    the blocks is row n of A and d, and the bias and weight blocks are b and W, entry (p,s,g) is entry (n,s,g). -/
theorem hiddenProjectAt_of_rows {x0 : FVec Ideal S400x16x64 .f32} {x1 : FVec Ideal S400x1 .f32}
    {x2 : FVec Ideal S1x64 .f32} {x3 : FVec Ideal S64x32 .f32} {A : FVec Ideal S10000x16x64 .f32}
    {D : FVec Ideal S10000x1 .f32} {B : FVec Ideal S1x64 .f32} {W : FVec Ideal S64x32 .f32}
    (p : Fin 400) (n : Fin 10000) (s : Fin 16) (g : Fin 32)
    (h0 : ∀ h : Fin 64, x0 (ix3 p s h) = A (ix3 n s h)) (h1 : x1 (ix2 p (0 : Fin 1)) = D (ix2 n (0 : Fin 1)))
    (h2 : ∀ h : Fin 64, x2 (ix2 (0 : Fin 1) h) = B (ix2 (0 : Fin 1) h)) (h3 : ∀ h : Fin 64, x3 (ix2 h g) = W (ix2 h g)) :
    Cert.GraphConv.hiddenProjectAt (R := 400) x0 x1 x2 x3 p s g
      = Cert.GraphConv.hiddenProjectAt (R := 10000) A D B W n s g := by
  unfold Cert.GraphConv.hiddenProjectAt
  rw [h1]
  refine congrArg (· * D (ix2 n (0 : Fin 1))) (Finset.sum_congr rfl fun h _ => ?_)
  rw [h0 h, h2 h, h3 h]

/-- WHAT POINT t WRITES BACK is block t of the second stage of the whole arrays as the region finds them. -/
theorem flushed_eq (c : Dev nD) (t : Fin cfg1.N) :
    (dat1 V c).flushed 4 t = ((cfg1.win 4).blk t).view.read (Elt Ideal)
      (Cert.GraphConv.hiddenProject (R := 10000) (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  refine funext fun (j : S400x16x32.Idx) => ?_
  obtain ⟨p, s, g, rfl⟩ : ∃ (p : Fin 400) (s : Fin 16) (g : Fin 32), j = ix3 p s g := ⟨j 0, j 1, j 2, eq_ix3 j⟩
  have hp : p.val < 400 := p.isLt
  have ht : t.val < 25 := lt_of_lt_of_eq t.isLt N_1
  obtain ⟨-, -, -, -, -, -, -, -, -, e0, e1, e2⟩ := idx_facts t
  rw [View.read_apply]
  have hemb : ((cfg1.win 4).blk t).view.emb (ix3 p s g)
      = (ix3 (⟨t.val * 400 + p.val, by omega⟩ : Fin 10000) s g : S10000x16x32.Idx) := funext fun a => Fin.ext (by
    match a with
    | ⟨0, _⟩ => show win1_4.index t (0 : Fin 3) * 400 + 1 * p.val = t.val * 400 + p.val; omega
    | ⟨1, _⟩ => show win1_4.index t (1 : Fin 3) * 16 + 1 * s.val = s.val; omega
    | ⟨2, _⟩ => show win1_4.index t (2 : Fin 3) * 32 + 1 * g.val = g.val; omega)
  rw [hemb]
  show out1_4 (iblk1 V c 0 t) (iblk1 V c 1 t) (iblk1 V c 2 t) (iblk1 V c 3 t) (ix3 p s g) = _
  refine (left_apply _ _ _ _ p s g).trans ?_
  exact hiddenProjectAt_of_rows p ⟨t.val * 400 + p.val, by omega⟩ s g
    (fun h => hiddenBlock_apply V c t p s h _ rfl) (normBlock_apply V c t p 0 _ rfl)
    (fun h => biasBlock_apply V c t 0 h) (fun h => weightBlock_apply V c t h g)

/-- An index of the output array is in point t's block iff each coordinate is in the block's range on its axis. -/
theorem mem_blk (t : Fin cfg1.N) (i : S10000x16x32.Idx) :
    i ∈ ((cfg1.win 4).blk t).view.set ↔ ∀ a : Fin 3, win1_4.index t a * S400x16x32.size a ≤ (i a).val
      ∧ (i a).val < win1_4.index t a * S400x16x32.size a + S400x16x32.size a := by
  show i ∈ ((View.whole main_v38).slice (win1_4.rect t)).set ↔ _
  rw [View.set_slice_whole, Rect.mem_set_unit]
  exact Iff.rfl

/-- Every entry of the output array is written back by some point: node n by point n / 400. -/
theorem covered (i : S10000x16x32.Idx) :
    ∃ t : Fin cfg1.N, (cfg1.win 4).flush t = true ∧ i ∈ ((cfg1.win 4).blk t).view.set := by
  have h0 : (i 0).val < 10000 := (i 0).isLt
  have h1 : (i 1).val < 16 := (i 1).isLt
  have h2 : (i 2).val < 32 := (i 2).isLt
  have hN : cfg1.N = 25 := N_1
  refine ⟨⟨(i 0).val / 400, by rw [hN]; omega⟩, flush1_4 _, ?_⟩
  rw [mem_blk]
  obtain ⟨-, -, -, -, -, -, -, -, -, e0, e1, e2⟩ := idx_facts ⟨(i 0).val / 400, by rw [hN]; omega⟩
  intro a
  match a with
  | ⟨0, _⟩ =>
    show win1_4.index ⟨(i 0).val / 400, _⟩ (0 : Fin 3) * 400 ≤ (i 0).val
      ∧ (i 0).val < win1_4.index ⟨(i 0).val / 400, _⟩ (0 : Fin 3) * 400 + 400
    rw [e0]; show (i 0).val / 400 * 400 ≤ (i 0).val ∧ (i 0).val < (i 0).val / 400 * 400 + 400; omega
  | ⟨1, _⟩ =>
    show win1_4.index ⟨(i 0).val / 400, _⟩ (1 : Fin 3) * 16 ≤ (i 1).val
      ∧ (i 1).val < win1_4.index ⟨(i 0).val / 400, _⟩ (1 : Fin 3) * 16 + 16
    rw [e1]; omega
  | ⟨2, _⟩ =>
    show win1_4.index ⟨(i 0).val / 400, _⟩ (2 : Fin 3) * 32 ≤ (i 2).val
      ∧ (i 2).val < win1_4.index ⟨(i 0).val / 400, _⟩ (2 : Fin 3) * 32 + 32
    rw [e2]; omega

end Cert.KernelIdeal.RegionValue.HiddenProject

namespace Cert.KernelIdeal.RegionValue

open Cert.KernelIdeal Cert.KernelIdeal.Gen Idealize.ShloMosaic Idealize.ShloMosaic.TcCoe Idealize.SL.Sem
open Idealize.ShloMosaic.Pipeline (Dat)

/-- After the region, the output array is the second stage of the arrays the input windows name, entry by entry:
    (sum_h max(A(n,t,h) d(n) + b(h), 0) W(h,g)) * d(n). -/
theorem arr1 (V : (c : Dev nD) → (b : Ref sig .tc) → Buf (Elt Ideal) ((c : Thread nD τ).loc b)) (c : Dev nD) :
    (Cert.KernelIdeal.Gen.dat1 (F := Ideal) V c).arrAt 4 cfg1.N
      = Cert.GraphConv.hiddenProject (R := 10000) (V c (Pipeline.arrRef spec1 0)) (V c (Pipeline.arrRef spec1 1))
          (V c (Pipeline.arrRef spec1 2)) (V c (Pipeline.arrRef spec1 3)) :=
  (dat1 V c).arrAt_eq_of_cover 4 _ (fun t _ => HiddenProject.flushed_eq V c t) HiddenProject.covered

end Cert.KernelIdeal.RegionValue

end
-- ==== Proof.Region2Payload.lean ====
/-
  The stored value of the third stage (scale by the node's normaliser, shift by the bias) read at one index of a block of
  400 nodes: at node p, step t, feature g it is A(p,t,g) d(p) + b(g).

  * an [a, 1] column viewed as [a, 1, 1] keeps entry p at (p, 0, 0);
  * an [a, 1, 1] column spread over [a, b, c] reads entry p at every (p, t, g);
  * a [1, 1, c] row spread over [a, b, c] reads entry g at every (p, t, g).
-/
import proofs.«171573_j88725434400964_2_alg».proof.Proof.Gen.KernelIdeal.Skeleton
import proofs.«171573_j88725434400964_2_alg».proof.Proof.RegionSpec
import Idealize.ShloMosaic.Lib.Pipeline.Value
import Idealize.ShloMosaic.Lib.ValueLayout

noncomputable section

namespace Cert.KernelIdeal.RegionValue

open Cert.KernelIdeal Cert.KernelIdeal.Gen Idealize.ShloMosaic Idealize.ShloMosaic.ValueIdx

variable {α : Type}

/-- An [a, 1] column viewed as [a, 1, 1] reads, at (p, u, u'), the column's entry p. -/
theorem column_cast_apply {a : ℕ} (x : (⟨2, ![a, 1]⟩ : Shape).Idx → α)
    (h : (⟨2, ![a, 1]⟩ : Shape).ShapeCasts ⟨3, ![a, 1, 1]⟩) (p : Fin a) (u u' : Fin 1) :
    shapeCast ⟨3, ![a, 1, 1]⟩ x h (ix3 p u u') = x (ix2 p (0 : Fin 1)) :=
  shapeCast_apply x h _ _ (by
    have hu : u.val = 0 := by omega
    have hu' : u'.val = 0 := by omega
    rw [Shape.rowMajor_val_three, Shape.rowMajor_val_two]
    show p.val * 1 + 0 = (p.val * 1 + u.val) * 1 + u'.val
    omega)

/-- An [a, 1, 1] column spread over [a, b, c] reads, at (p, t, g), the column's entry p. -/
theorem column_broadcast_apply {a b c : ℕ} (x : (⟨3, ![a, 1, 1]⟩ : Shape).Idx → α)
    (h : (⟨3, ![a, 1, 1]⟩ : Shape).Broadcasts ⟨3, ![a, b, c]⟩) (p : Fin a) (t : Fin b) (g : Fin c) :
    broadcastTo ⟨3, ![a, b, c]⟩ x h (ix3 p t g) = x (ix3 p (0 : Fin 1) (0 : Fin 1)) := by
  refine broadcastTo_apply x h (ix3 p t g) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row spread over [a, b, c] reads, at (p, t, g), the row's entry g. -/
theorem row_broadcast_apply {a b c : ℕ} (x : (⟨3, ![1, 1, c]⟩ : Shape).Idx → α)
    (h : (⟨3, ![1, 1, c]⟩ : Shape).Broadcasts ⟨3, ![a, b, c]⟩) (p : Fin a) (t : Fin b) (g : Fin c) :
    broadcastTo ⟨3, ![a, b, c]⟩ x h (ix3 p t g) = x (ix3 (0 : Fin 1) (0 : Fin 1) g) := by
  refine broadcastTo_apply x h (ix3 p t g) (ix3 (0 : Fin 1) (0 : Fin 1) g) fun ax => ?_
  match ax with
  | ⟨0, _⟩ => rfl
  | ⟨1, _⟩ => rfl
  | ⟨2, _⟩ =>
    show g.val = if c = 1 then 0 else g.val
    split
    · have := g.isLt; omega
    · rfl

/-- The stored value at node p, step t, feature g of a block of 400 nodes: A(p,t,g) d(p) + b(g). -/
theorem scaleShift_payload (x0 : Vec Ideal S400x16x32 .f32) (x1 : Vec Ideal S400x1 .f32) (x2 : Vec Ideal S1x32 .f32)
    (p : Fin 400) (t : Fin 16) (g : Fin 32) :
    k2_pay1 (F := Ideal) x0 x1 x2 (ix3 p t g) = Cert.GraphConv.scaleShiftAt (R := 400) x0 x1 x2 p t g := by
  unfold k2_pay1 Cert.GraphConv.scaleShiftAt
  show shapeCast S400x16x32 x0 _ (ix3 p t g) * broadcastTo S400x16x32 (shapeCast S400x1x1 (shapeCast S400x1 x1 _) _) _ (ix3 p t g)
      + broadcastTo S400x16x32 (shapeCast S1x1x32 (shapeCast S1x32 x2 _) _) _ (ix3 p t g) = _
  rw [shapeCast_self, shapeCast_self, shapeCast_self]
  rw [column_broadcast_apply, row_broadcast_apply, column_cast_apply, shapeCast_ab_1ab_apply]

end Cert.KernelIdeal.RegionValue

end
-- ==== Proof.Region2Value.lean ====
/-
  The value of the third region (scale by the node's normaliser, shift by the bias), over ANY contents the region finds:
  after its 25 points the output array is  A(n,t,g) d(n) + b(g)  of the three arrays its input windows name, index by index.

  * the block index maps over the 25 points: the node-blocked windows sit at block t of the node axis, the bias at its one block;
  * block t of the features, of the normaliser column and of the bias row, read as rows 400 t + p of their arrays;
  * what point t writes back is block t of the whole-array stage (the stored value at (p, t', g) is the stage at (400 t + p, t', g));
  * the 25 blocks cover the 10000 node rows: row r lies in the block of point r / 400.
-/
import proofs.«171573_j88725434400964_2_alg».proof.Proof.Gen.KernelIdeal.Frame
import proofs.«171573_j88725434400964_2_alg».proof.Proof.Region2Payload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index maps over the 25 points: the node-blocked windows sit at block t of the node axis, the bias at its one block. -/
theorem index_facts : ∀ t : Fin cfg2.N,
    win2_0.index t (0 : Fin 3) = t.val ∧ win2_0.index t (1 : Fin 3) = 0 ∧ win2_0.index t (2 : Fin 3) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0 :=
  (by decide +kernel : ∀ t : Fin grid2.N, _)

/-- Block k of the third stage: if the blocks hold rows 400 k + p of the features and of the normaliser, and the bias,
    then the stored value at (p, t, g) is the whole-array stage at (400 k + p, t, g). -/
theorem block_value (A : FVec Ideal ⟨3, ![10000, 16, 32]⟩ .f32) (D : FVec Ideal ⟨2, ![10000, 1]⟩ .f32) (B : FVec Ideal ⟨2, ![1, 32]⟩ .f32)
    (x0 : Vec Ideal S400x16x32 .f32) (x1 : Vec Ideal S400x1 .f32) (x2 : Vec Ideal S1x32 .f32) (k : ℕ)
    (h0 : ∀ (y : S400x16x32.Idx) (i : S10000x16x32.Idx), (i 0).val = k * 400 + (y 0).val → (i 1).val = (y 1).val → (i 2).val = (y 2).val → x0 y = A i)
    (h1 : ∀ (y : S400x1.Idx) (i : S10000x1.Idx), (i 0).val = k * 400 + (y 0).val → x1 y = D i)
    (h2 : ∀ (y i : S1x32.Idx), (i 1).val = (y 1).val → x2 y = B i)
    (y : S400x16x32.Idx) (i : S10000x16x32.Idx) (hi0 : (i 0).val = k * 400 + (y 0).val) (hi1 : (i 1).val = (y 1).val) (hi2 : (i 2).val = (y 2).val) :
    k2_pay1 (F := Ideal) x0 x1 x2 y = Cert.GraphConv.scaleShift (R := 10000) A D B i := by
  obtain ⟨p, t, g, rfl⟩ : ∃ (p : Fin 400) (t : Fin 16) (g : Fin 32), y = ix3 p t g := ⟨y 0, y 1, y 2, eq_ix3 y⟩
  rw [scaleShift_payload]
  unfold Cert.GraphConv.scaleShift Cert.GraphConv.scaleShiftAt
  rw [h0 (ix3 p t g) (ix3 (i 0) (i 1) (i 2)) hi0 hi1 hi2, h1 (ix2 p 0) (ix2 (i 0) 0) hi0, h2 (ix2 0 g) (ix2 0 (i 2)) hi2]

/-- The feature block at point t holds rows 400 t + p of the feature array. -/
theorem features_block_apply (c : Dev nD) (t : Fin cfg2.N) (y : S400x16x32.Idx) (i : S10000x16x32.Idx)
    (hi0 : (i 0).val = t.val * 400 + (y 0).val) (hi1 : (i 1).val = (y 1).val) (hi2 : (i 2).val = (y 2).val) :
    (iblk2 V c 0 t : Vec Ideal S400x16x32 .f32) y = (V c (Pipeline.arrRef spec2 0) : S10000x16x32.Idx → EReal) i := by
  obtain ⟨e0, e1, e2, -⟩ := index_facts t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 3) * 400 + 1 * (y 0).val = (i 0).val; rw [e0, hi0]; omega
  | ⟨1, _⟩ => show win2_0.index t (1 : Fin 3) * 16 + 1 * (y 1).val = (i 1).val; rw [e1, hi1]; omega
  | ⟨2, _⟩ => show win2_0.index t (2 : Fin 3) * 32 + 1 * (y 2).val = (i 2).val; rw [e2, hi2]; omega

/-- The normaliser block at point t holds rows 400 t + p of the normaliser column. -/
theorem normaliser_block_apply (c : Dev nD) (t : Fin cfg2.N) (y : S400x1.Idx) (i : S10000x1.Idx)
    (hi0 : (i 0).val = t.val * 400 + (y 0).val) :
    (iblk2 V c 1 t : Vec Ideal S400x1 .f32) y = (V c (Pipeline.arrRef spec2 1) : S10000x1.Idx → EReal) i := by
  obtain ⟨-, -, -, e0, e1, -⟩ := index_facts t
  have hy1 : (y 1).val = 0 := by have : (y 1).val < 1 := (y 1).isLt; omega
  have hi1 : (i 1).val = 0 := by have : (i 1).val < 1 := (i 1).isLt; omega
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 400 + 1 * (y 0).val = (i 0).val; rw [e0, hi0]; omega
  | ⟨1, _⟩ => show win2_1.index t (1 : Fin 2) * 1 + 1 * (y 1).val = (i 1).val; rw [e1, hi1, hy1]

/-- The bias block at every point is the bias row. -/
theorem bias_block_apply (c : Dev nD) (t : Fin cfg2.N) (y i : S1x32.Idx) (hi1 : (i 1).val = (y 1).val) :
    (iblk2 V c 2 t : Vec Ideal S1x32 .f32) y = (V c (Pipeline.arrRef spec2 2) : S1x32.Idx → EReal) i := by
  obtain ⟨-, -, -, -, -, e0, e1, -⟩ := index_facts t
  have hy0 : (y 0).val = 0 := by have : (y 0).val < 1 := (y 0).isLt; omega
  have hi0 : (i 0).val = 0 := by have : (i 0).val < 1 := (i 0).isLt; omega
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 1 + 1 * (y 0).val = (i 0).val; rw [e0, hi0, hy0]
  | ⟨1, _⟩ => show win2_2.index t (1 : Fin 2) * 32 + 1 * (y 1).val = (i 1).val; rw [e1, hi1]; omega

/-- What point t writes back is block t of the whole-array stage. -/
theorem flushed_eq (c : Dev nD) (t : Fin cfg2.N) :
    (dat2 (F := Ideal) V c).flushed 3 t = ((cfg2.win 3).blk t).view.read (Elt Ideal)
      (Cert.GraphConv.scaleShift (R := 10000) (V c (Pipeline.arrRef spec2 0)) (V c (Pipeline.arrRef spec2 1)) (V c (Pipeline.arrRef spec2 2))) := by
  obtain ⟨-, -, -, -, -, -, -, e0, e1, e2⟩ := index_facts t
  show (cfg2.win 3).cut (grid2.coords t) ((dat2 V c).after 3 t) = _
  rw [after2_3]
  unfold out2_3
  rw [View.canon_unit_zero zeros3]
  simp only [View.ld_unit_zero (S := S400x16x32) zeros3, View.ld_unit_zero (S := S400x1) zeros2, View.ld_unit_zero (S := S1x32) zeros2]
  funext j
  refine block_value (V c (Pipeline.arrRef spec2 0)) (V c (Pipeline.arrRef spec2 1)) (V c (Pipeline.arrRef spec2 2))
    (iblk2 V c 0 t) (iblk2 V c 1 t) (iblk2 V c 2 t) t.val
    (features_block_apply V c t) (normaliser_block_apply V c t) (bias_block_apply V c t)
    (win2_3.xinj (grid2.coords t) j) (((cfg2.win 3).blk t).view.emb j) ?_ ?_ ?_
  · show win2_3.index t (0 : Fin 3) * 400 + 1 * (j 0).val = t.val * 400 + (j 0).val; rw [e0]; omega
  · show win2_3.index t (1 : Fin 3) * 16 + 1 * (j 1).val = (j 1).val; rw [e1]; omega
  · show win2_3.index t (2 : Fin 3) * 32 + 1 * (j 2).val = (j 2).val; rw [e2]; omega

/-- An index of the output array is in point t's block iff each coordinate is in the block's range on its axis. -/
theorem mem_block (t : Fin cfg2.N) (i : S10000x16x32.Idx) :
    i ∈ ((cfg2.win 3).blk t).view.set ↔ ∀ a : Fin 3, win2_3.index t a * S400x16x32.size a ≤ (i a).val ∧ (i a).val < win2_3.index t a * S400x16x32.size a + S400x16x32.size a := by
  show i ∈ ((View.whole main_v55).slice (win2_3.rect t)).set ↔ _
  rw [View.set_slice_whole, Rect.mem_set_unit]
  exact Iff.rfl

/-- Every index of the output array lies in the block of the point r / 400, r its node row. -/
theorem covered (i : S10000x16x32.Idx) :
    ∃ t : Fin cfg2.N, (cfg2.win 3).flush t = true ∧ i ∈ ((cfg2.win 3).blk t).view.set := by
  have hN : cfg2.N = 25 := N_2
  have h0 : (i 0).val < 10000 := (i 0).isLt
  have h1 : (i 1).val < 16 := (i 1).isLt
  have h2 : (i 2).val < 32 := (i 2).isLt
  have ht : (i 0).val / 400 < cfg2.N := by rw [hN]; omega
  obtain ⟨-, -, -, -, -, -, -, e0, e1, e2⟩ := index_facts ⟨(i 0).val / 400, ht⟩
  refine ⟨⟨(i 0).val / 400, ht⟩, flush2_3 _, ?_⟩
  rw [mem_block]
  intro a
  match a with
  | ⟨0, _⟩ =>
    show win2_3.index ⟨(i 0).val / 400, ht⟩ (0 : Fin 3) * 400 ≤ (i 0).val ∧ (i 0).val < win2_3.index ⟨(i 0).val / 400, ht⟩ (0 : Fin 3) * 400 + 400
    rw [e0]; show (i 0).val / 400 * 400 ≤ (i 0).val ∧ (i 0).val < (i 0).val / 400 * 400 + 400; omega
  | ⟨1, _⟩ =>
    show win2_3.index ⟨(i 0).val / 400, ht⟩ (1 : Fin 3) * 16 ≤ (i 1).val ∧ (i 1).val < win2_3.index ⟨(i 0).val / 400, ht⟩ (1 : Fin 3) * 16 + 16
    rw [e1]; omega
  | ⟨2, _⟩ =>
    show win2_3.index ⟨(i 0).val / 400, ht⟩ (2 : Fin 3) * 32 ≤ (i 2).val ∧ (i 2).val < win2_3.index ⟨(i 0).val / 400, ht⟩ (2 : Fin 3) * 32 + 32
    rw [e2]; omega

/-- After the region the output array is the third stage of the arrays the input windows name, index by index. -/
theorem arr2 (c : Dev nD) :
    (Cert.KernelIdeal.Gen.dat2 (F := Ideal) V c).arrAt 3 cfg2.N
      = Cert.GraphConv.scaleShift (R := 10000) (V c (Pipeline.arrRef spec2 0)) (V c (Pipeline.arrRef spec2 1)) (V c (Pipeline.arrRef spec2 2)) :=
  (dat2 (F := Ideal) V c).arrAt_eq_of_cover 3 _ (fun t _ => flushed_eq V c t) covered

end Cert.KernelIdeal.RegionValue

end
-- ==== Proof.KernelValue.lean ====
/-
  The node-major program's result as one function of the arguments.

  Reading the run's last boundary backwards: the result is the transpose of the third region's output array; that is
  the aggregated second-layer features scaled by the normaliser and shifted by the second bias; those features are the
  host aggregation of the second region's output array, the scaled hidden projection of the first layer's aggregate;
  and that aggregate is the host aggregation of the first region's output, the scaled projection of the node-major input.
  Every array the regions and the host aggregations take besides these is one of the buffers computed before the first
  region, or an argument, kept unchanged. Composed, this is the node-major arrangement of the graph convolution.
-/
import proofs.«171573_j88725434400964_2_alg».proof.Proof.KernelShared
import proofs.«171573_j88725434400964_2_alg».proof.Proof.KernelHost
import proofs.«171573_j88725434400964_2_alg».proof.Proof.Region0Value
import proofs.«171573_j88725434400964_2_alg».proof.Proof.Region1Value
import proofs.«171573_j88725434400964_2_alg».proof.Proof.Region2Value
import proofs.«171573_j88725434400964_2_alg».proof.Proof.GraphSpec

set_option maxRecDepth 16384

noncomputable section

namespace Cert.KernelIdeal.OutValue

open Cert.KernelIdeal Cert.KernelIdeal.Gen Cert.KernelIdeal.Shared Cert.KernelIdeal.HostValue Cert.KernelIdeal.RegionValue
open Idealize.ShloMosaic Idealize.ShloMosaic.TcCoe Idealize.ShloMosaic.StableHlo Idealize.SL.Sem Idealize.ShloMosaic.ValueIdx
open Cert.GraphConv

variable (m : (ℓ : Loc nD τ sig) → Buf (Elt Ideal) ℓ) (ρ : Dev nD → PrngReg) (c : Dev nD)

/-- The extended source list with negative words wrapped round by the node count, as the host stretches compute it
    from the extended source list `v`. -/
def wrapped (v : (⟨S170000, .i32⟩ : BufTy).Contents (Elt Ideal)) : (⟨S170000, .i32⟩ : BufTy).Contents (Elt Ideal) :=
  select (cmpi .slt v (broadcastInDim S170000 ![] bcast_S_S170000 (constantI S_ 32 0#32)))
    (addi v (broadcastInDim S170000 ![] bcast_S_S170000 (constantI S_ 32 10000#32))) v

/-- A host aggregation of layer 1 is the node-major aggregate of its operand, as whole arrays. -/
theorem aggregate1_eq (xw : (⟨S10000x16x64, .f32⟩ : BufTy).Contents (Elt Ideal))
    (srcW dstW : (⟨S170000, .i32⟩ : BufTy).Contents (Elt Ideal)) (w : (⟨S170000, .f32⟩ : BufTy).Contents (Elt Ideal)) :
    aggregate1 xw srcW dstW w = fun j => plainAgg (fun e => srcW (ix1 e)) (fun e => dstW (ix1 e)) (fun e => w (ix1 e))
      (fun m t h => xw (ix3 m t h)) (j 0) (j 1) (j 2) := by
  funext j
  exact (congrArg (aggregate1 xw srcW dstW w) (eq_ix3 j)).trans (aggregate1_apply xw srcW dstW w (j 0) (j 1) (j 2))

/-- The same for layer 2. -/
theorem aggregate2_eq (xw : (⟨S10000x16x32, .f32⟩ : BufTy).Contents (Elt Ideal))
    (srcW dstW : (⟨S170000, .i32⟩ : BufTy).Contents (Elt Ideal)) (w : (⟨S170000, .f32⟩ : BufTy).Contents (Elt Ideal)) :
    aggregate2 xw srcW dstW w = fun j => plainAgg (fun e => srcW (ix1 e)) (fun e => dstW (ix1 e)) (fun e => w (ix1 e))
      (fun m t g => xw (ix3 m t g)) (j 0) (j 1) (j 2) := by
  funext j
  exact (congrArg (aggregate2 xw srcW dstW w) (eq_ix3 j)).trans (aggregate2_apply xw srcW dstW w (j 0) (j 1) (j 2))

/-- The first region's output: the scaled projection of the node-major input. -/
theorem stage0 : W6 m ρ c (Proc.devRef .tc main_v21)
    = scaledProject (R := 10000) (W5 m ρ c (Proc.devRef .tc main_v20)) (W5 m ρ c (Proc.devRef .tc main_arg4))
        (W5 m ρ c (Proc.devRef .tc main_v19)) :=
  (W6_arr m ρ c 3).trans (arr0 (V5 m ρ) c)

/-- The first layer's aggregate, as the second region finds it. -/
theorem stage1 : W7 m ρ c (Proc.devRef .tc main_v36)
    = aggregate1 (W6 m ρ c (Proc.devRef .tc main_v21)) (wrapped (W6 m ρ c (Proc.devRef .tc main_v3)))
        (W6 m ρ c (Proc.devRef .tc main_v6)) (W6 m ρ c (Proc.devRef .tc main_v8)) := by
  show StableHlo.after hostOps1 (W6 m ρ c) (Proc.devRef .tc main_v36) = _
  after_results_simp
  rfl

/-- The second region's output: the scaled hidden projection. -/
theorem stage2 : W8 m ρ c (Proc.devRef .tc main_v38)
    = hiddenProject (R := 10000) (W7 m ρ c (Proc.devRef .tc main_v36)) (W7 m ρ c (Proc.devRef .tc main_v19))
        (W7 m ρ c (Proc.devRef .tc main_v37)) (W7 m ρ c (Proc.devRef .tc main_arg6)) :=
  (W8_arr m ρ c 4).trans (arr1 (V7 m ρ) c)

/-- The second layer's aggregate, as the third region finds it. -/
theorem stage3 : W9 m ρ c (Proc.devRef .tc main_v53)
    = aggregate2 (W8 m ρ c (Proc.devRef .tc main_v38)) (wrapped (W8 m ρ c (Proc.devRef .tc main_v3)))
        (W8 m ρ c (Proc.devRef .tc main_v6)) (W8 m ρ c (Proc.devRef .tc main_v8)) := by
  show StableHlo.after hostOps2 (W8 m ρ c) (Proc.devRef .tc main_v53) = _
  after_results_simp
  rfl

/-- The third region's output: scaled and shifted. -/
theorem stage4 : W10 m ρ c (Proc.devRef .tc main_v55)
    = scaleShift (R := 10000) (W9 m ρ c (Proc.devRef .tc main_v53)) (W9 m ρ c (Proc.devRef .tc main_v19))
        (W9 m ρ c (Proc.devRef .tc main_v54)) :=
  (W10_arr m ρ c 3).trans (arr2 (V9 m ρ) c)

/-- The result buffer is the transpose of the third region's output. -/
theorem stage5 : W11 m ρ c (Proc.devRef .tc main_v56)
    = transpose S16x10000x32 [1, 0, 2] (W10 m ρ c (Proc.devRef .tc main_v55)) transposes_S10000x16x32_S16x10000x32_1_0_2 := by
  show StableHlo.after hostOps3 (W10 m ρ c) (Proc.devRef .tc main_v56) = _
  after_results

/-- The second result is the constant zero word. -/
theorem stage5_zero : W11 m ρ c (Proc.devRef .tc main_c_10) = constantI S_ 32 0#32 := by
  show StableHlo.after hostOps3 (W10 m ρ c) (Proc.devRef .tc main_c_10) = _
  after_results

/-! ## Composed -/

section Composed

open Cert.ReferenceIdeal.Read in
/-- The third region's output array is the node-major arrangement of the arguments: sources wrapped and clamped,
    destinations raw, the extended weights, the normaliser as a column, the biases as rows. -/
theorem out_nodeMajor :
    W10 m ρ c (Proc.devRef .tc main_v55)
      = nodeMajorOut
          (fun e => wrapped (val_main_v3 (F := Ideal) (m ((c.tc : Thread nD τ).loc main_arg1))) (ix1 e))
          (fun e => val_main_v6 (F := Ideal) (m ((c.tc : Thread nD τ).loc main_arg1)) (ix1 e))
          (fun e => val_main_v8 (F := Ideal) (m ((c.tc : Thread nD τ).loc main_arg2)) (ix1 e))
          (transpose S10000x16x32 [1, 0, 2] (m ((c.tc : Thread nD τ).loc main_arg0)) transposes_S16x10000x32_S10000x16x32_1_0_2)
          (m ((c.tc : Thread nD τ).loc main_arg4))
          (shapeCast S10000x1 (val_main_v18 (F := Ideal) (m ((c.tc : Thread nD τ).loc main_arg1))
            (m ((c.tc : Thread nD τ).loc main_arg2))) shapeCasts_S10000_S10000x1)
          (shapeCast S1x64 (m ((c.tc : Thread nD τ).loc main_arg5)) shapeCasts_S64_S1x64)
          (m ((c.tc : Thread nD τ).loc main_arg6))
          (shapeCast S1x32 (m ((c.tc : Thread nD τ).loc main_arg7)) shapeCasts_S32_S1x32) := by
  rw [stage4, stage3, stage2, stage1, stage0]
  rw [column_kept9, bias2_row9, src_kept8, dst_kept8, weight_kept8, column_kept7, bias1_row7, weight2_kept7,
    src_kept6, dst_kept6, weight_kept6, src_entry, dst_entry, weight_entry, column_entry, nodeMajor_entry, weight1_entry]
  rw [aggregate2_eq, aggregate1_eq]
  rfl

open Cert.ReferenceIdeal.Read in
/-- Entry (t, n, g) of the result buffer is entry (n, t, g) of that arrangement. -/
theorem out_value (t : Fin 16) (n : Fin 10000) (g : Fin 32) :
    (W11 m ρ c (Proc.devRef .tc main_v56) : (⟨S16x10000x32, .f32⟩ : BufTy).Contents (Elt Ideal)) (ix3 t n g)
      = nodeMajorOut
          (fun e => wrapped (val_main_v3 (F := Ideal) (m ((c.tc : Thread nD τ).loc main_arg1))) (ix1 e))
          (fun e => val_main_v6 (F := Ideal) (m ((c.tc : Thread nD τ).loc main_arg1)) (ix1 e))
          (fun e => val_main_v8 (F := Ideal) (m ((c.tc : Thread nD τ).loc main_arg2)) (ix1 e))
          (transpose S10000x16x32 [1, 0, 2] (m ((c.tc : Thread nD τ).loc main_arg0)) transposes_S16x10000x32_S10000x16x32_1_0_2)
          (m ((c.tc : Thread nD τ).loc main_arg4))
          (shapeCast S10000x1 (val_main_v18 (F := Ideal) (m ((c.tc : Thread nD τ).loc main_arg1))
            (m ((c.tc : Thread nD τ).loc main_arg2))) shapeCasts_S10000_S10000x1)
          (shapeCast S1x64 (m ((c.tc : Thread nD τ).loc main_arg5)) shapeCasts_S64_S1x64)
          (m ((c.tc : Thread nD τ).loc main_arg6))
          (shapeCast S1x32 (m ((c.tc : Thread nD τ).loc main_arg7)) shapeCasts_S32_S1x32) (ix3 n t g) := by
  rw [stage5]
  refine (timeMajor_apply _ t n g).trans ?_
  rw [out_nodeMajor]

end Composed

end Cert.KernelIdeal.OutValue

end
-- ==== Proof.ReferenceValue.lean ====
/-
  The reference program read at an index: it is the time-major two-layer graph convolution.

  The program gathers the node normaliser at every edge's source and destination word and multiplies the two entries
  with the edge weight (the edge norm); then, twice: it projects the features, gathers the projected rows at the source
  words along the node axis, multiplies each by its edge's norm, adds the products into zeros at the destination words,
  and adds the bias (the first layer also clips below at zero). Read at (t, n, g), that is the aggregation with the full
  edge norm of the second projection of the hidden features, plus the second bias. The source words, destination
  words, edge weights and node normaliser are kept as they are: nothing below them is opened.
-/
import proofs.«171573_j88725434400964_2_alg».proof.Proof.Gen.ReferenceIdeal.Read
import proofs.«171573_j88725434400964_2_alg».proof.Proof.GraphSpec

noncomputable section

open scoped BigOperators

namespace Cert.ReferenceIdeal.RefValue

open Cert.ReferenceIdeal Cert.ReferenceIdeal.Gen
open Idealize.ShloMosaic Idealize.ShloMosaic.ValueIdx Cert.LibGatherScatterRows Cert.GraphConv

/-! ## The shared quantities -/

/-- The normalised source word of edge e. -/
abbrev srcW (x1 : (⟨S2x160000, .i32⟩ : BufTy).Contents (Elt Ideal)) : Fin 170000 → BitVec 32 :=
  fun e => Read.val_main_v23 (F := Ideal) x1 (ix1 e)
/-- The normalised destination word of edge e. -/
abbrev dstW (x1 : (⟨S2x160000, .i32⟩ : BufTy).Contents (Elt Ideal)) : Fin 170000 → BitVec 32 :=
  fun e => Read.val_main_v31 (F := Ideal) x1 (ix1 e)
/-- The weight of edge e. -/
abbrev wgt (x2 : (⟨S160000, .f32⟩ : BufTy).Contents (Elt Ideal)) : Fin 170000 → EReal :=
  fun e => Read.val_main_v8 (F := Ideal) x2 (ix1 e)
/-- The normaliser of node n. -/
abbrev nrm (x1 : (⟨S2x160000, .i32⟩ : BufTy).Contents (Elt Ideal)) (x2 : (⟨S160000, .f32⟩ : BufTy).Contents (Elt Ideal)) :
    Fin 10000 → EReal :=
  fun n => Read.val_main_v18 (F := Ideal) x1 x2 (ix1 n)

/-- The later copies of the normalised source words are the same term. -/
theorem v40_eq (x1 : (⟨S2x160000, .i32⟩ : BufTy).Contents (Elt Ideal)) :
    Read.val_main_v40 (F := Ideal) x1 = Read.val_main_v23 (F := Ideal) x1 := rfl
theorem v63_eq (x1 : (⟨S2x160000, .i32⟩ : BufTy).Contents (Elt Ideal)) :
    Read.val_main_v63 (F := Ideal) x1 = Read.val_main_v23 (F := Ideal) x1 := rfl
/-- The later copies of the normalised destination words are the same term. -/
theorem v51_eq (x1 : (⟨S2x160000, .i32⟩ : BufTy).Contents (Elt Ideal)) :
    Read.val_main_v51 (F := Ideal) x1 = Read.val_main_v31 (F := Ideal) x1 := rfl
theorem v74_eq (x1 : (⟨S2x160000, .i32⟩ : BufTy).Contents (Elt Ideal)) :
    Read.val_main_v74 (F := Ideal) x1 = Read.val_main_v31 (F := Ideal) x1 := rfl

/-- A [170000] list given a unit second axis reads, at (e, 0), the list's entry e. -/
theorem idx_col (e : Fin 170000) : Read.idx_main_v24 (ix2 e (0 : Fin 1)) = ix1 e :=
  funext fun a => Fin.ext (by match a with | ⟨0, _⟩ => rfl)

/-! ## The edge norm -/

/-- The normaliser gathered at the source words. -/
theorem v25_apply (x1 : (⟨S2x160000, .i32⟩ : BufTy).Contents (Elt Ideal)) (x2 : (⟨S160000, .f32⟩ : BufTy).Contents (Elt Ideal))
    (e : Fin 170000) :
    Read.val_main_v25 (F := Ideal) x1 x2 (ix1 e) = nrm x1 x2 (clampRow 10000 (srcW x1 e)) := by
  unfold Read.val_main_v25
  refine (gatherRows1 gather_S10000_S170000x1_S170000_n_0_n_n_0_1_1 rfl rfl rfl rfl rfl _ _ e).trans ?_
  rw [Read.val_main_v24_apply, idx_col]

/-- The normaliser gathered at the destination words. -/
theorem v33_apply (x1 : (⟨S2x160000, .i32⟩ : BufTy).Contents (Elt Ideal)) (x2 : (⟨S160000, .f32⟩ : BufTy).Contents (Elt Ideal))
    (e : Fin 170000) :
    Read.val_main_v33 (F := Ideal) x1 x2 (ix1 e) = nrm x1 x2 (clampRow 10000 (dstW x1 e)) := by
  unfold Read.val_main_v33
  refine (gatherRows1 gather_S10000_S170000x1_S170000_n_0_n_n_0_1_1 rfl rfl rfl rfl rfl _ _ e).trans ?_
  rw [Read.val_main_v32_apply]
  exact congrArg (fun j => Read.val_main_v18 (F := Ideal) x1 x2 (ix1 (clampRow 10000 (Read.val_main_v31 (F := Ideal) x1 j)))) (idx_col e)

/-- The edge norm: normaliser at the source, times the weight, times the normaliser at the destination. -/
theorem v34_apply (x1 : (⟨S2x160000, .i32⟩ : BufTy).Contents (Elt Ideal)) (x2 : (⟨S160000, .f32⟩ : BufTy).Contents (Elt Ideal))
    (e : Fin 170000) :
    Read.val_main_v34 (F := Ideal) x1 x2 (ix1 e)
      = nrm x1 x2 (clampRow 10000 (srcW x1 e)) * wgt x2 e * nrm x1 x2 (clampRow 10000 (dstW x1 e)) := by
  rw [Read.val_main_v34_apply, Read.val_main_v26_apply, v25_apply, v33_apply]
  rfl

/-! ## Index functions at explicit coordinates -/

theorem idx32_col (e : Fin 170000) : Read.idx_main_v32 (ix2 e (0 : Fin 1)) = ix1 e :=
  funext fun a => Fin.ext (by match a with | ⟨0, _⟩ => rfl)
theorem idx41_col (e : Fin 170000) : Read.idx_main_v41 (ix2 e (0 : Fin 1)) = ix1 e :=
  funext fun a => Fin.ext (by match a with | ⟨0, _⟩ => rfl)
theorem idx52_col (e : Fin 170000) : Read.idx_main_v52 (ix2 e (0 : Fin 1)) = ix1 e :=
  funext fun a => Fin.ext (by match a with | ⟨0, _⟩ => rfl)
theorem idx64_col (e : Fin 170000) : Read.idx_main_v64 (ix2 e (0 : Fin 1)) = ix1 e :=
  funext fun a => Fin.ext (by match a with | ⟨0, _⟩ => rfl)
theorem idx75_col (e : Fin 170000) : Read.idx_main_v75 (ix2 e (0 : Fin 1)) = ix1 e :=
  funext fun a => Fin.ext (by match a with | ⟨0, _⟩ => rfl)

/-- The edge norm stretched over time and 64 features reads, at (t, e, h), entry e. -/
theorem idx44 (t : Fin 16) (e : Fin 170000) (h : Fin 64) : Read.idx_main_v43 (Read.idx_main_v44 (ix3 t e h)) = ix1 e :=
  funext fun a => Fin.ext (by match a with | ⟨0, _⟩ => rfl)
/-- The edge norm stretched over time and 32 features reads, at (t, e, g), entry e. -/
theorem idx67 (t : Fin 16) (e : Fin 170000) (g : Fin 32) : Read.idx_main_v66 (Read.idx_main_v67 (ix3 t e g)) = ix1 e :=
  funext fun a => Fin.ext (by match a with | ⟨0, _⟩ => rfl)
/-- The first bias stretched over time and nodes reads, at (t, n, h), entry h. -/
theorem idx55 (t : Fin 16) (n : Fin 10000) (h : Fin 64) : Read.idx_main_v54 (Read.idx_main_v55 (ix3 t n h)) = ix1 h :=
  funext fun a => Fin.ext (by match a with | ⟨0, _⟩ => rfl)
/-- The second bias stretched over time and nodes reads, at (t, n, g), entry g. -/
theorem idx78 (t : Fin 16) (n : Fin 10000) (g : Fin 32) : Read.idx_main_v77 (Read.idx_main_v78 (ix3 t n g)) = ix1 g :=
  funext fun a => Fin.ext (by match a with | ⟨0, _⟩ => rfl)

theorem lidx35 (t : Fin 16) (n : Fin 10000) (h : Fin 64) (k : Fin 32) : Read.lidx_main_v35 (ix3 t n h) k = ix3 t n k :=
  funext fun a => Fin.ext (by match a with | ⟨0, _⟩ => rfl | ⟨1, _⟩ => rfl | ⟨2, _⟩ => rfl)
theorem ridx35 (t : Fin 16) (n : Fin 10000) (h : Fin 64) (k : Fin 32) : Read.ridx_main_v35 (ix3 t n h) k = ix2 k h :=
  funext fun a => Fin.ext (by match a with | ⟨0, _⟩ => rfl | ⟨1, _⟩ => rfl)
theorem lidx58 (t : Fin 16) (n : Fin 10000) (g : Fin 32) (k : Fin 64) : Read.lidx_main_v58 (ix3 t n g) k = ix3 t n k :=
  funext fun a => Fin.ext (by match a with | ⟨0, _⟩ => rfl | ⟨1, _⟩ => rfl | ⟨2, _⟩ => rfl)
theorem ridx58 (t : Fin 16) (n : Fin 10000) (g : Fin 32) (k : Fin 64) : Read.ridx_main_v58 (ix3 t n g) k = ix2 k g :=
  funext fun a => Fin.ext (by match a with | ⟨0, _⟩ => rfl | ⟨1, _⟩ => rfl)

/-! ## One aggregation -/

/-- An accumulating scatter, into zeros along the middle axis at the destination words, of messages that are the rows
    of Y at the clamped source words times the edge norm, is the aggregation with the full norm. -/
theorem scatter_normAgg (x1 : (⟨S2x160000, .i32⟩ : BufTy).Contents (Elt Ideal)) (x2 : (⟨S160000, .f32⟩ : BufTy).Contents (Elt Ideal))
    {C : ℕ} (D : ScatterDims ⟨3, ![16, 10000, C]⟩ ⟨2, ![170000, 1]⟩ ⟨3, ![16, 170000, C]⟩)
    (hu : D.updateWindowDims = [0, 2]) (hi : D.insertedWindowDims = [1]) (hs : D.scatterDimsToOperandDims = [1])
    (hv : D.indexVectorDim = 1)
    (z : FVec Ideal ⟨3, ![16, 10000, C]⟩ .f32) (idx : IVec ⟨2, ![170000, 1]⟩ 32) (upd : FVec Ideal ⟨3, ![16, 170000, C]⟩ .f32)
    (Y : Fin 16 → Fin 10000 → Fin C → EReal)
    (hz : ∀ t n c, z (ix3 t n c) = 0) (hidx : ∀ e, idx (ix2 e 0) = dstW x1 e)
    (hupd : ∀ t e c, upd (ix3 t e c) = Y t (clampRow 10000 (srcW x1 e)) c
      * (nrm x1 x2 (clampRow 10000 (srcW x1 e)) * wgt x2 e * nrm x1 x2 (clampRow 10000 (dstW x1 e))))
    (t : Fin 16) (n : Fin 10000) (c : Fin C) :
    Host.scatterAdd (F := Ideal) D z idx upd (ix3 t n c) = normAgg (srcW x1) (dstW x1) (wgt x2) (nrm x1 x2) Y t n c := by
  refine (scatterAddRowsMid D hu hi hs hv z idx upd t n c).trans ?_
  unfold normAgg
  rw [hz]
  refine congrArg (0 + ·) ?_
  refine Finset.sum_congr rfl fun e _ => ?_
  rw [hidx, hupd]

/-! ## The first layer -/

section Layers
variable (x0 : (⟨S16x10000x32, .f32⟩ : BufTy).Contents (Elt Ideal)) (x1 : (⟨S2x160000, .i32⟩ : BufTy).Contents (Elt Ideal))
  (x2 : (⟨S160000, .f32⟩ : BufTy).Contents (Elt Ideal)) (x4 : (⟨S32x64, .f32⟩ : BufTy).Contents (Elt Ideal))
  (x5 : (⟨S64, .f32⟩ : BufTy).Contents (Elt Ideal)) (x6 : (⟨S64x32, .f32⟩ : BufTy).Contents (Elt Ideal))
  (x7 : (⟨S32, .f32⟩ : BufTy).Contents (Elt Ideal))

/-- The projected features. -/
theorem v35_at (t : Fin 16) (n : Fin 10000) (h : Fin 64) :
    Read.val_main_v35 (F := Ideal) x0 x4 (ix3 t n h) = proj1 x0 x4 t n h := by
  rw [Read.val_main_v35_apply]
  unfold proj1
  refine Finset.sum_congr rfl fun k _ => ?_
  rw [lidx35, ridx35]

/-- The first layer's messages: the projected features at the clamped source word times the edge norm. -/
theorem v45_at (t : Fin 16) (e : Fin 170000) (h : Fin 64) :
    Read.val_main_v45 (F := Ideal) x0 x1 x2 x4 (ix3 t e h)
      = proj1 x0 x4 t (clampRow 10000 (srcW x1 e)) h
        * (nrm x1 x2 (clampRow 10000 (srcW x1 e)) * wgt x2 e * nrm x1 x2 (clampRow 10000 (dstW x1 e))) := by
  rw [Read.val_main_v45_apply, Ideal.mulf_def, Read.val_main_v44_apply, Read.val_main_v43_apply, idx44, v34_apply]
  refine congrArg₂ (· * ·) ?_ rfl
  unfold Read.val_main_v42
  refine (gatherRowsMid gather_S16x10000x64_S170000x1_S16x170000x64_02_1_n_n_1_1_16164 rfl rfl rfl rfl rfl _ _ t e h).trans ?_
  rw [Read.val_main_v41_apply, idx41_col, v40_eq]
  exact v35_at x0 x4 t _ h

/-- The first layer's aggregate. -/
theorem v53_at (t : Fin 16) (n : Fin 10000) (h : Fin 64) :
    Read.val_main_v53 (F := Ideal) x0 x1 x2 x4 (ix3 t n h)
      = normAgg (srcW x1) (dstW x1) (wgt x2) (nrm x1 x2) (proj1 x0 x4) t n h := by
  unfold Read.val_main_v53
  refine scatter_normAgg x1 x2 scatter_S16x10000x64_S170000x1_S16x170000x64_02_1_1_1 rfl rfl rfl rfl _ _ _ _ ?_ ?_ ?_ t n h
  · intro t n c
    rw [Read.val_main_v46_apply, Read.val_main_cst_10_apply]
    exact Ideal.ofBits_zero_f32
  · intro e
    rw [Read.val_main_v52_apply, idx52_col, v51_eq]
  · intro t e c
    exact v45_at x0 x1 x2 x4 t e c

/-- The hidden features. -/
theorem v57_at (t : Fin 16) (n : Fin 10000) (h : Fin 64) :
    Read.val_main_v57 (F := Ideal) x0 x1 x2 x4 x5 (ix3 t n h)
      = Cert.GraphConv.hidden (srcW x1) (dstW x1) (wgt x2) (nrm x1 x2) x0 x4 x5 t n h := by
  rw [Read.val_main_v57_apply, Read.val_main_v56_apply, v53_at, Read.val_main_v55_apply, Read.val_main_v54_apply, idx55,
    Read.val_main_call2_v0_apply, Read.val_main_call2_cst_apply]
  unfold Cert.GraphConv.hidden
  rw [Ideal.maximumf_def, Ideal.addf_def, Ideal.ofBits_def, Ideal.ofBits_zero_f32]

/-- The projected hidden features. -/
theorem v58_at (t : Fin 16) (n : Fin 10000) (g : Fin 32) :
    Read.val_main_v58 (F := Ideal) x0 x1 x2 x4 x5 x6 (ix3 t n g)
      = proj2 (srcW x1) (dstW x1) (wgt x2) (nrm x1 x2) x0 x4 x5 x6 t n g := by
  rw [Read.val_main_v58_apply]
  unfold proj2
  refine Finset.sum_congr rfl fun k _ => ?_
  rw [lidx58, ridx58, v57_at]

/-! ## The second layer -/

/-- The second layer's messages. -/
theorem v68_at (t : Fin 16) (e : Fin 170000) (g : Fin 32) :
    Read.val_main_v68 (F := Ideal) x0 x1 x2 x4 x5 x6 (ix3 t e g)
      = proj2 (srcW x1) (dstW x1) (wgt x2) (nrm x1 x2) x0 x4 x5 x6 t (clampRow 10000 (srcW x1 e)) g
        * (nrm x1 x2 (clampRow 10000 (srcW x1 e)) * wgt x2 e * nrm x1 x2 (clampRow 10000 (dstW x1 e))) := by
  rw [Read.val_main_v68_apply, Ideal.mulf_def, Read.val_main_v67_apply, Read.val_main_v66_apply, idx67, v34_apply]
  refine congrArg₂ (· * ·) ?_ rfl
  unfold Read.val_main_v65
  refine (gatherRowsMid gather_S16x10000x32_S170000x1_S16x170000x32_02_1_n_n_1_1_16132 rfl rfl rfl rfl rfl _ _ t e g).trans ?_
  rw [Read.val_main_v64_apply, idx64_col, v63_eq]
  exact v58_at x0 x1 x2 x4 x5 x6 t _ g

/-- The second layer's aggregate. -/
theorem v76_at (t : Fin 16) (n : Fin 10000) (g : Fin 32) :
    Read.val_main_v76 (F := Ideal) x0 x1 x2 x4 x5 x6 (ix3 t n g)
      = normAgg (srcW x1) (dstW x1) (wgt x2) (nrm x1 x2)
          (proj2 (srcW x1) (dstW x1) (wgt x2) (nrm x1 x2) x0 x4 x5 x6) t n g := by
  unfold Read.val_main_v76
  refine scatter_normAgg x1 x2 scatter_S16x10000x32_S170000x1_S16x170000x32_02_1_1_1 rfl rfl rfl rfl _ _ _ _ ?_ ?_ ?_ t n g
  · intro t n c
    rw [Read.val_main_v69_apply, Read.val_main_cst_15_apply]
    exact Ideal.ofBits_zero_f32
  · intro e
    rw [Read.val_main_v75_apply, idx75_col, v74_eq]
  · intro t e c
    exact v68_at x0 x1 x2 x4 x5 x6 t e c

/-- The reference's result is the time-major two-layer graph convolution of the shared quantities. -/
theorem ref_out (t : Fin 16) (n : Fin 10000) (g : Fin 32) :
    Read.val_main_v79 (F := Ideal) x0 x1 x2 x4 x5 x6 x7 (ix3 t n g)
      = Cert.GraphConv.timeMajorOut (fun e => Read.val_main_v23 (F := Ideal) x1 (ix1 e))
          (fun e => Read.val_main_v31 (F := Ideal) x1 (ix1 e)) (fun e => Read.val_main_v8 (F := Ideal) x2 (ix1 e))
          (fun n => Read.val_main_v18 (F := Ideal) x1 x2 (ix1 n)) x0 x4 x5 x6 x7 t n g := by
  rw [Read.val_main_v79_apply, v76_at, Read.val_main_v78_apply, Read.val_main_v77_apply, idx78]
  rfl

end Layers

end Cert.ReferenceIdeal.RefValue

end
-- ==== Proof.Domain.lean ====
/-
  What the stated domain gives, and two facts that hold with no hypothesis at all.

  * The node normaliser d(n) = [deg(n) > 0] * rsqrt([deg(n) > 0] ? deg(n) : 1) is a nonnegative extended real other
    than plus infinity, whatever the degree is: where the degree is not positive it is zero, and the reciprocal square
    root of a positive real is a positive real, that of plus infinity is zero.
  * When every word of the edge list is nonnegative, every destination word of the extended list (the given edges
    followed by one self-loop 0, 1, ..., 9999 per node) is nonnegative, so wrapping negative words round by 10000
    changes nothing: the normalised destination list is the raw one.
  * The precondition's last conjunct says that every word of the edge list lies in [0, 10000).
-/
import proofs.«171573_j88725434400964_2_alg».proof.Proof.Gen.ReferenceIdeal.Read
import proofs.«171573_j88725434400964_2_alg».proof.Proof.Gen.Pre_finite_inputs
import proofs.«171573_j88725434400964_2_alg».proof.Proof.LibPayOps
import Idealize.ShloMosaic.Lib.ReduceAll

noncomputable section

namespace Cert.ReferenceIdeal.Domain

open Cert.ReferenceIdeal Cert.ReferenceIdeal.Gen Cert.ReferenceIdeal.Read
open Idealize.ShloMosaic Idealize.ShloMosaic.ValueIdx

/-- The word 0x3F800000 (exponent 127, fraction zero) is the real number 1. -/
theorem ofBits_f32_one : Ideal.ofBits .f32 0x3F800000#32 = ((1 : ℝ) : EReal) := by
  simp [Ideal.ofBits, Ideal.ieee]
  exact_mod_cast (by norm_num : (8388608 : ℝ) * (2 ^ 23)⁻¹ = 1)

/-- [D > 0] * rsqrt([D > 0] ? D : 1) is nonnegative and not plus infinity. -/
theorem guarded_rsqrt_nonneg (D : EReal) :
    0 ≤ (if 0 < D then Ideal.rsqrt (if 0 < D then D else ((1 : ℝ) : EReal)) else 0)
      ∧ (if 0 < D then Ideal.rsqrt (if 0 < D then D else ((1 : ℝ) : EReal)) else 0) ≠ ⊤ := by
  by_cases h : 0 < D
  · rw [if_pos h, if_pos h]
    induction D using EReal.rec with
    | bot => exact absurd h (by simp)
    | top => simp
    | coe r =>
      have hr : 0 < r := by exact_mod_cast h
      rw [Ideal.rsqrt_coe, if_neg (not_lt.2 hr.le), if_neg hr.ne']
      refine ⟨?_, EReal.coe_ne_top _⟩
      exact_mod_cast inv_nonneg.2 (Real.sqrt_nonneg r)
  · rw [if_neg h]
    exact ⟨le_refl _, EReal.zero_ne_top⟩

/-- The node normaliser is nonnegative and not plus infinity. -/
theorem normaliser_nonneg (x1 : (⟨S2x160000, .i32⟩ : BufTy).Contents (Elt Ideal))
    (x2 : (⟨S160000, .f32⟩ : BufTy).Contents (Elt Ideal)) (i : S10000.Idx) :
    0 ≤ val_main_v18 (F := Ideal) x1 x2 i ∧ val_main_v18 (F := Ideal) x1 x2 i ≠ ⊤ := by
  rw [val_main_v18_apply, val_main_v13_apply, val_main_v17_apply, val_main_v16_apply, val_main_v15_apply,
    val_main_v12_apply, val_main_v14_apply, val_main_call1_v1_apply, val_main_call0_v1_apply,
    val_main_call1_v0_apply, val_main_call0_v0_apply, val_main_cst_1_apply, val_main_cst_2_apply,
    val_main_cst_3_apply, val_main_cst_4_apply]
  generalize val_main_v11 (F := Ideal) x1 x2 i = D
  simp only [Ideal.cmpf_def, Ideal.ofBits_def, Ideal.ofBits_zero_f32, ofBits_f32_one, Ideal.hostUnary_rsqrt_def,
    Cert.LibPayOps.select_ogt]
  exact guarded_rsqrt_nonneg D

/-! ## The destination words -/

/-- Every destination word of the extended edge list is nonnegative when every given word is: a given edge's word, or
    a self-loop's node number. -/
theorem dst_nonneg (x1 : (⟨S2x160000, .i32⟩ : BufTy).Contents (Elt Ideal)) (hx : ∀ i, 0 ≤ (x1 i).toInt)
    (e : Fin 170000) : 0 ≤ (val_main_v6 (F := Ideal) x1 (ix1 e)).toInt := by
  unfold val_main_v6
  by_cases he : e.val < 160000
  · rw [concatenate_pair_apply_left (0 : Fin S170000.rank) _ _ concatenates_S160000_S10000_S170000_d0 (ix1 e) rfl
      (ix1 (⟨e.val, he⟩ : Fin 160000)) (fun b => by match b with | ⟨0, _⟩ => rfl)]
    rw [val_main_v5_apply, val_main_v4_apply]
    exact hx _
  · rw [concatenate_pair_apply_right (0 : Fin S170000.rank) _ _ concatenates_S160000_S10000_S170000_d0 (ix1 e) rfl rfl
      (ix1 (⟨e.val - 160000, by have := e.isLt; omega⟩ : Fin 10000))
      (fun b hb => by match b with | ⟨0, _⟩ => exact absurd rfl hb)
      (by show e.val - 160000 + 160000 = e.val; omega)]
    rw [val_main_v0_apply]
    show 0 ≤ (BitVec.ofNat 32 (e.val - 160000)).toInt
    have h1 : e.val - 160000 < 10000 := by have := e.isLt; omega
    have hk : (BitVec.ofNat 32 (e.val - 160000)).toNat = e.val - 160000 := by rw [BitVec.toNat_ofNat]; omega
    rw [BitVec.toInt_eq_toNat_of_lt (by rw [hk]; omega)]; omega

/-- Wrapping negative words round by the node count changes no destination word when none is negative. -/
theorem dst_normalised_eq (x1 : (⟨S2x160000, .i32⟩ : BufTy).Contents (Elt Ideal)) (hx : ∀ i, 0 ≤ (x1 i).toInt)
    (e : Fin 170000) : val_main_v31 (F := Ideal) x1 (ix1 e) = val_main_v6 (F := Ideal) x1 (ix1 e) := by
  rw [val_main_v31_apply, val_main_v28_apply, val_main_v27_apply, val_main_c_6_apply]
  have h := dst_nonneg x1 hx e
  have hz : IntOp.cmpi .slt (val_main_v6 (F := Ideal) x1 (ix1 e)) 0#32 = 0#1 := by
    rcases BitVec.eq_zero_or_eq_one (IntOp.cmpi .slt (val_main_v6 (F := Ideal) x1 (ix1 e)) 0#32) with h0 | h1
    · exact h0
    · have := IntOp.cmpi_slt.1 h1
      rw [show (0#32 : BitVec 32).toInt = 0 from by decide] at this
      omega
  show Scalar.select (IntOp.cmpi .slt (val_main_v6 (F := Ideal) x1 (ix1 e)) 0#32) _ _ = _
  rw [hz]
  exact if_neg (by decide)

end Cert.ReferenceIdeal.Domain

namespace Cert.Pre_finite_inputs.Domain

open Cert.Pre_finite_inputs Cert.Pre_finite_inputs.Facts Idealize.ShloMosaic Idealize.ShloMosaic.ValueIdx

instance : Subsingleton S_.Idx := ⟨fun _ _ => funext fun d => d.elim0⟩

/-- The precondition's last conjunct: every word of the edge list lies in [0, 10000). -/
theorem words_in_range [Cert.Pre_finite_inputs.Facts] (a0 : FVec Ideal S16x10000x32 .f32) (a1 : IVec S2x160000 32)
    (a2 : FVec Ideal S160000 .f32) (a3 : IVec S16x10000x32 1) (a4 : FVec Ideal S32x64 .f32) (a5 : FVec Ideal S64 .f32)
    (a6 : FVec Ideal S64x32 .f32) (a7 : FVec Ideal S32 .f32)
    (h : fn (F := Ideal) a0 a1 a2 a3 a4 a5 a6 a7 = fun _ => 1#1) (i : S2x160000.Idx) :
    0 ≤ (a1 i).toInt ∧ (a1 i).toInt < 10000 := by
  have h0 := congrFun h ix0
  have h1 : Host.reduce IntOp.andi
      (andi (cmpi .sge a1 (broadcastInDim S2x160000 ![] bcast_S_S2x160000 (constantI S_ 32 0#32)))
        (cmpi .slt a1 (broadcastInDim S2x160000 ![] bcast_S_S2x160000 (constantI S_ 32 10000#32))))
      (constantI S_ 1 1#1) reducesTo_S2x160000_S_d0_1 h_S_ ix0 = 1#1 := (IntOp.andi_eq_one.1 h0).2
  have h2 := Host.reduce_andi_all _ _ _ _ _ h1 i
  obtain ⟨hge, hlt⟩ := IntOp.andi_eq_one.1 h2
  have hge' := IntOp.cmpi_sge.1 hge
  have hlt' := IntOp.cmpi_slt.1 hlt
  refine ⟨?_, ?_⟩
  · have : (broadcastInDim S2x160000 ![] bcast_S_S2x160000 (constantI S_ 32 0#32) i).toInt = 0 := by
      show (0#32 : BitVec 32).toInt = 0; decide
    omega
  · have : (broadcastInDim S2x160000 ![] bcast_S_S2x160000 (constantI S_ 32 10000#32) i).toInt = 10000 := by
      show (10000#32 : BitVec 32).toInt = 10000; decide
    omega

end Cert.Pre_finite_inputs.Domain

end
-- ==== Proof.Bridge.lean ====
/-
  The two programs compute the same function of the arguments on the stated domain.

  The node-major program's result at (t, n, g) is the node-major arrangement at (n, t, g); the time-major program's is
  the time-major arrangement at (t, n, g). They take the same extended weights and the same normaliser, which is a
  nonnegative real; the same wrapped source words; and the node-major program scatters at the raw destination words
  where the time-major one scatters at the wrapped ones — the same words once no word of the edge list is negative.
  The transposed input, the normaliser as a column and the biases as rows are the layouts the arrangement theorem asks.
-/
import proofs.«171573_j88725434400964_2_alg».proof.Proof.KernelValue
import proofs.«171573_j88725434400964_2_alg».proof.Proof.ReferenceValue
import proofs.«171573_j88725434400964_2_alg».proof.Proof.Domain

set_option maxRecDepth 16384

noncomputable section

namespace Cert.Bridge

open Cert.KernelIdeal Cert.KernelIdeal.Gen
open Idealize.ShloMosaic Idealize.ShloMosaic.TcCoe Idealize.SL.Sem Idealize.ShloMosaic.ValueIdx
open Cert.GraphConv

variable (m : (ℓ : Loc nD τ sig) → Buf (Elt Ideal) ℓ) (ρ : Dev nD → PrngReg) (c : Dev nD)

open Cert.ReferenceIdeal.Read in
/-- On the stated domain the node-major program's result buffer holds the time-major program's result term. -/
theorem value_eq [Cert.Pre_finite_inputs.Facts]
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      = fun _ => 1#1) :
    (W11 m ρ c (Proc.devRef .tc main_v56) : (⟨S16x10000x32, .f32⟩ : BufTy).Contents (Elt Ideal))
      = val_main_v79 (F := Ideal) (m ((c.tc : Thread nD τ).loc main_arg0)) (m ((c.tc : Thread nD τ).loc main_arg1))
          (m ((c.tc : Thread nD τ).loc main_arg2)) (m ((c.tc : Thread nD τ).loc main_arg4)) (m ((c.tc : Thread nD τ).loc main_arg5))
          (m ((c.tc : Thread nD τ).loc main_arg6)) (m ((c.tc : Thread nD τ).loc main_arg7)) := by
  have hx : ∀ i, 0 ≤ (m ((c.tc : Thread nD τ).loc main_arg1) i).toInt := fun i =>
    (Cert.Pre_finite_inputs.Domain.words_in_range _ _ _ _ _ _ _ _ hpre i).1
  funext i
  obtain ⟨t, n, g, rfl⟩ : ∃ (t : Fin 16) (n : Fin 10000) (g : Fin 32), i = ix3 t n g := ⟨i 0, i 1, i 2, eq_ix3 i⟩
  rw [Cert.KernelIdeal.OutValue.out_value m ρ c t n g, Cert.ReferenceIdeal.RefValue.ref_out]
  have hd : (fun e : Fin 170000 => val_main_v31 (F := Ideal) (m ((c.tc : Thread nD τ).loc main_arg1)) (ix1 e))
      = fun e => val_main_v6 (F := Ideal) (m ((c.tc : Thread nD τ).loc main_arg1)) (ix1 e) :=
    funext (Cert.ReferenceIdeal.Domain.dst_normalised_eq _ hx)
  rw [hd]
  exact nodeMajor_eq_timeMajor _ _ _ _ _ _ _ _ _ _ _ _ _
    (fun n t f => Cert.KernelIdeal.HostValue.nodeMajor_apply _ n t f)
    (fun n => Cert.KernelIdeal.HostValue.column_apply _ n)
    (fun h => Cert.KernelIdeal.HostValue.row64_apply _ h)
    (fun g => Cert.KernelIdeal.HostValue.row32_apply _ g)
    (fun n => Cert.ReferenceIdeal.Domain.normaliser_nonneg _ _ (ix1 n)) n t g

end Cert.Bridge

end
-- ==== Proof.lean ====
/-
  The certificate of a two-layer graph convolution with symmetric normalisation, D^(-1/2) (A + I) D^(-1/2), over 10000
  nodes, 160000 given edges plus one self-loop per node, and 16 time steps.

  The kernel program works node-major: it projects each node's features through the first weight matrix and scales by
  the node's normaliser d(n) in a first pallas region; on the host it gathers each edge's source row, multiplies by the
  edge weight and scatter-adds into the destination row; a second region scales by d(n), adds the bias, clips at zero,
  projects through the second weight matrix and scales by d(n) again; the host aggregates again; a third region scales by
  d(n) and adds the second bias; the result is transposed back. The reference works time-major and puts the full edge
  norm d(src) w d(dst) on every message. At the ideal values both are the same function of the arguments as soon as no
  word of the edge list is negative (the precondition asks each word to be a node number): d(n) is a nonnegative real,
  so it distributes over the sum of the messages that land in n, and for those messages the clamped destination is n.

  The three frames are the generated ones (the reference's is its generated run with the results dropped); the ideal pass
  rewrote nothing, so the idealization claim is trivial; the value claim is assembled from the kernel program's run
  with its results named, the reference's generated run, and the bridge between their two result terms.
-/
import proofs.«171573_j88725434400964_2_alg».proof.Defs
import proofs.«171573_j88725434400964_2_alg».proof.Proof.Gen.Kernel
import proofs.«171573_j88725434400964_2_alg».proof.Proof.Gen.Kernel.Skeleton
import proofs.«171573_j88725434400964_2_alg».proof.Proof.Gen.Kernel.Launch
import proofs.«171573_j88725434400964_2_alg».proof.Proof.Gen.Kernel.Points
import proofs.«171573_j88725434400964_2_alg».proof.Proof.Gen.Kernel.Frame
import proofs.«171573_j88725434400964_2_alg».proof.Proof.Gen.KernelIdeal
import proofs.«171573_j88725434400964_2_alg».proof.Proof.Gen.KernelIdeal.Skeleton
import proofs.«171573_j88725434400964_2_alg».proof.Proof.Gen.KernelIdeal.Launch
import proofs.«171573_j88725434400964_2_alg».proof.Proof.Gen.KernelIdeal.Points
import proofs.«171573_j88725434400964_2_alg».proof.Proof.Gen.KernelIdeal.Frame
import proofs.«171573_j88725434400964_2_alg».proof.Proof.Gen.ReferenceIdeal
import proofs.«171573_j88725434400964_2_alg».proof.Proof.Gen.Pre_finite_inputs
import proofs.«171573_j88725434400964_2_alg».proof.Proof.Gen.ReferenceIdeal.Run
import proofs.«171573_j88725434400964_2_alg».proof.Proof.Gen.ReferenceIdeal.Read
import proofs.«171573_j88725434400964_2_alg».proof.Proof.KernelRun
import proofs.«171573_j88725434400964_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments, on the stated domain, both programs end with the same two results. -/
theorem algebraic : Cert.algebraic_KernelIdeal_ReferenceIdeal := by
  intro m ρ m' ρ' hpre hagree
  refine ⟨fun c => Cert.KernelIdeal.Gen.W11 m ρ c (Proc.devRef .tc Cert.KernelIdeal.main_v56),
    fun c => Cert.KernelIdeal.Gen.W11 m ρ c (Proc.devRef .tc Cert.KernelIdeal.main_c_10),
    Cert.KernelIdeal.RunValue.run_values m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v79_eq, (hagree c).1, (hagree c).2.1, (hagree c).2.2.1, (hagree c).2.2.2.2.1,
      (hagree c).2.2.2.2.2.1, (hagree c).2.2.2.2.2.2.1, (hagree c).2.2.2.2.2.2.2]
    exact (Cert.Bridge.value_eq m ρ c (hpre c)).symm
  · exact (Cert.KernelIdeal.OutValue.stage5_zero m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
